-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x512 : Shape := ⟨3, ![16, 512, 512]⟩
abbrev S8000x512 : Shape := ⟨2, ![8000, 512]⟩
abbrev S_ : Shape := ⟨0, ![]⟩

class Facts : Prop where
  bcast_S_S16x512x512 : S_.BroadcastsInDim S16x512x512 (![] : Fin 0 → Fin S16x512x512.rank)
  reducesTo_S16x512x512_S_d0_1_2 : S16x512x512.ReducesTo [0, 1, 2] S_
  h_S_ : 0 < S_.numel
  bcast_S_S8000x512 : S_.BroadcastsInDim S8000x512 (![] : Fin 0 → Fin S8000x512.rank)
  reducesTo_S8000x512_S_d0_1 : S8000x512.ReducesTo [0, 1] S_

variable [Facts]

def fn {F : FTy → Type} [FloatOps F] (main_arg0 : FVec F S16x512x512 .f32) (main_arg1 : FVec F S8000x512 .f32) : IVec S_ 1 :=
  let main_v0 : FVec F S16x512x512 .f32 := Host.absf main_arg0
  let main_cst : FVec F S_ .f32 := constant S_ .f32 0x7F800000#32
  let main_v1 : FVec F S16x512x512 .f32 := broadcastInDim S16x512x512 ![] bcast_S_S16x512x512 main_cst
  let main_v2 : IVec S16x512x512 1 := cmpf .olt main_v0 main_v1
  let main_c : IVec S_ 1 := constantI S_ 1 1#1
  let main_v3 : IVec S_ 1 := (fun x v => Host.reduce IntOp.andi x v reducesTo_S16x512x512_S_d0_1_2 h_S_) main_v2 main_c
  let main_v4 : FVec F S8000x512 .f32 := Host.absf main_arg1
  let main_cst_0 : FVec F S_ .f32 := constant S_ .f32 0x7F800000#32
  let main_v5 : FVec F S8000x512 .f32 := broadcastInDim S8000x512 ![] bcast_S_S8000x512 main_cst_0
  let main_v6 : IVec S8000x512 1 := cmpf .olt main_v4 main_v5
  let main_c_1 : IVec S_ 1 := constantI S_ 1 1#1
  let main_v7 : IVec S_ 1 := (fun x v => Host.reduce IntOp.andi x v reducesTo_S8000x512_S_d0_1 h_S_) main_v6 main_c_1
  let main_v8 : IVec S_ 1 := andi main_v3 main_v7
  main_v8
-- ==== Kernel.lean ====
abbrev S16x512x512 : Shape := ⟨3, ![16, 512, 512]⟩
abbrev S8000x512 : Shape := ⟨2, ![8000, 512]⟩
abbrev S16x1x512 : Shape := ⟨3, ![16, 1, 512]⟩
abbrev S16x512x1 : Shape := ⟨3, ![16, 512, 1]⟩
abbrev S1x512x512 : Shape := ⟨3, ![1, 512, 512]⟩
abbrev S1x1x512 : Shape := ⟨3, ![1, 1, 512]⟩
abbrev S1x512x1 : Shape := ⟨3, ![1, 512, 1]⟩
abbrev S512x512 : Shape := ⟨2, ![512, 512]⟩
abbrev S1x512 : Shape := ⟨2, ![1, 512]⟩
abbrev S2000x512 : Shape := ⟨2, ![2000, 512]⟩
abbrev S512 : Shape := ⟨1, ![512]⟩
abbrev S512x1 : Shape := ⟨2, ![512, 1]⟩
abbrev S16x8000x512 : Shape := ⟨3, ![16, 8000, 512]⟩
abbrev S1x1000x512 : Shape := ⟨3, ![1, 1000, 512]⟩
abbrev S1000x512 : Shape := ⟨2, ![1000, 512]⟩

abbrev nBuf : Space → Nat
  | .hbm => 5
  | .vmem => 21
  | .smem => 0
  | _ => 0

abbrev bufTy : (tb : Table) → Fin (tcTables nBuf tb) → BufTy
  | .hbm, ⟨0, _⟩ => ⟨S16x512x512, .f32⟩
  | .hbm, ⟨1, _⟩ => ⟨S8000x512, .f32⟩
  | .hbm, ⟨2, _⟩ => ⟨S16x1x512, .f32⟩
  | .hbm, ⟨3, _⟩ => ⟨S16x512x1, .f32⟩
  | .hbm, ⟨4, _⟩ => ⟨S16x8000x512, .f32⟩
  | .local _ .vmem, ⟨0, _⟩ => ⟨S1x512x512, .f32⟩
  | .local _ .vmem, ⟨1, _⟩ => ⟨S1x512x512, .f32⟩
  | .local _ .vmem, ⟨2, _⟩ => ⟨S8000x512, .f32⟩
  | .local _ .vmem, ⟨3, _⟩ => ⟨S1x1x512, .f32⟩
  | .local _ .vmem, ⟨4, _⟩ => ⟨S1x1x512, .f32⟩
  | .local _ .vmem, ⟨5, _⟩ => ⟨S1x512x1, .f32⟩
  | .local _ .vmem, ⟨6, _⟩ => ⟨S1x512x1, .f32⟩
  | .local _ .vmem, ⟨7, _⟩ => ⟨S512x512, .bf16⟩
  | .local _ .vmem, ⟨8, _⟩ => ⟨S1x512, .f32⟩
  | .local _ .vmem, ⟨9, _⟩ => ⟨S1x512, .f32⟩
  | .local _ .vmem, ⟨10, _⟩ => ⟨S1x512x512, .f32⟩
  | .local _ .vmem, ⟨11, _⟩ => ⟨S1x512x512, .f32⟩
  | .local _ .vmem, ⟨12, _⟩ => ⟨S8000x512, .f32⟩
  | .local _ .vmem, ⟨13, _⟩ => ⟨S1x1x512, .f32⟩
  | .local _ .vmem, ⟨14, _⟩ => ⟨S1x1x512, .f32⟩
  | .local _ .vmem, ⟨15, _⟩ => ⟨S1x512x1, .f32⟩
  | .local _ .vmem, ⟨16, _⟩ => ⟨S1x512x1, .f32⟩
  | .local _ .vmem, ⟨17, _⟩ => ⟨S1x1000x512, .f32⟩
  | .local _ .vmem, ⟨18, _⟩ => ⟨S1x1000x512, .f32⟩
  | .local _ .vmem, ⟨19, _⟩ => ⟨S512x512, .bf16⟩
  | .local _ .vmem, ⟨20, _⟩ => ⟨S512x512, .bf16⟩
  | _, _ => ⟨S16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc1_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c2000_i32 : BitVec 32 := 2000#32
  let v3 : BitVec 32 := Scalar.muli arg1 c2000_i32
  v3
def k0_off1 (i : grid0.Coords) : Fin 2 → Nat :=
  let arg1 : BitVec 32 := BitVec.ofNat 32 (i 1).val
  let c2000_i32 : BitVec 32 := 2000#32
  let v3 : BitVec 32 := Scalar.muli arg1 c2000_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c3_i32 : BitVec 32 := 3#32
  let v30 : BitVec 1 := Scalar.cmpi .eq arg1 c3_i32
  let v31 : BitVec 32 := Scalar.extui v30
  let c0_i32_13 : BitVec 32 := 0#32
  let v32 : BitVec 1 := Scalar.cmpi .ne v31 c0_i32_13
  v32

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8000x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![16, 8], ![false, false]⟩

def k1_mult1 (i : grid1.Coords) : BitVec 32 :=
  let arg1 : BitVec 32 := BitVec.ofNat 32 (i 1).val
  let c1000_i32 : BitVec 32 := 1000#32
  let v3 : BitVec 32 := Scalar.muli arg1 c1000_i32
  v3
def k1_off1 (i : grid1.Coords) : Fin 2 → Nat :=
  let arg1 : BitVec 32 := BitVec.ofNat 32 (i 1).val
  let c1000_i32 : BitVec 32 := 1000#32
  let v3 : BitVec 32 := Scalar.muli arg1 c1000_i32
  let v4 : BitVec 32 := v3
  let v5 : Index := Scalar.indexCast v4
  let c0 : Index := 0#32
  ![v5.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S8000x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1000x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S512x512_S512x512_0_0 : (Rect.unit (s := S512x512) ![0, 0] S512x512.size inb_S512x512_S512x512_0_0).PackedRows (EltTy.packing .bf16)
  inb_S1x512_S1x512_0_0 : ∀ a, (![0, 0] : Fin 2 → Nat) a + S1x512.size a ≤ S1x512.size a
  h_S1x512 : 0 < S1x512.numel
  shapeCasts_S1x512_S1x512 : S1x512.ShapeCasts S1x512
  h_S2000x512 : 0 < S2000x512.numel
  reduces_S2000x512_S512 : S2000x512.Reduces [0] S512
  shapeCasts_S512_S1x512 : S512.ShapeCasts S1x512
  broadcasts_S1x512_S2000x512 : S1x512.Broadcasts S2000x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  transposes_S1x512_p1_0_S512x1 : S1x512.Transposes [1, 0] S512x1
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  broadcasts_S512x1_S512x512 : S512x1.Broadcasts S512x512
  h_S1000x512 : 0 < S1000x512.numel
  broadcasts_S1x512_S1000x512 : S1x512.Broadcasts S1000x512
  inb_S1x1000x512_S1x1000x512_0_0_0 : ∀ a, (![0, 0, 0] : Fin 3 → Nat) a + S1x1000x512.size a ≤ S1x1000x512.size a
  h_S1x1000x512 : 0 < S1x1000x512.numel
  shapeCasts_S1x1000x512_S1000x512 : S1x1000x512.ShapeCasts S1000x512
  shapeCasts_S1000x512_S1x1000x512 : S1000x512.ShapeCasts S1x1000x512
  dot_S2000x512_S512x512_S2000x512_1_1_0_0_n_n_wf : DotDims.WF S2000x512 S512x512 S2000x512 [1] [1] [0] [0] [] []
  dot_S1000x512_S512x512_S1000x512_1_1_0_0_n_n_wf : DotDims.WF S1000x512 S512x512 S1000x512 [1] [1] [0] [0] [] []
  dot_S1000x512_S512x512_S1000x512_1_0_0_1_n_n_wf : DotDims.WF S1000x512 S512x512 S1000x512 [1] [0] [0] [1] [] []
  hrank0 : 0 < grid0.rank
  k0_mult1_dvd : ∀ i : grid0.Coords, 2000 ∣ (k0_mult1 i).toNat
  k0_off1_inb : ∀ i : grid0.Coords, ∀ a, (k0_off1 i) a + S2000x512.size a ≤ S8000x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S16x512x512.size a
  hwx0_0 : ∀ i : grid0.Coords, EltTy.bits .f32 = 32 ∨ (Rect.block (s := S16x512x512) S1x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8000x512.size a ≤ S8000x512.size a
  hwx0_1 : ∀ i : grid0.Coords, EltTy.bits .f32 = 32 ∨ (Rect.block (s := S8000x512) S8000x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S16x1x512.size a
  hwx0_2 : ∀ i : grid0.Coords, EltTy.bits .f32 = 32 ∨ (Rect.block (s := S16x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S16x512x1.size a
  hwx0_3 : ∀ i : grid0.Coords, EltTy.bits .f32 = 32 ∨ (Rect.block (s := S16x512x1) S1x512x1.size (cc0_transform_3 i) (hinb0_3 i)).WholeWords (EltTy.packing .f32)
  hrank1 : 0 < grid1.rank
  k1_mult1_dvd : ∀ i : grid1.Coords, 1000 ∣ (k1_mult1 i).toNat
  k1_off1_inb : ∀ i : grid1.Coords, ∀ a, (k1_off1 i) a + S1000x512.size a ≤ S8000x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x512.size a ≤ S16x512x512.size a
  hwx1_0 : ∀ i : grid1.Coords, EltTy.bits .f32 = 32 ∨ (Rect.block (s := S16x512x512) S1x512x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8000x512.size a ≤ S8000x512.size a
  hwx1_1 : ∀ i : grid1.Coords, EltTy.bits .f32 = 32 ∨ (Rect.block (s := S8000x512) S8000x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x512.size a ≤ S16x1x512.size a
  hwx1_2 : ∀ i : grid1.Coords, EltTy.bits .f32 = 32 ∨ (Rect.block (s := S16x1x512) S1x1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1.size a ≤ S16x512x1.size a
  hwx1_3 : ∀ i : grid1.Coords, EltTy.bits .f32 = 32 ∨ (Rect.block (s := S16x512x1) S1x512x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1000x512.size a ≤ S16x8000x512.size a
  hwx1_4 : ∀ i : grid1.Coords, EltTy.bits .f32 = 32 ∨ (Rect.block (s := S16x8000x512) S1x1000x512.size (cc1_transform_4 i) (hinb1_4 i)).WholeWords (EltTy.packing .f32)

variable [Facts₀]

def dot_S2000x512_S512x512_S2000x512_1_1_0_0_n_n : DotDims S2000x512 S512x512 S2000x512 where
  lhsContracting := [1]
  rhsContracting := [1]
  lhsNonContracting := [0]
  rhsNonContracting := [0]
  lhsBatch := []
  rhsBatch := []
  wf := dot_S2000x512_S512x512_S2000x512_1_1_0_0_n_n_wf
def dot_S1000x512_S512x512_S1000x512_1_1_0_0_n_n : DotDims S1000x512 S512x512 S1000x512 where
  lhsContracting := [1]
  rhsContracting := [1]
  lhsNonContracting := [0]
  rhsNonContracting := [0]
  lhsBatch := []
  rhsBatch := []
  wf := dot_S1000x512_S512x512_S1000x512_1_1_0_0_n_n_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S1x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S1x1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S1x512x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x1000x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16x512x512 : Shape := ⟨3, ![16, 512, 512]⟩
abbrev S8000x512 : Shape := ⟨2, ![8000, 512]⟩
abbrev S8000x16x512 : Shape := ⟨3, ![8000, 16, 512]⟩
abbrev S16x8000x512 : Shape := ⟨3, ![16, 8000, 512]⟩
abbrev S_ : Shape := ⟨0, ![]⟩
abbrev S16x512 : Shape := ⟨2, ![16, 512]⟩
abbrev S16x1x512 : Shape := ⟨3, ![16, 1, 512]⟩

abbrev nBuf : Space → Nat
  | .hbm => 19
  | .vmem => 0
  | .smem => 0
  | _ => 0

abbrev bufTy : (tb : Table) → Fin (tcTables nBuf tb) → BufTy
  | .hbm, ⟨0, _⟩ => ⟨S16x512x512, .f32⟩
  | .hbm, ⟨1, _⟩ => ⟨S8000x512, .f32⟩
  | .hbm, ⟨2, _⟩ => ⟨S8000x16x512, .f32⟩
  | .hbm, ⟨3, _⟩ => ⟨S16x8000x512, .f32⟩
  | .hbm, ⟨4, _⟩ => ⟨S_, .f32⟩
  | .hbm, ⟨5, _⟩ => ⟨S16x512, .f32⟩
  | .hbm, ⟨6, _⟩ => ⟨S_, .f32⟩
  | .hbm, ⟨7, _⟩ => ⟨S16x512, .f32⟩
  | .hbm, ⟨8, _⟩ => ⟨S16x512, .f32⟩
  | .hbm, ⟨9, _⟩ => ⟨S16x1x512, .f32⟩
  | .hbm, ⟨10, _⟩ => ⟨S16x8000x512, .f32⟩
  | .hbm, ⟨11, _⟩ => ⟨S16x8000x512, .f32⟩
  | .hbm, ⟨12, _⟩ => ⟨S16x8000x512, .f32⟩
  | .hbm, ⟨13, _⟩ => ⟨S_, .f32⟩
  | .hbm, ⟨14, _⟩ => ⟨S16x512, .f32⟩
  | .hbm, ⟨15, _⟩ => ⟨S16x1x512, .f32⟩
  | .hbm, ⟨16, _⟩ => ⟨S16x8000x512, .f32⟩
  | .hbm, ⟨17, _⟩ => ⟨S16x8000x512, .f32⟩
  | .hbm, ⟨18, _⟩ => ⟨S16x8000x512, .f32⟩
  | _, _ => ⟨S16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  transposes_S8000x16x512_S16x8000x512_1_0_2 : S8000x16x512.Transposes [1, 0, 2] S16x8000x512
  reducesTo_S16x8000x512_S16x512_d1 : S16x8000x512.ReducesTo [1] S16x512
  h_S_ : 0 < S_.numel
  bcast_S_S16x512 : S_.BroadcastsInDim S16x512 (![] : Fin 0 → Fin S16x512.rank)
  bcast_S16x512_S16x1x512_0_2 : S16x512.BroadcastsInDim S16x1x512 (![0, 2] : Fin 2 → Fin S16x1x512.rank)
  bcast_S16x1x512_S16x8000x512_0_1_2 : S16x1x512.BroadcastsInDim S16x8000x512 (![0, 1, 2] : Fin 3 → Fin S16x8000x512.rank)
  dot_S8000x512_S16x512x512_S8000x16x512_1_2_0_01_n_n_wf : DotDims.WF S8000x512 S16x512x512 S8000x16x512 [1] [2] [0] [0, 1] [] []
  dot_S16x8000x512_S16x512x512_S16x8000x512_2_1_1_2_0_0_wf : DotDims.WF S16x8000x512 S16x512x512 S16x8000x512 [2] [1] [1] [2] [0] [0]

variable [Facts₀]

def dot_S8000x512_S16x512x512_S8000x16x512_1_2_0_01_n_n : DotDims S8000x512 S16x512x512 S8000x16x512 where
  lhsContracting := [1]
  rhsContracting := [2]
  lhsNonContracting := [0]
  rhsNonContracting := [0, 1]
  lhsBatch := []
  rhsBatch := []
  wf := dot_S8000x512_S16x512x512_S8000x16x512_1_2_0_01_n_n_wf
def dot_S16x8000x512_S16x512x512_S16x8000x512_2_1_1_2_0_0 : DotDims S16x8000x512 S16x512x512 S16x8000x512 where
  lhsContracting := [2]
  rhsContracting := [1]
  lhsNonContracting := [1]
  rhsNonContracting := [2]
  lhsBatch := [0]
  rhsBatch := [0]
  wf := dot_S16x8000x512_S16x512x512_S16x8000x512_2_1_1_2_0_0_wf

class Facts : Prop extends Facts₀ where

variable [Facts]
-- ==== Proof.WStatsBase.lean ====
/-
  The statistics pass (the first of the kernel's two passes), part 1: what its body's branches decide and the
  buffers it works on.

  The pass walks a grid of 16 batch entries by 4 label tiles, in row-major order, so a point t belongs to batch
  entry t / 4 and label tile t % 4. Its body has two branches on the tile: at the FIRST tile (t % 4 = 0) it copies
  the batch entry's states into a scratch buffer and resets the running maximum (to the bottom element) and the
  running sum (to zero), both kept in scratch across the tiles; at the LAST tile (t % 4 = 3) it stores the final
  maximum and the reciprocal of the final sum into its two output windows, which at the other tiles are left
  untouched and are not written back. So a point is in one of three cases: first tile, a middle tile, last tile.

  Everything here is stated for ANY buffer contents V at the pass's entry and at any float instance.
-/
import proofs.«106505_j49632642072960_2_alg».proof.Proof.Gen.Kernel.Launch
import proofs.«106505_j49632642072960_2_alg».proof.Proof.Gen.Kernel.Skeleton
import proofs.«106505_j49632642072960_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The states' window holds the batch entry's block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The label vectors' window holds the whole table at every point (it is fetched once). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, decided over the grid -/

/-- "This is the first label tile of the batch entry." -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last label tile of the batch entry." -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last tile the two outputs are idle and are not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last tile both are stored. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

/-! ## The buffers the body works on -/

/-- One staging buffer of each output window, through which its contents are stated. -/
abbrev VO0_2 : View sig .tc .vmem S1x1x512 .f32 := (Memref.whole cc0_stg2_0 : Memref sig .tc .vmem S1x1x512 .f32).view
abbrev VO0_3 : View sig .tc .vmem S1x512x1 .f32 := (Memref.whole cc0_stg3_0 : Memref sig .tc .vmem S1x512x1 .f32).view
/-- Each window's current staging buffer at point `t`. -/
abbrev ms0_0 (t : Fin cfg0.N) : Memref sig .tc .vmem S1x512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8000x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x1 .f32 := win0_3.stage (cfg0.slots t 3)
abbrev hs0_3 (t : Fin cfg0.N) : (ms0_3 t).IsWhole := hstage0_3 ((cfg0.slots t 3).cast nbuf0_3)
/-- The three scratch buffers: the states' copy, the running maximum, the running sum. -/
abbrev scM0_0 : Memref sig .tc .vmem S512x512 .bf16 := Memref.whole cc0_scratch0
abbrev scM0_1 : Memref sig .tc .vmem S1x512 .f32 := Memref.whole cc0_scratch1
abbrev scM0_2 : Memref sig .tc .vmem S1x512 .f32 := Memref.whole cc0_scratch2
abbrev VS0_0 : View sig .tc .vmem S512x512 .bf16 := scM0_0.view
abbrev VS0_1 : View sig .tc .vmem S1x512 .f32 := scM0_1.view
abbrev VS0_2 : View sig .tc .vmem S1x512 .f32 := scM0_2.view

/-- The scoped buffers this pass never touches (the other pass's staging and scratch), each at some contents. -/
def restOther0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- What the pass is handed besides its windows: its three scratch buffers at some contents, the untouched rest,
    and the random-number register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ restOther0 (F := F) c) ∗ (∃ r, prngReg c r)) := by
  unfold Pipeline.ΦA restOther0; rw [scopedRest0_eq]; simp only [scM0_0, scM0_1, scM0_2, owns_whole]; try rfl

end Cert.Kernel.Hand

end
-- ==== Proof.WStatsRunA.lean ====
/-
  The statistics pass, part 2: the body at a FIRST label tile, run once on any staging buffers.
  The run's witness is, per scratch buffer, the list of stores the body leaves in it (last first): the states'
  copy, then the reset maximum overwritten by the tile's maximum, the reset sum overwritten by the tile's sum.
-/
import proofs.«106505_j49632642072960_2_alg».proof.Proof.WStatsBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a first tile: the states' block and the label table are read, the outputs are not touched, and the three
    scratch buffers — found at anything — end with the stores listed. -/
noncomputable def kernelRun0_A (c : Dev nD) (i : grid0.Coords) (arg2 : Memref sig .tc .vmem S1x512x512 .f32) (harg2 : arg2.IsWhole) (arg3 : Memref sig .tc .vmem S8000x512 .f32) (harg3 : arg3.IsWhole) (arg4 : Memref sig .tc .vmem S1x1x512 .f32) (harg4 : arg4.IsWhole) (arg5 : Memref sig .tc .vmem S1x512x1 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x512 .f32) (harg8 : arg8.IsWhole) (hc0 : cond0_0 i) (hc1 : ¬cond0_1 i)
    (x0 : Vec F S1x512x512 .f32) (x1 : Vec F S8000x512 .f32) :
    Σ' (LS0 : List (View.Piece (Elt F) S512x512 .bf16)) (LS1 : List (View.Piece (Elt F) S1x512 .f32)), { LS2 : List (View.Piece (Elt F) S1x512 .f32) //
      ∀ (E : Set ℕ) (K : PUnit → sProp 𝕄),
        iprop(owns (c : Thread nD τ) arg2 fullShare x0 ∗ owns (c : Thread nD τ) arg3 fullShare x1 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__stats_kernel i arg2 harg2 arg3 harg3 arg4 harg4 arg5 harg5 arg6 harg6 arg7 harg7 arg8 harg8) K } := by
  refine ⟨?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%ds0, %fs0, -, HS0⟩, ⟨%ds1, %fs1, -, HS1⟩, ⟨%ds2, %fs2, -, HS2⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    isplitl [HS1]; · iexists _; iexact HS1
    iexists _; iexact HS2

end Cert.Kernel.Hand

end
-- ==== Proof.WStatsRunB.lean ====
/-
  The statistics pass, part 3: the body at a MIDDLE label tile. The states' copy is only read; the running maximum
  and the running sum, found as the tile before left them, are each overwritten once.
-/
import proofs.«106505_j49632642072960_2_alg».proof.Proof.WStatsRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a middle tile: inputs and the states' copy `xs0` are handed back as found; the running maximum and sum,
    found at `xs1`, `xs2`, end with the stores listed. -/
noncomputable def kernelRun0_B (c : Dev nD) (i : grid0.Coords) (arg2 : Memref sig .tc .vmem S1x512x512 .f32) (harg2 : arg2.IsWhole) (arg3 : Memref sig .tc .vmem S8000x512 .f32) (harg3 : arg3.IsWhole) (arg4 : Memref sig .tc .vmem S1x1x512 .f32) (harg4 : arg4.IsWhole) (arg5 : Memref sig .tc .vmem S1x512x1 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x512 .f32) (harg8 : arg8.IsWhole) (hc0 : ¬cond0_0 i) (hc1 : ¬cond0_1 i)
    (x0 : Vec F S1x512x512 .f32) (x1 : Vec F S8000x512 .f32) (xs0 : Vec F S512x512 .bf16) (xs1 : Vec F S1x512 .f32) (xs2 : Vec F S1x512 .f32) :
    Σ' (LS1 : List (View.Piece (Elt F) S1x512 .f32)), { LS2 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg6 fullShare xs0 ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__stats_kernel i arg2 harg2 arg3 harg3 arg4 harg4 arg5 harg5 arg6 harg6 arg7 harg7 arg8 harg8) K } := by
  refine ⟨?_, ?_, fun E K => ?run⟩
  case run =>
    simp only [cc0__stats_kernel_eq_skeleton]; unfold cc0__stats_kernel_skel
    unfold owns
    iintro ⟨⟨%f0, %hf0, H0⟩, ⟨%f1, %hf1, H1⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg6.eq_unread hfs0
    obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]
    · iexists _; isplitr; · ipureintro; exact harg6.read_unread _
      iexact HS0
    isplitl [HS1]; · iexists _; iexact HS1
    iexists _; iexact HS2

end Cert.Kernel.Hand

end
-- ==== Proof.WStatsRunC.lean ====
/-
  The statistics pass, part 4: the body at the LAST label tile. As at a middle tile, and then the final maximum and
  the reciprocal of the final sum are stored into the two output windows' buffers.
-/
import proofs.«106505_j49632642072960_2_alg».proof.Proof.WStatsRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the last tile: as at a middle tile, and the two outputs' buffers — found at anything — end with one store each. -/
noncomputable def kernelRun0_C (c : Dev nD) (i : grid0.Coords) (arg2 : Memref sig .tc .vmem S1x512x512 .f32) (harg2 : arg2.IsWhole) (arg3 : Memref sig .tc .vmem S8000x512 .f32) (harg3 : arg3.IsWhole) (arg4 : Memref sig .tc .vmem S1x1x512 .f32) (harg4 : arg4.IsWhole) (arg5 : Memref sig .tc .vmem S1x512x1 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x512 .f32) (harg8 : arg8.IsWhole) (hc0 : ¬cond0_0 i) (hc1 : cond0_1 i)
    (x0 : Vec F S1x512x512 .f32) (x1 : Vec F S8000x512 .f32) (xs0 : Vec F S512x512 .bf16) (xs1 : Vec F S1x512 .f32) (xs2 : Vec F S1x512 .f32) :
    Σ' (L2 : List (View.Piece (Elt F) S1x1x512 .f32)) (L3 : List (View.Piece (Elt F) S1x512x1 .f32)) (LS1 : List (View.Piece (Elt F) S1x512 .f32)), { LS2 : List (View.Piece (Elt F) S1x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ owns (c : Thread nD τ) arg6 fullShare xs0 ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__stats_kernel i arg2 harg2 arg3 harg3 arg4 harg4 arg5 harg5 arg6 harg6 arg7 harg7 arg8 harg8) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg6.eq_unread hfs0
    obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]
    · iexists _; isplitr; · ipureintro; exact harg6.read_unread _
      iexact HS0
    isplitl [HS1]; · iexists _; iexact HS1
    iexists _; iexact HS2

end Cert.Kernel.Hand

end
-- ==== Proof.WStatsFrame.lean ====
/-
  The statistics pass, part 5: what its scratch buffers and outputs hold point by point, and the body's
  obligation to the pipeline.

  The three scratch buffers are carried from point to point. After a first tile they hold what that case's stores
  leave (the states' copy; the tile's maximum over the reset value; the tile's sum over the reset value); after
  a later tile the states' copy is unchanged and the running maximum and sum are what the case's stores leave when
  run from the previous point's contents: a recursion on the position in the grid. The outputs are stored at last
  tiles only, from the scratch contents of the point before. The pipeline's invariant between two points is: the
  three scratch buffers at those contents, the scoped buffers of the other pass at anything, the random-number register.
-/
import proofs.«106505_j49632642072960_2_alg».proof.Proof.WStatsRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The cases at a point -/

theorem c0_of (t : Fin cfg0.N) (h : t.val % 4 = 0) : cond0_0 (grid0.coords t) := (hcond0_0 t).mpr h
theorem nc0_of (t : Fin cfg0.N) (h : ¬t.val % 4 = 0) : ¬cond0_0 (grid0.coords t) := fun hc => h ((hcond0_0 t).mp hc)
theorem c1_of (t : Fin cfg0.N) (h : t.val % 4 = 3) : cond0_1 (grid0.coords t) := (hcond0_1 t).mpr h
theorem nc1_of (t : Fin cfg0.N) (h : ¬t.val % 4 = 3) : ¬cond0_1 (grid0.coords t) := fun hc => h ((hcond0_1 t).mp hc)
theorem nc1_of_first (t : Fin cfg0.N) (h : t.val % 4 = 0) : ¬cond0_1 (grid0.coords t) :=
  nc1_of t (by omega)
theorem nc0_of_last (t : Fin cfg0.N) (h : t.val % 4 = 3) : ¬cond0_0 (grid0.coords t) :=
  nc0_of t (by omega)

/-- The body's run at a first tile, at the point's buffers and blocks. -/
abbrev runA (c : Dev nD) (t : Fin cfg0.N) (h0 : t.val % 4 = 0) :=
  kernelRun0_A (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (c0_of t h0) (nc1_of_first t h0) (iblk0 V c 0 t) (iblk0 V c 1 t)
/-- At a middle tile, from the scratch contents `p` the point before left. -/
abbrev runB (c : Dev nD) (t : Fin cfg0.N) (h0 : ¬t.val % 4 = 0) (h1 : ¬t.val % 4 = 3) (p : Vec F S512x512 .bf16 × Vec F S1x512 .f32 × Vec F S1x512 .f32) :=
  kernelRun0_B (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (nc0_of t h0) (nc1_of t h1) (iblk0 V c 0 t) (iblk0 V c 1 t) p.1 p.2.1 p.2.2
/-- At the last tile. -/
abbrev runC (c : Dev nD) (t : Fin cfg0.N) (h1 : t.val % 4 = 3) (p : Vec F S512x512 .bf16 × Vec F S1x512 .f32 × Vec F S1x512 .f32) :=
  kernelRun0_C (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (nc0_of_last t h1) (c1_of t h1) (iblk0 V c 0 t) (iblk0 V c 1 t) p.1 p.2.1 p.2.2

/-! ## The stores of each case cover the buffer they go to -/

theorem coverA_0 (c : Dev nD) (t : Fin cfg0.N) (h0 : t.val % 4 = 0) (y : S512x512.Idx) : ∃ pc ∈ (runA V c t h0).1, y ∈ pc.1.set :=
  View.cover_of_tiledL (runA V c t h0).1 S512x512.size (by sl_kernel_rfl) y
theorem coverA_1 (c : Dev nD) (t : Fin cfg0.N) (h0 : t.val % 4 = 0) (y : S1x512.Idx) : ∃ pc ∈ (runA V c t h0).2.1, y ∈ pc.1.set :=
  View.cover_of_tiledL (runA V c t h0).2.1 S1x512.size (by sl_kernel_rfl) y
theorem coverA_2 (c : Dev nD) (t : Fin cfg0.N) (h0 : t.val % 4 = 0) (y : S1x512.Idx) : ∃ pc ∈ (runA V c t h0).2.2.1, y ∈ pc.1.set :=
  View.cover_of_tiledL (runA V c t h0).2.2.1 S1x512.size (by sl_kernel_rfl) y
theorem coverB_1 (c : Dev nD) (t : Fin cfg0.N) (h0 : ¬t.val % 4 = 0) (h1 : ¬t.val % 4 = 3) (p : Vec F S512x512 .bf16 × Vec F S1x512 .f32 × Vec F S1x512 .f32) (y : S1x512.Idx) : ∃ pc ∈ (runB V c t h0 h1 p).1, y ∈ pc.1.set :=
  View.cover_of_tiledL (runB V c t h0 h1 p).1 S1x512.size (by sl_kernel_rfl) y
theorem coverB_2 (c : Dev nD) (t : Fin cfg0.N) (h0 : ¬t.val % 4 = 0) (h1 : ¬t.val % 4 = 3) (p : Vec F S512x512 .bf16 × Vec F S1x512 .f32 × Vec F S1x512 .f32) (y : S1x512.Idx) : ∃ pc ∈ (runB V c t h0 h1 p).2.1, y ∈ pc.1.set :=
  View.cover_of_tiledL (runB V c t h0 h1 p).2.1 S1x512.size (by sl_kernel_rfl) y
theorem coverC_o2 (c : Dev nD) (t : Fin cfg0.N) (h1 : t.val % 4 = 3) (p : Vec F S512x512 .bf16 × Vec F S1x512 .f32 × Vec F S1x512 .f32) (y : S1x1x512.Idx) : ∃ pc ∈ (runC V c t h1 p).1, y ∈ pc.1.set :=
  View.cover_of_tiledL (runC V c t h1 p).1 S1x1x512.size (by sl_kernel_rfl) y
theorem coverC_o3 (c : Dev nD) (t : Fin cfg0.N) (h1 : t.val % 4 = 3) (p : Vec F S512x512 .bf16 × Vec F S1x512 .f32 × Vec F S1x512 .f32) (y : S1x512x1.Idx) : ∃ pc ∈ (runC V c t h1 p).2.1, y ∈ pc.1.set :=
  View.cover_of_tiledL (runC V c t h1 p).2.1 S1x512x1.size (by sl_kernel_rfl) y
theorem coverC_1 (c : Dev nD) (t : Fin cfg0.N) (h1 : t.val % 4 = 3) (p : Vec F S512x512 .bf16 × Vec F S1x512 .f32 × Vec F S1x512 .f32) (y : S1x512.Idx) : ∃ pc ∈ (runC V c t h1 p).2.2.1, y ∈ pc.1.set :=
  View.cover_of_tiledL (runC V c t h1 p).2.2.1 S1x512.size (by sl_kernel_rfl) y
theorem coverC_2 (c : Dev nD) (t : Fin cfg0.N) (h1 : t.val % 4 = 3) (p : Vec F S512x512 .bf16 × Vec F S1x512 .f32 × Vec F S1x512 .f32) (y : S1x512.Idx) : ∃ pc ∈ (runC V c t h1 p).2.2.2.1, y ∈ pc.1.set :=
  View.cover_of_tiledL (runC V c t h1 p).2.2.2.1 S1x512.size (by sl_kernel_rfl) y

/-! ## What each case leaves in the scratch buffers and the outputs -/

/-- After a first tile: the three scratch buffers, read back from the case's stores. -/
def afterFirst (c : Dev nD) (t : Fin cfg0.N) (h0 : t.val % 4 = 0) : Vec F S512x512 .bf16 × Vec F S1x512 .f32 × Vec F S1x512 .f32 :=
  (VS0_0.read (Elt F) (VS0_0.writes (Elt F) VS0_0.junk (runA V c t h0).1),
   VS0_1.read (Elt F) (VS0_1.writes (Elt F) VS0_1.junk (runA V c t h0).2.1),
   VS0_2.read (Elt F) (VS0_2.writes (Elt F) VS0_2.junk (runA V c t h0).2.2.1))
/-- After a middle tile, from the previous contents `p`: the states' copy as it was, the two running values rewritten. -/
def afterMiddle (c : Dev nD) (t : Fin cfg0.N) (h0 : ¬t.val % 4 = 0) (h1 : ¬t.val % 4 = 3) (p : Vec F S512x512 .bf16 × Vec F S1x512 .f32 × Vec F S1x512 .f32) : Vec F S512x512 .bf16 × Vec F S1x512 .f32 × Vec F S1x512 .f32 :=
  (p.1,
   VS0_1.read (Elt F) (VS0_1.writes (Elt F) VS0_1.junk (runB V c t h0 h1 p).1),
   VS0_2.read (Elt F) (VS0_2.writes (Elt F) VS0_2.junk (runB V c t h0 h1 p).2.1))
/-- After the last tile. -/
def afterLast (c : Dev nD) (t : Fin cfg0.N) (h1 : t.val % 4 = 3) (p : Vec F S512x512 .bf16 × Vec F S1x512 .f32 × Vec F S1x512 .f32) : Vec F S512x512 .bf16 × Vec F S1x512 .f32 × Vec F S1x512 .f32 :=
  (p.1,
   VS0_1.read (Elt F) (VS0_1.writes (Elt F) VS0_1.junk (runC V c t h1 p).2.2.1),
   VS0_2.read (Elt F) (VS0_2.writes (Elt F) VS0_2.junk (runC V c t h1 p).2.2.2.1))
/-- The two outputs' buffers after the last tile. -/
def outLast (c : Dev nD) (t : Fin cfg0.N) (h1 : t.val % 4 = 3) (p : Vec F S512x512 .bf16 × Vec F S1x512 .f32 × Vec F S1x512 .f32) : Vec F S1x1x512 .f32 × Vec F S1x512x1 .f32 :=
  (VO0_2.read (Elt F) (VO0_2.writes (Elt F) VO0_2.junk (runC V c t h1 p).1),
   VO0_3.read (Elt F) (VO0_3.writes (Elt F) VO0_3.junk (runC V c t h1 p).2.1))

/-! ## The scratch contents after each point -/

/-- THE RECURSION over the grid positions: what the three scratch buffers hold after the body at position `n`. -/
def scratchAt (c : Dev nD) : (n : ℕ) → n < cfg0.N → Vec F S512x512 .bf16 × Vec F S1x512 .f32 × Vec F S1x512 .f32
  | 0, hn => afterFirst V c ⟨0, hn⟩ (Nat.zero_mod 4)
  | n + 1, hn =>
    if h0 : (n + 1) % 4 = 0 then afterFirst V c ⟨n + 1, hn⟩ h0
    else if h1 : (n + 1) % 4 = 3 then afterLast V c ⟨n + 1, hn⟩ h1 (scratchAt c n (Nat.lt_of_succ_lt hn))
    else afterMiddle V c ⟨n + 1, hn⟩ h0 h1 (scratchAt c n (Nat.lt_of_succ_lt hn))

/-- The contents the point before `t` left (read only where `t` is not a first tile). -/
abbrev prevAt (c : Dev nD) (t : Fin cfg0.N) : Vec F S512x512 .bf16 × Vec F S1x512 .f32 × Vec F S1x512 .f32 :=
  scratchAt V c (t.val - 1) (Nat.lt_of_le_of_lt (Nat.sub_le _ _) t.isLt)

theorem scratchAt_first (c : Dev nD) (t : Fin cfg0.N) (h0 : t.val % 4 = 0) : scratchAt V c t.val t.isLt = afterFirst V c t h0 := by
  obtain ⟨n, hn⟩ := t
  cases n with
  | zero => exact rfl
  | succ n => exact (dif_pos h0).trans rfl
theorem scratchAt_middle (c : Dev nD) (t : Fin cfg0.N) (h0 : ¬t.val % 4 = 0) (h1 : ¬t.val % 4 = 3) :
    scratchAt V c t.val t.isLt = afterMiddle V c t h0 h1 (prevAt V c t) := by
  obtain ⟨n, hn⟩ := t
  cases n with
  | zero => exact absurd (Nat.zero_mod 4) h0
  | succ n => exact (dif_neg h0).trans ((dif_neg h1).trans rfl)
theorem scratchAt_last (c : Dev nD) (t : Fin cfg0.N) (h1 : t.val % 4 = 3) :
    scratchAt V c t.val t.isLt = afterLast V c t h1 (prevAt V c t) := by
  obtain ⟨n, hn⟩ := t
  cases n with
  | zero => exact absurd (show (0 : ℕ) % 4 = 3 from h1) (by decide)
  | succ n => exact (dif_neg (show ¬(n + 1) % 4 = 0 from fun h => by have h1' : (n + 1) % 4 = 3 := h1; omega)).trans ((dif_pos h1).trans rfl)

/-- The outputs' buffers after the body at `t`: at a last tile what that case stores; elsewhere nothing is stored and
    nothing reads this (the windows are idle there and not written back). -/
def outsAt (c : Dev nD) (t : Fin cfg0.N) : Vec F S1x1x512 .f32 × Vec F S1x512x1 .f32 :=
  if h1 : t.val % 4 = 3 then outLast V c t h1 (prevAt V c t)
  else (VO0_2.read (Elt F) VO0_2.junk, VO0_3.read (Elt F) VO0_3.junk)

theorem outsAt_last (c : Dev nD) (t : Fin cfg0.N) (h1 : t.val % 4 = 3) : outsAt V c t = outLast V c t h1 (prevAt V c t) := dif_pos h1

/-! ## The invariant between two points -/

def PhiS0 (c : Dev nD) : (n : ℕ) → n ≤ cfg0.N → sProp 𝕄
  | 0, _ => Pipeline.ΦA spec0 c
  | n + 1, hn => iprop(iprop(owns (c : Thread nD τ) scM0_0 fullShare (scratchAt V c n hn).1 ∗ owns (c : Thread nD τ) scM0_1 fullShare (scratchAt V c n hn).2.1
      ∗ owns (c : Thread nD τ) scM0_2 fullShare (scratchAt V c n hn).2.2 ∗ restOther0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare (scratchAt V c n hn).1 ∗ owns (c : Thread nD τ) scM0_1 fullShare (scratchAt V c n hn).2.1
      ∗ owns (c : Thread nD τ) scM0_2 fullShare (scratchAt V c n hn).2.2 ∗ restOther0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare (scratchAt V c (n - 1) (by omega)).1 ∗ owns (c : Thread nD τ) scM0_1 fullShare (scratchAt V c (n - 1) (by omega)).2.1
      ∗ owns (c : Thread nD τ) scM0_2 fullShare (scratchAt V c (n - 1) (by omega)).2.2 ∗ restOther0 (F := F) c) ∗ (∃ r, prngReg c r)) := by
  cases n with
  | zero => exact absurd rfl hz
  | succ n => rfl

/-! ## The pipeline's proof data -/

/-- The arrays as the pass finds them; after the body each input's buffer at its block, the outputs' at `outsAt`;
    the invariant `PhiS0`; no transfer units owed to anyone; each array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt V c t).1
    | ⟨3, _⟩ => (outsAt V c t).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt V c t).1 := by dsimp only [dat0]
theorem after0_3 (c : Dev nD) (t : Fin cfg0.N) : (dat0 V c).after 3 t = (outsAt V c t).2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

theorem leaves0_0 (c : Dev nD) (t : Fin cfg0.N) : (dat0 V c).leavesExact 0 t = owns (c : Thread nD τ) (ms0_0 t) fullShare (iblk0 V c 0 t) := by
  rw [show (dat0 V c).leavesExact 0 t = owns (c : Thread nD τ) (ms0_0 t) fullShare ((dat0 V c).after 0 t) from by
    unfold Dat.leavesExact; rw [liveAt0_0 t], after0_0]
theorem leaves0_1 (c : Dev nD) (t : Fin cfg0.N) : (dat0 V c).leavesExact 1 t = owns (c : Thread nD τ) (ms0_1 t) fullShare (iblk0 V c 1 t) := by
  rw [show (dat0 V c).leavesExact 1 t = owns (c : Thread nD τ) (ms0_1 t) fullShare ((dat0 V c).after 1 t) from by
    unfold Dat.leavesExact; rw [liveAt0_1 t], after0_1]

set_option maxHeartbeats 4800000 in
/-- The body at any point: the case is read off the position; the invariant hands the scratch buffers at what the
    point before left (at anything, before the first point) and takes them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [leaves0_0, leaves0_1]
  by_cases h0 : t.val % 4 = 0
  · have h1 : ¬t.val % 4 = 3 := by omega
    rw [Dat.leavesExact_idle (dat0 V c) 2 t (idleAt0_2 t (nc1_of t h1)) (noFlush0_2 t (nc1_of t h1)),
      Dat.leavesExact_idle (dat0 V c) 3 t (idleAt0_3 t (nc1_of t h1)) (noFlush0_3 t (nc1_of t h1))]
    rw [scratchAt_first V c t h0]
    unfold afterFirst; dsimp only
    by_cases hz : t.val = 0
    · rw [PhiS0_castSucc V c t, PhiS0_zero V c _ _ hz, PhiA0_eq]
      iintro ⟨⟨⟨HS0, HS1, HS2, Hrest⟩, Hg⟩, Ho, ⟨%d0, H0⟩, ⟨%d1, H1⟩, H2, H3⟩
      iapply ((runA V c t h0).2.2.2 Set.univ _)
      isplitl [H0]; · iexact H0
      isplitl [H1]; · iexact H1
      isplitl [HS0]; · iexact HS0
      isplitl [HS1]; · iexact HS1
      isplitl [HS2]; · iexact HS2
      iintro ⟨H0, H1, ⟨%es0, HS0⟩, ⟨%es1, HS1⟩, ⟨%es2, HS2⟩⟩
      isplitl [HS0 HS1 HS2 Hrest Hg]
      · isplitl [HS0 HS1 HS2 Hrest]
        · isplitl [HS0]
          · unfold owns; iexists _; isplitr
            swap; · iexact HS0
            ipureintro; exact View.read_writes_of_cover _ _ _ _ _ (coverA_0 V c t h0)
          isplitl [HS1]
          · unfold owns; iexists _; isplitr
            swap; · iexact HS1
            ipureintro; exact View.read_writes_of_cover _ _ _ _ _ (coverA_1 V c t h0)
          isplitl [HS2]
          · unfold owns; iexists _; isplitr
            swap; · iexact HS2
            ipureintro; exact View.read_writes_of_cover _ _ _ _ _ (coverA_2 V c t h0)
          iexact Hrest
        iexact Hg
      isplitl [Ho]; · iexact Ho
      isplitl [H0]; · iexact H0
      isplitl [H1]; · iexact H1
      isplitl [H2]; · iexact H2
      iexact H3
    · rw [PhiS0_castSucc V c t, PhiS0_pos V c _ _ hz]
      iintro ⟨⟨⟨HS0, HS1, HS2, Hrest⟩, Hg⟩, Ho, ⟨%d0, H0⟩, ⟨%d1, H1⟩, H2, H3⟩
      iapply ((runA V c t h0).2.2.2 Set.univ _)
      isplitl [H0]; · iexact H0
      isplitl [H1]; · iexact H1
      isplitl [HS0]; · iexists _; iexact HS0
      isplitl [HS1]; · iexists _; iexact HS1
      isplitl [HS2]; · iexists _; iexact HS2
      iintro ⟨H0, H1, ⟨%es0, HS0⟩, ⟨%es1, HS1⟩, ⟨%es2, HS2⟩⟩
      isplitl [HS0 HS1 HS2 Hrest Hg]
      · isplitl [HS0 HS1 HS2 Hrest]
        · isplitl [HS0]
          · unfold owns; iexists _; isplitr
            swap; · iexact HS0
            ipureintro; exact View.read_writes_of_cover _ _ _ _ _ (coverA_0 V c t h0)
          isplitl [HS1]
          · unfold owns; iexists _; isplitr
            swap; · iexact HS1
            ipureintro; exact View.read_writes_of_cover _ _ _ _ _ (coverA_1 V c t h0)
          isplitl [HS2]
          · unfold owns; iexists _; isplitr
            swap; · iexact HS2
            ipureintro; exact View.read_writes_of_cover _ _ _ _ _ (coverA_2 V c t h0)
          iexact Hrest
        iexact Hg
      isplitl [Ho]; · iexact Ho
      isplitl [H0]; · iexact H0
      isplitl [H1]; · iexact H1
      isplitl [H2]; · iexact H2
      iexact H3
  · have hz : t.val ≠ 0 := fun e => h0 (by rw [e])
    by_cases h1 : t.val % 4 = 3
    · rw [show (dat0 V c).leavesExact 2 t = owns (c : Thread nD τ) (ms0_2 t) fullShare ((dat0 V c).after 2 t) from by
        unfold Dat.leavesExact; rw [liveAt0_2 t (c1_of t h1)], after0_2]
      rw [show (dat0 V c).leavesExact 3 t = owns (c : Thread nD τ) (ms0_3 t) fullShare ((dat0 V c).after 3 t) from by
        unfold Dat.leavesExact; rw [liveAt0_3 t (c1_of t h1)], after0_3]
      rw [outsAt_last V c t h1, scratchAt_last V c t h1]
      unfold afterLast outLast; dsimp only
      rw [PhiS0_castSucc V c t, PhiS0_pos V c _ _ hz]
      iintro ⟨⟨⟨HS0, HS1, HS2, Hrest⟩, Hg⟩, Ho, ⟨%d0, H0⟩, ⟨%d1, H1⟩, ⟨%d2, H2⟩, ⟨%d3, H3⟩⟩
      iapply ((runC V c t h1 (prevAt V c t)).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      isplitl [HS2]; · iexact HS2
      iintro ⟨H0, H1, ⟨%e2, H2⟩, ⟨%e3, H3⟩, HS0, ⟨%es1, HS1⟩, ⟨%es2, HS2⟩⟩
      isplitl [HS0 HS1 HS2 Hrest Hg]
      · isplitl [HS0 HS1 HS2 Hrest]
        · isplitl [HS0]; · iexact HS0
          isplitl [HS1]
          · unfold owns; iexists _; isplitr
            swap; · iexact HS1
            ipureintro; exact View.read_writes_of_cover _ _ _ _ _ (coverC_1 V c t h1 _)
          isplitl [HS2]
          · unfold owns; iexists _; isplitr
            swap; · iexact HS2
            ipureintro; exact View.read_writes_of_cover _ _ _ _ _ (coverC_2 V c t h1 _)
          iexact Hrest
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverC_o2 V c t h1 _)
      unfold owns; iexists _; isplitr
      swap; · iexact H3
      ipureintro; exact View.read_writes_of_cover _ _ _ _ _ (coverC_o3 V c t h1 _)
    · rw [Dat.leavesExact_idle (dat0 V c) 2 t (idleAt0_2 t (nc1_of t h1)) (noFlush0_2 t (nc1_of t h1)),
        Dat.leavesExact_idle (dat0 V c) 3 t (idleAt0_3 t (nc1_of t h1)) (noFlush0_3 t (nc1_of t h1))]
      rw [scratchAt_middle V c t h0 h1]
      unfold afterMiddle; dsimp only
      rw [PhiS0_castSucc V c t, PhiS0_pos V c _ _ hz]
      iintro ⟨⟨⟨HS0, HS1, HS2, Hrest⟩, Hg⟩, Ho, ⟨%d0, H0⟩, ⟨%d1, H1⟩, H2, H3⟩
      iapply ((runB V c t h0 h1 (prevAt V c t)).2.2 Set.univ _)
      isplitl [H0]; · iexact H0
      isplitl [H1]; · iexact H1
      isplitl [HS0]; · iexact HS0
      isplitl [HS1]; · iexact HS1
      isplitl [HS2]; · iexact HS2
      iintro ⟨H0, H1, HS0, ⟨%es1, HS1⟩, ⟨%es2, HS2⟩⟩
      isplitl [HS0 HS1 HS2 Hrest Hg]
      · isplitl [HS0 HS1 HS2 Hrest]
        · isplitl [HS0]; · iexact HS0
          isplitl [HS1]
          · unfold owns; iexists _; isplitr
            swap; · iexact HS1
            ipureintro; exact View.read_writes_of_cover _ _ _ _ _ (coverB_1 V c t h0 h1 _)
          isplitl [HS2]
          · unfold owns; iexists _; isplitr
            swap; · iexact HS2
            ipureintro; exact View.read_writes_of_cover _ _ _ _ _ (coverB_2 V c t h0 h1 _)
          iexact Hrest
        iexact Hg
      isplitl [Ho]; · iexact Ho
      isplitl [H0]; · iexact H0
      isplitl [H1]; · iexact H1
      isplitl [H2]; · iexact H2
      iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the pass is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the launch's form back: the scratch contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS0, HS1, HS2, Hrest⟩, Hg⟩
  isplitl [HS0 HS1 HS2 Hrest]
  · isplitl [HS0]; · iexists _; iexact HS0
    isplitl [HS1]; · iexists _; iexact HS1
    isplitl [HS2]; · iexists _; iexact HS2
    iexact Hrest
  iexact Hg

end Cert.Kernel.Hand

end
-- ==== Proof.WPoolBase.lean ====
import proofs.«106505_j49632642072960_2_alg».proof.Proof.Gen.Kernel.Launch
import proofs.«106505_j49632642072960_2_alg».proof.Proof.Gen.Kernel.Skeleton
import proofs.«106505_j49632642072960_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The pooling pass: what its frame is stated over

The pooling pass visits the 128 points (b, j) of a 16 x 8 grid, j fastest. At the first label tile of a batch
entry (j = 0) it stores the rounded states and the rounded, normalised states into two buffers of its own; at
every tile it reads both back and writes one block of 1000 label rows. Everything here is stated at the buffer
contents `V` the pass is entered with. -/

/-! ## The windows' blocks -/

/-- Window `w`'s block at point `t`, read off its array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is
    not fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The one branch of the body -/

/-- The condition of the body's only conditional, from the grid coordinates. -/
abbrev cond1_0 (i : grid1.Coords) : Prop := (Scalar.cmpi .ne (Scalar.extui (Scalar.cmpi .eq (BitVec.ofNat 32 (i 1).val) 0#32)) 0#32) = 1#1
/-- It holds exactly at the first label tile of each batch entry. -/
theorem hcond1_0 : ∀ t : Fin cfg1.N, cond1_0 (grid1.coords t) ↔ t.val % 8 = 0 :=
  (by decide +kernel : ∀ t : Fin grid1.N, cond1_0 (grid1.coords t) ↔ t.val % 8 = 0)

/-! ## No window is ever idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl

/-! ## The staging and scratch memrefs -/

/-- One staging buffer of the output window, through which its contents are stated. -/
abbrev VO1_4 : View sig .tc .vmem S1x1000x512 .f32 := (Memref.whole cc1_stg4_0 : Memref sig .tc .vmem S1x1000x512 .f32).view
/-- Each window's current staging memref at point `t`, and its wholeness. -/
abbrev ms1_0 (t : Fin cfg1.N) : Memref sig .tc .vmem S1x512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8000x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1000x512 .f32 := win1_4.stage (cfg1.slots t 4)
abbrev hs1_4 (t : Fin cfg1.N) : (ms1_4 t).IsWhole := hstage1_4 ((cfg1.slots t 4).cast nbuf1_4)
/-- The two buffers the body keeps between points: the rounded states and the rounded normalised states. -/
abbrev scM1_0 : Memref sig .tc .vmem S512x512 .bf16 := Memref.whole cc1_scratch0
abbrev scM1_1 : Memref sig .tc .vmem S512x512 .bf16 := Memref.whole cc1_scratch1
abbrev VS1_0 : View sig .tc .vmem S512x512 .bf16 := scM1_0.view
abbrev VS1_1 : View sig .tc .vmem S512x512 .bf16 := scM1_1.view

/-! ## The scoped buffers the pass does not stage -/

/-- The ten scoped buffers of the other pass, each at some contents, beside `Q`: the two buffers of this pass. -/
def scoped1 (c : Dev nD) (Q : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ Q)

/-- The ten alone. -/
def rest10 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))

theorem scoped1_split (c : Dev nD) (Q : sProp 𝕄) : scoped1 (F := F) c Q ⊢ iprop(rest10 (F := F) c ∗ Q) := by
  unfold scoped1 rest10
  iintro ⟨H1, H2, H3, H4, H5, H6, H7, H8, H9, H10, HQ⟩
  isplitr [HQ]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iexact HQ

theorem scoped1_join (c : Dev nD) (Q : sProp 𝕄) : iprop(rest10 (F := F) c ∗ Q) ⊢ scoped1 (F := F) c Q := by
  unfold scoped1 rest10
  iintro ⟨⟨H1, H2, H3, H4, H5, H6, H7, H8, H9, H10⟩, HQ⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact HQ

/-- What the launch hands the pass: every scoped buffer it does not stage at some contents, and the random-number
    register at some state. -/
theorem PhiA1_eq (c : Dev nD) :
    (Pipeline.ΦA spec1 c : sProp 𝕄)
      = iprop(scoped1 (F := F) c iprop((∃ d, owns (c : Thread nD τ) scM1_0 fullShare d) ∗ (∃ d, owns (c : Thread nD τ) scM1_1 fullShare d)) ∗ (∃ r, prngReg c r)) := by
  unfold Pipeline.ΦA scoped1; rw [scopedRest1_eq]; simp only [scM1_0, scM1_1, owns_whole]; try rfl

/-! ## Inside a batch entry the states' and the normalisers' blocks do not move -/

/-- Window 0's block is the same at two points with one block index. -/
theorem iblk1_0_congr (c : Dev nD) {t t' : Fin cfg1.N} (h : win1_0.index t = win1_0.index t') :
    (iblk1 V c 0 t : Vec F S1x512x512 .f32) = iblk1 V c 0 t' := by
  funext j
  unfold iblk1
  rw [View.read_apply, View.read_apply]
  show _root_.cast _ (V c (Pipeline.arrRef spec1 0) ((cfg1.win 0).arr.view.emb ((win1_0.rect t).emb j)))
    = _root_.cast _ (V c (Pipeline.arrRef spec1 0) ((cfg1.win 0).arr.view.emb ((win1_0.rect t').emb j)))
  congr 3
  funext a; apply Fin.ext
  rw [Rect.emb_apply, Rect.emb_apply]
  show win1_0.index t a * win1_0.size a + 1 * (j a).val = win1_0.index t' a * win1_0.size a + 1 * (j a).val
  rw [h]

/-- Window 3's block is the same at two points with one block index. -/
theorem iblk1_3_congr (c : Dev nD) {t t' : Fin cfg1.N} (h : win1_3.index t = win1_3.index t') :
    (iblk1 V c 3 t : Vec F S1x512x1 .f32) = iblk1 V c 3 t' := by
  funext j
  unfold iblk1
  rw [View.read_apply, View.read_apply]
  show _root_.cast _ (V c (Pipeline.arrRef spec1 3) ((cfg1.win 3).arr.view.emb ((win1_3.rect t).emb j)))
    = _root_.cast _ (V c (Pipeline.arrRef spec1 3) ((cfg1.win 3).arr.view.emb ((win1_3.rect t').emb j)))
  congr 3
  funext a; apply Fin.ext
  rw [Rect.emb_apply, Rect.emb_apply]
  show win1_3.index t a * win1_3.size a + 1 * (j a).val = win1_3.index t' a * win1_3.size a + 1 * (j a).val
  rw [h]

/-- At a point that is not the first tile of its batch entry, window 0's block is the previous point's. -/
theorem iblk1_0_prev (c : Dev nD) (t : Fin cfg1.N) (h : ¬t.val % 8 = 0) :
    (iblk1 V c 0 ⟨t.val - 1, Nat.lt_of_le_of_lt (Nat.sub_le _ _) t.isLt⟩ : Vec F S1x512x512 .f32) = iblk1 V c 0 t :=
  (iblk1_0_congr V c ((cfg1.win 0).index_eq_of_fetch rfl t (by
    cases hf : (cfg1.win 0).fetch t with
    | false => rfl
    | true => exact absurd ((fetch1_0 t).mp hf) h)).2).symm

/-- The same for window 3. -/
theorem iblk1_3_prev (c : Dev nD) (t : Fin cfg1.N) (h : ¬t.val % 8 = 0) :
    (iblk1 V c 3 ⟨t.val - 1, Nat.lt_of_le_of_lt (Nat.sub_le _ _) t.isLt⟩ : Vec F S1x512x1 .f32) = iblk1 V c 3 t :=
  (iblk1_3_congr V c ((cfg1.win 3).index_eq_of_fetch rfl t (by
    cases hf : (cfg1.win 3).fetch t with
    | false => rfl
    | true => exact absurd ((fetch1_3 t).mp hf) h)).2).symm

end Cert.Kernel.Hand

end
-- ==== Proof.WPoolRunA.lean ====
import proofs.«106505_j49632642072960_2_alg».proof.Proof.WPoolBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The body at the first label tile of a batch entry

There the branch is taken: the body stores the rounded states and the rounded normalised states into its two
buffers, whole, then reads them back and stores the tile's 1000 pooled rows. -/

set_option maxHeartbeats 4000000 in
/-- The pieces the body's stores leave in the output's staging memref and in the two kept buffers when the branch
    is taken, with the proof that on whole memrefs (the inputs' at their contents, the output's and the two kept
    buffers at anything) the body runs to the continuation holding the inputs as they were and each of the three
    with its pieces written. -/
noncomputable def kernelRun1_A (c : Dev nD) (i : grid1.Coords) (arg2 : Memref sig .tc .vmem S1x512x512 .f32) (harg2 : arg2.IsWhole) (arg3 : Memref sig .tc .vmem S8000x512 .f32) (harg3 : arg3.IsWhole) (arg4 : Memref sig .tc .vmem S1x1x512 .f32) (harg4 : arg4.IsWhole) (arg5 : Memref sig .tc .vmem S1x512x1 .f32) (harg5 : arg5.IsWhole) (arg6 : Memref sig .tc .vmem S1x1000x512 .f32) (harg6 : arg6.IsWhole) (arg7 : Memref sig .tc .vmem S512x512 .bf16) (harg7 : arg7.IsWhole) (arg8 : Memref sig .tc .vmem S512x512 .bf16) (harg8 : arg8.IsWhole) (hc0 : cond1_0 i)
    (x0 : Vec F S1x512x512 .f32) (x1 : Vec F S8000x512 .f32) (x2 : Vec F S1x1x512 .f32) (x3 : Vec F S1x512x1 .f32) :
    Σ' (L4 : List (View.Piece (Elt F) S1x1000x512 .f32)), Σ' (LS0 : List (View.Piece (Elt F) S512x512 .bf16)), { LS1 : List (View.Piece (Elt F) S512x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__out_kernel i arg2 harg2 arg3 harg3 arg4 harg4 arg5 harg5 arg6 harg6 arg7 harg7 arg8 harg8) K } := by
  refine ⟨?_, ?_, ?_, fun E K => ?run⟩
  case run =>
    simp only [cc1__out_kernel_eq_skeleton]; unfold cc1__out_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.Kernel.Hand

end
-- ==== Proof.WPoolRunB.lean ====
import proofs.«106505_j49632642072960_2_alg».proof.Proof.WPoolRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The body at the later label tiles of a batch entry

There the branch is not taken: the body stores nothing into its two buffers; it reads them as the point before
left them and stores the tile's 1000 pooled rows. -/

set_option maxHeartbeats 4000000 in
/-- The pieces the body's stores leave in the output's staging memref when the branch is not taken, with the proof
    that on whole memrefs (the inputs' and the two kept buffers at their contents, the output's at anything) the
    body runs to the continuation holding the inputs and the two kept buffers as they were and the output's with its
    pieces written. -/
noncomputable def kernelRun1_B (c : Dev nD) (i : grid1.Coords) (arg2 : Memref sig .tc .vmem S1x512x512 .f32) (harg2 : arg2.IsWhole) (arg3 : Memref sig .tc .vmem S8000x512 .f32) (harg3 : arg3.IsWhole) (arg4 : Memref sig .tc .vmem S1x1x512 .f32) (harg4 : arg4.IsWhole) (arg5 : Memref sig .tc .vmem S1x512x1 .f32) (harg5 : arg5.IsWhole) (arg6 : Memref sig .tc .vmem S1x1000x512 .f32) (harg6 : arg6.IsWhole) (arg7 : Memref sig .tc .vmem S512x512 .bf16) (harg7 : arg7.IsWhole) (arg8 : Memref sig .tc .vmem S512x512 .bf16) (harg8 : arg8.IsWhole) (hc0 : ¬cond1_0 i)
    (x0 : Vec F S1x512x512 .f32) (x1 : Vec F S8000x512 .f32) (x2 : Vec F S1x1x512 .f32) (x3 : Vec F S1x512x1 .f32) (xs0 : Vec F S512x512 .bf16) (xs1 : Vec F S512x512 .bf16) :
    { L4 : List (View.Piece (Elt F) S1x1000x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs0 ∗ owns (c : Thread nD τ) arg8 fullShare xs1) -∗ K ⟨⟩))
          ⊢ wp frame (wpE (defs₀ (F := F)) Variants.none c none) E (cc1__out_kernel i arg2 harg2 arg3 harg3 arg4 harg4 arg5 harg5 arg6 harg6 arg7 harg7 arg8 harg8) K } := by
  refine ⟨?_, fun E K => ?run⟩
  case run =>
    simp only [cc1__out_kernel_eq_skeleton]; unfold cc1__out_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]
    · iexists _; isplitr; · ipureintro; exact harg7.read_unread _
      iexact HS0
    iexists _; isplitr; · ipureintro; exact harg8.read_unread _
    iexact HS1

end Cert.Kernel.Hand

end
-- ==== Proof.WPoolFrame.lean ====
import proofs.«106505_j49632642072960_2_alg».proof.Proof.WPoolRunB
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The pooling pass: what each point leaves, the invariant, and the body obligation

After EVERY point t the first kept buffer holds the rounded states of t's batch entry and the second the rounded
normalised states: at the first label tile of a batch entry the body stores them; at a later tile it stores neither,
and the blocks of the states and of the normalisers are those of the point before (their block index does not move
inside a batch entry). So what the output block holds after a point is one closed term of the four input blocks. -/

theorem hz2 : (![0, 0] : Fin 2 → Nat) = fun _ => 0 := funext fun a => by fin_cases a <;> rfl
theorem hz3 : (![0, 0, 0] : Fin 3 → Nat) = fun _ => 0 := funext fun a => by fin_cases a <;> rfl

/-- The 1000 label rows of the tile at grid coordinates `i`, cut out of the resident label array `x1`. -/
def wchunk (i : grid1.Coords) (x1 : Vec F S8000x512 .f32) : Vec F S1000x512 .f32 :=
  View.ld x1 (Rect.unit (s := S8000x512) (k1_off1 i) S1000x512.size (k1_off1_inb i))

/-! ## The stores' pieces cover their buffers -/

theorem cover1_A_4 (c : Dev nD) (i : grid1.Coords) (arg2 : Memref sig .tc .vmem S1x512x512 .f32) (harg2 : arg2.IsWhole) (arg3 : Memref sig .tc .vmem S8000x512 .f32) (harg3 : arg3.IsWhole) (arg4 : Memref sig .tc .vmem S1x1x512 .f32) (harg4 : arg4.IsWhole) (arg5 : Memref sig .tc .vmem S1x512x1 .f32) (harg5 : arg5.IsWhole) (arg6 : Memref sig .tc .vmem S1x1000x512 .f32) (harg6 : arg6.IsWhole) (arg7 : Memref sig .tc .vmem S512x512 .bf16) (harg7 : arg7.IsWhole) (arg8 : Memref sig .tc .vmem S512x512 .bf16) (harg8 : arg8.IsWhole) (hc0 : cond1_0 i) (x0 : Vec F S1x512x512 .f32) (x1 : Vec F S8000x512 .f32) (x2 : Vec F S1x1x512 .f32) (x3 : Vec F S1x512x1 .f32) (y : S1x1000x512.Idx) :
    ∃ pc ∈ (kernelRun1_A c i arg2 harg2 arg3 harg3 arg4 harg4 arg5 harg5 arg6 harg6 arg7 harg7 arg8 harg8 hc0 x0 x1 x2 x3).1, y ∈ pc.1.set :=
  View.cover_of_tiledL (kernelRun1_A c i arg2 harg2 arg3 harg3 arg4 harg4 arg5 harg5 arg6 harg6 arg7 harg7 arg8 harg8 hc0 x0 x1 x2 x3).1 S1x1000x512.size (by sl_kernel_rfl) y

theorem scover1_A_0 (c : Dev nD) (i : grid1.Coords) (arg2 : Memref sig .tc .vmem S1x512x512 .f32) (harg2 : arg2.IsWhole) (arg3 : Memref sig .tc .vmem S8000x512 .f32) (harg3 : arg3.IsWhole) (arg4 : Memref sig .tc .vmem S1x1x512 .f32) (harg4 : arg4.IsWhole) (arg5 : Memref sig .tc .vmem S1x512x1 .f32) (harg5 : arg5.IsWhole) (arg6 : Memref sig .tc .vmem S1x1000x512 .f32) (harg6 : arg6.IsWhole) (arg7 : Memref sig .tc .vmem S512x512 .bf16) (harg7 : arg7.IsWhole) (arg8 : Memref sig .tc .vmem S512x512 .bf16) (harg8 : arg8.IsWhole) (hc0 : cond1_0 i) (x0 : Vec F S1x512x512 .f32) (x1 : Vec F S8000x512 .f32) (x2 : Vec F S1x1x512 .f32) (x3 : Vec F S1x512x1 .f32) (y : S512x512.Idx) :
    ∃ pc ∈ (kernelRun1_A c i arg2 harg2 arg3 harg3 arg4 harg4 arg5 harg5 arg6 harg6 arg7 harg7 arg8 harg8 hc0 x0 x1 x2 x3).2.1, y ∈ pc.1.set :=
  View.cover_of_tiledL (kernelRun1_A c i arg2 harg2 arg3 harg3 arg4 harg4 arg5 harg5 arg6 harg6 arg7 harg7 arg8 harg8 hc0 x0 x1 x2 x3).2.1 S512x512.size (by sl_kernel_rfl) y

theorem scover1_A_1 (c : Dev nD) (i : grid1.Coords) (arg2 : Memref sig .tc .vmem S1x512x512 .f32) (harg2 : arg2.IsWhole) (arg3 : Memref sig .tc .vmem S8000x512 .f32) (harg3 : arg3.IsWhole) (arg4 : Memref sig .tc .vmem S1x1x512 .f32) (harg4 : arg4.IsWhole) (arg5 : Memref sig .tc .vmem S1x512x1 .f32) (harg5 : arg5.IsWhole) (arg6 : Memref sig .tc .vmem S1x1000x512 .f32) (harg6 : arg6.IsWhole) (arg7 : Memref sig .tc .vmem S512x512 .bf16) (harg7 : arg7.IsWhole) (arg8 : Memref sig .tc .vmem S512x512 .bf16) (harg8 : arg8.IsWhole) (hc0 : cond1_0 i) (x0 : Vec F S1x512x512 .f32) (x1 : Vec F S8000x512 .f32) (x2 : Vec F S1x1x512 .f32) (x3 : Vec F S1x512x1 .f32) (y : S512x512.Idx) :
    ∃ pc ∈ (kernelRun1_A c i arg2 harg2 arg3 harg3 arg4 harg4 arg5 harg5 arg6 harg6 arg7 harg7 arg8 harg8 hc0 x0 x1 x2 x3).2.2.1, y ∈ pc.1.set :=
  View.cover_of_tiledL (kernelRun1_A c i arg2 harg2 arg3 harg3 arg4 harg4 arg5 harg5 arg6 harg6 arg7 harg7 arg8 harg8 hc0 x0 x1 x2 x3).2.2.1 S512x512.size (by sl_kernel_rfl) y

theorem cover1_B_4 (c : Dev nD) (i : grid1.Coords) (arg2 : Memref sig .tc .vmem S1x512x512 .f32) (harg2 : arg2.IsWhole) (arg3 : Memref sig .tc .vmem S8000x512 .f32) (harg3 : arg3.IsWhole) (arg4 : Memref sig .tc .vmem S1x1x512 .f32) (harg4 : arg4.IsWhole) (arg5 : Memref sig .tc .vmem S1x512x1 .f32) (harg5 : arg5.IsWhole) (arg6 : Memref sig .tc .vmem S1x1000x512 .f32) (harg6 : arg6.IsWhole) (arg7 : Memref sig .tc .vmem S512x512 .bf16) (harg7 : arg7.IsWhole) (arg8 : Memref sig .tc .vmem S512x512 .bf16) (harg8 : arg8.IsWhole) (hc0 : ¬cond1_0 i) (x0 : Vec F S1x512x512 .f32) (x1 : Vec F S8000x512 .f32) (x2 : Vec F S1x1x512 .f32) (x3 : Vec F S1x512x1 .f32) (xs0 : Vec F S512x512 .bf16) (xs1 : Vec F S512x512 .bf16) (y : S1x1000x512.Idx) :
    ∃ pc ∈ (kernelRun1_B c i arg2 harg2 arg3 harg3 arg4 harg4 arg5 harg5 arg6 harg6 arg7 harg7 arg8 harg8 hc0 x0 x1 x2 x3 xs0 xs1).1, y ∈ pc.1.set :=
  View.cover_of_tiledL (kernelRun1_B c i arg2 harg2 arg3 harg3 arg4 harg4 arg5 harg5 arg6 harg6 arg7 harg7 arg8 harg8 hc0 x0 x1 x2 x3 xs0 xs1).1 S1x1000x512.size (by sl_kernel_rfl) y

/-! ## What the pieces leave -/

/-- At a first tile the first kept buffer is left holding the rounded states. -/
theorem canon1_A_S0 (c : Dev nD) (i : grid1.Coords) (arg2 : Memref sig .tc .vmem S1x512x512 .f32) (harg2 : arg2.IsWhole) (arg3 : Memref sig .tc .vmem S8000x512 .f32) (harg3 : arg3.IsWhole) (arg4 : Memref sig .tc .vmem S1x1x512 .f32) (harg4 : arg4.IsWhole) (arg5 : Memref sig .tc .vmem S1x512x1 .f32) (harg5 : arg5.IsWhole) (arg6 : Memref sig .tc .vmem S1x1000x512 .f32) (harg6 : arg6.IsWhole) (arg7 : Memref sig .tc .vmem S512x512 .bf16) (harg7 : arg7.IsWhole) (arg8 : Memref sig .tc .vmem S512x512 .bf16) (harg8 : arg8.IsWhole) (hc0 : cond1_0 i) (x0 : Vec F S1x512x512 .f32) (x1 : Vec F S8000x512 .f32) (x2 : Vec F S1x1x512 .f32) (x3 : Vec F S1x512x1 .f32) :
    View.canon (kernelRun1_A c i arg2 harg2 arg3 harg3 arg4 harg4 arg5 harg5 arg6 harg6 arg7 harg7 arg8 harg8 hc0 x0 x1 x2 x3).2.1 = k1_pay2 x0 := by
  unfold kernelRun1_A
  dsimp only
  sl_unfold_run_names
  rw [View.canon_unit_zero (S := S512x512) hz2]
  simp only [View.readAt_eq_ld, harg2.read_unread, View.ld_unit_zero (S := S1x512x512) hz3]

/-- At a first tile the second kept buffer is left holding the rounded normalised states. -/
theorem canon1_A_S1 (c : Dev nD) (i : grid1.Coords) (arg2 : Memref sig .tc .vmem S1x512x512 .f32) (harg2 : arg2.IsWhole) (arg3 : Memref sig .tc .vmem S8000x512 .f32) (harg3 : arg3.IsWhole) (arg4 : Memref sig .tc .vmem S1x1x512 .f32) (harg4 : arg4.IsWhole) (arg5 : Memref sig .tc .vmem S1x512x1 .f32) (harg5 : arg5.IsWhole) (arg6 : Memref sig .tc .vmem S1x1000x512 .f32) (harg6 : arg6.IsWhole) (arg7 : Memref sig .tc .vmem S512x512 .bf16) (harg7 : arg7.IsWhole) (arg8 : Memref sig .tc .vmem S512x512 .bf16) (harg8 : arg8.IsWhole) (hc0 : cond1_0 i) (x0 : Vec F S1x512x512 .f32) (x1 : Vec F S8000x512 .f32) (x2 : Vec F S1x1x512 .f32) (x3 : Vec F S1x512x1 .f32) :
    View.canon (kernelRun1_A c i arg2 harg2 arg3 harg3 arg4 harg4 arg5 harg5 arg6 harg6 arg7 harg7 arg8 harg8 hc0 x0 x1 x2 x3).2.2.1 = k1_pay3 x0 x3 := by
  unfold kernelRun1_A
  dsimp only
  sl_unfold_run_names
  rw [View.canon_unit_zero (S := S512x512) hz2]
  simp only [View.readAt_eq_ld, harg2.read_unread, harg5.read_unread, View.ld_unit_zero (S := S1x512x512) hz3, View.ld_unit_zero (S := S1x512x1) hz3]

/-- At a first tile the output block is left holding the pooled rows of the tile, computed from the two buffers
    just stored. -/
theorem canon1_A_4 (c : Dev nD) (i : grid1.Coords) (arg2 : Memref sig .tc .vmem S1x512x512 .f32) (harg2 : arg2.IsWhole) (arg3 : Memref sig .tc .vmem S8000x512 .f32) (harg3 : arg3.IsWhole) (arg4 : Memref sig .tc .vmem S1x1x512 .f32) (harg4 : arg4.IsWhole) (arg5 : Memref sig .tc .vmem S1x512x1 .f32) (harg5 : arg5.IsWhole) (arg6 : Memref sig .tc .vmem S1x1000x512 .f32) (harg6 : arg6.IsWhole) (arg7 : Memref sig .tc .vmem S512x512 .bf16) (harg7 : arg7.IsWhole) (arg8 : Memref sig .tc .vmem S512x512 .bf16) (harg8 : arg8.IsWhole) (hc0 : cond1_0 i) (x0 : Vec F S1x512x512 .f32) (x1 : Vec F S8000x512 .f32) (x2 : Vec F S1x1x512 .f32) (x3 : Vec F S1x512x1 .f32) :
    View.canon (kernelRun1_A c i arg2 harg2 arg3 harg3 arg4 harg4 arg5 harg5 arg6 harg6 arg7 harg7 arg8 harg8 hc0 x0 x1 x2 x3).1 = k1_pay4 (wchunk i x1) (k1_pay2 x0) x2 (k1_pay3 x0 x3) := by
  unfold kernelRun1_A
  dsimp only
  sl_unfold_run_names
  rw [View.canon_unit_zero (S := S1x1000x512) hz3, View.readCov_unit_zero (S := S512x512) _ hz2, View.readCov_unit_zero (S := S512x512) _ hz2]
  simp only [View.readAt_eq_ld, harg2.read_unread, harg3.read_unread, harg4.read_unread, harg5.read_unread, View.ld_unit_zero (S := S1x512x512) hz3, View.ld_unit_zero (S := S1x512x1) hz3, View.ld_unit_zero (S := S1x1x512) hz3]
  rfl

/-- At a later tile the output block is left holding the pooled rows of the tile, computed from what the two kept
    buffers held. -/
theorem canon1_B_4 (c : Dev nD) (i : grid1.Coords) (arg2 : Memref sig .tc .vmem S1x512x512 .f32) (harg2 : arg2.IsWhole) (arg3 : Memref sig .tc .vmem S8000x512 .f32) (harg3 : arg3.IsWhole) (arg4 : Memref sig .tc .vmem S1x1x512 .f32) (harg4 : arg4.IsWhole) (arg5 : Memref sig .tc .vmem S1x512x1 .f32) (harg5 : arg5.IsWhole) (arg6 : Memref sig .tc .vmem S1x1000x512 .f32) (harg6 : arg6.IsWhole) (arg7 : Memref sig .tc .vmem S512x512 .bf16) (harg7 : arg7.IsWhole) (arg8 : Memref sig .tc .vmem S512x512 .bf16) (harg8 : arg8.IsWhole) (hc0 : ¬cond1_0 i) (x0 : Vec F S1x512x512 .f32) (x1 : Vec F S8000x512 .f32) (x2 : Vec F S1x1x512 .f32) (x3 : Vec F S1x512x1 .f32) (xs0 : Vec F S512x512 .bf16) (xs1 : Vec F S512x512 .bf16) :
    View.canon (kernelRun1_B c i arg2 harg2 arg3 harg3 arg4 harg4 arg5 harg5 arg6 harg6 arg7 harg7 arg8 harg8 hc0 x0 x1 x2 x3 xs0 xs1).1 = k1_pay4 (wchunk i x1) xs0 x2 xs1 := by
  unfold kernelRun1_B
  dsimp only
  sl_unfold_run_names
  rw [View.canon_unit_zero (S := S1x1000x512) hz3]
  simp only [View.readAt_eq_ld, harg3.read_unread, harg4.read_unread, harg7.read_unread, harg8.read_unread, View.ld_unit_zero (S := S512x512) hz2, View.ld_unit_zero (S := S1x1x512) hz3]
  rfl

/-! ## What the output block holds after each point -/

/-- The output block after point `t`: the pooled rows of t's label tile, from the tile's label rows, the rounded
    states, the column maxima and the rounded normalised states of t's batch entry. -/
def poolOut (c : Dev nD) (t : Fin cfg1.N) : Vec F S1x1000x512 .f32 :=
  k1_pay4 (wchunk (grid1.coords t) (iblk1 V c 1 t)) (k1_pay2 (iblk1 V c 0 t)) (iblk1 V c 2 t) (k1_pay3 (iblk1 V c 0 t) (iblk1 V c 3 t))

/-! ## The invariant -/

/-- Before the first point: what the launch hands over. Before any later point: the ten scoped buffers of the other
    pass at anything, the two kept buffers at the rounded states and the rounded normalised states of the point
    before, the random-number register at some state. -/
def PhiS (c : Dev nD) : (n : ℕ) → n ≤ cfg1.N → sProp 𝕄
  | 0, _ => Pipeline.ΦA spec1 c
  | n + 1, hn => iprop(scoped1 (F := F) c iprop(owns (c : Thread nD τ) scM1_0 fullShare (k1_pay2 (iblk1 V c 0 ⟨n, hn⟩)) ∗ owns (c : Thread nD τ) scM1_1 fullShare (k1_pay3 (iblk1 V c 0 ⟨n, hn⟩) (iblk1 V c 3 ⟨n, hn⟩))) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scoped1 (F := F) c iprop(owns (c : Thread nD τ) scM1_0 fullShare (k1_pay2 (iblk1 V c 0 ⟨n, hn⟩)) ∗ owns (c : Thread nD τ) scM1_1 fullShare (k1_pay3 (iblk1 V c 0 ⟨n, hn⟩) (iblk1 V c 3 ⟨n, hn⟩))) ∗ (∃ r, prngReg c r)) := rfl

theorem PhiS_pos (c : Dev nD) (n : ℕ) (h : n ≤ cfg1.N) (hz : n ≠ 0) :
    PhiS V c n h = iprop(scoped1 (F := F) c iprop(owns (c : Thread nD τ) scM1_0 fullShare (k1_pay2 (iblk1 V c 0 ⟨n - 1, by omega⟩)) ∗ owns (c : Thread nD τ) scM1_1 fullShare (k1_pay3 (iblk1 V c 0 ⟨n - 1, by omega⟩) (iblk1 V c 3 ⟨n - 1, by omega⟩))) ∗ (∃ r, prngReg c r)) := by
  cases n with
  | zero => exact absurd rfl hz
  | succ n => rfl

/-! ## The proof data -/

/-- The proof data of the pooling pass on core `c`: the arrays as the pass finds them; after the body at point
    `t` each input's buffer at its block and the output's at `poolOut`; the invariant `PhiS`; no transfer units owed to
    anyone; each array held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => poolOut V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = poolOut V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 4800000 in
/-- The body at any point. The inputs' memrefs hold their blocks. At a first tile the branch is taken and the run
    stores both kept buffers (handed over at anything, or at what the point before left, which is then forgotten);
    at a later tile it is not, the kept buffers hold the rounded states and normalised states of the point before,
    which are this point's, and they come back untouched. Either way the output block ends at `poolOut`. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [after1_0, after1_1, after1_2, after1_3, after1_4]
  unfold poolOut
  by_cases h0 : t.val % 8 = 0
  · by_cases hz : t.val = 0
    · rw [PhiS_castSucc V c t, PhiS_zero V c _ _ hz, PhiA1_eq]
      iintro ⟨⟨HΦ, Hg⟩, Ho, ⟨%d0, H0⟩, ⟨%d1, H1⟩, ⟨%d2, H2⟩, ⟨%d3, H3⟩, ⟨%d4, H4⟩⟩
      ihave HΦ' := (scoped1_split (F := F) c _) $$ HΦ
      icases HΦ' with ⟨Hr, HS0, HS1⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t)).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [Hr HS0 HS1 Hg]
      · isplitl [Hr HS0 HS1]
        · iapply (scoped1_join (F := F) c _)
          isplitl [Hr]; · iexact Hr
          isplitl [HS0]
          · unfold owns; iexists _; isplitr
            swap; · iexact HS0
            ipureintro; exact (View.read_writes_eq_canon _ _ _ (scover1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t))).trans (canon1_A_S0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t))
          unfold owns; iexists _; isplitr
          swap; · iexact HS1
          ipureintro; exact (View.read_writes_eq_canon _ _ _ (scover1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t))).trans (canon1_A_S1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t))
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact (View.read_writes_eq_canon _ _ _ (cover1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t))).trans (canon1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t))
    · rw [PhiS_castSucc V c t, PhiS_pos V c _ _ hz]
      iintro ⟨⟨HΦ, Hg⟩, Ho, ⟨%d0, H0⟩, ⟨%d1, H1⟩, ⟨%d2, H2⟩, ⟨%d3, H3⟩, ⟨%d4, H4⟩⟩
      ihave HΦ' := (scoped1_split (F := F) c _) $$ HΦ
      icases HΦ' with ⟨Hr, HS0, HS1⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t)).2.2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      isplitl [HS1]; · iexists _; iexact HS1
      iintro ⟨H0, H1, H2, H3, ⟨%e4, H4⟩, ⟨%es0, HS0⟩, ⟨%es1, HS1⟩⟩
      isplitl [Hr HS0 HS1 Hg]
      · isplitl [Hr HS0 HS1]
        · iapply (scoped1_join (F := F) c _)
          isplitl [Hr]; · iexact Hr
          isplitl [HS0]
          · unfold owns; iexists _; isplitr
            swap; · iexact HS0
            ipureintro; exact (View.read_writes_eq_canon _ _ _ (scover1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t))).trans (canon1_A_S0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t))
          unfold owns; iexists _; isplitr
          swap; · iexact HS1
          ipureintro; exact (View.read_writes_eq_canon _ _ _ (scover1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t))).trans (canon1_A_S1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t))
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact (View.read_writes_eq_canon _ _ _ (cover1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t))).trans (canon1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t))
  · have hz : t.val ≠ 0 := fun e => h0 (by rw [e])
    rw [PhiS_castSucc V c t, PhiS_pos V c _ _ hz, iblk1_0_prev V c t h0, iblk1_3_prev V c t h0]
    iintro ⟨⟨HΦ, Hg⟩, Ho, ⟨%d0, H0⟩, ⟨%d1, H1⟩, ⟨%d2, H2⟩, ⟨%d3, H3⟩, ⟨%d4, H4⟩⟩
    ihave HΦ' := (scoped1_split (F := F) c _) $$ HΦ
    icases HΦ' with ⟨Hr, HS0, HS1⟩
    iapply ((kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (iblk1 V c 0 t) (iblk1 V c 1 t) (iblk1 V c 2 t) (iblk1 V c 3 t) (k1_pay2 (iblk1 V c 0 t)) (k1_pay3 (iblk1 V c 0 t) (iblk1 V c 3 t))).2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%e4, H4⟩, HS0, HS1⟩
    isplitl [Hr HS0 HS1 Hg]
    · isplitl [Hr HS0 HS1]
      · iapply (scoped1_join (F := F) c _)
        isplitl [Hr]; · iexact Hr
        isplitl [HS0]; · iexact HS0
        iexact HS1
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact (View.read_writes_eq_canon _ _ _ (cover1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (iblk1 V c 0 t) (iblk1 V c 1 t) (iblk1 V c 2 t) (iblk1 V c 3 t) (k1_pay2 (iblk1 V c 0 t)) (k1_pay3 (iblk1 V c 0 t) (iblk1 V c 3 t)))).trans (canon1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (iblk1 V c 0 t) (iblk1 V c 1 t) (iblk1 V c 2 t) (iblk1 V c 3 t) (k1_pay2 (iblk1 V c 0 t)) (k1_pay3 (iblk1 V c 0 t) (iblk1 V c 3 t)))

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the pass is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives back what the launch handed over: the kept buffers' named
    contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨HΦ, Hg⟩
  isplitl [HΦ]
  · ihave HΦ' := (scoped1_split (F := F) c _) $$ HΦ
    icases HΦ' with ⟨Hr, HS0, HS1⟩
    iapply (scoped1_join (F := F) c _)
    isplitl [Hr]; · iexact Hr
    isplitl [HS0]; · iexists _; iexact HS0
    iexists _; iexact HS1
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.Kernel.Hand

end
-- ==== Proof.WTwoPass.lean ====
/-
  The two passes in sequence: the whole program's run.

  The program is the statistics pass followed by the pooling pass, with nothing between them. Core c's unscoped
  buffers start at the launch contents; the statistics pass leaves its two result arrays (the maxima and the
  reciprocal sums) at what its write-backs produce and everything else as it was; the pooling pass then leaves the
  final array at what ITS write-backs produce, computed from the arguments and the two statistics arrays as the
  first pass left them. The theorem `run_all` says every execution ends with every unscoped buffer at that last
  valuation; the argument arrays walk back through both passes unchanged.
-/
import proofs.«106505_j49632642072960_2_alg».proof.Proof.WStatsFrame
import proofs.«106505_j49632642072960_2_alg».proof.Proof.WPoolFrame
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the three boundaries -/

/-- At launch. -/
abbrev W0 : Dev nD → Valuation τ sig (Elt F) := fun c b => m (c, b)
abbrev V0 : (c : Dev nD) → (b : Ref sig .tc) → Buf (Elt F) ((c : Thread nD τ).loc b) := fun c b => W0 m c b
/-- After the statistics pass: its arrays at what the pipeline leaves, every other buffer as it was. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- After the pooling pass. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ## The arguments end as launched: each is an input window of both passes -/

theorem W1_main_arg0 (c : Dev nD) : W1 m c (Proc.devRef .tc main_arg0) = m ((c : Thread nD τ).loc main_arg0) :=
  (W1_arr m c 0).trans (((dat0 (V0 m) c).arrAt_in 0 rfl _).trans (A_eq0 (V0 m) c 0))
theorem W1_main_arg1 (c : Dev nD) : W1 m c (Proc.devRef .tc main_arg1) = m ((c : Thread nD τ).loc main_arg1) :=
  (W1_arr m c 1).trans (((dat0 (V0 m) c).arrAt_in 1 rfl _).trans (A_eq0 (V0 m) c 1))
theorem W2_main_arg0 (c : Dev nD) : W2 m c (Proc.devRef .tc main_arg0) = m ((c : Thread nD τ).loc main_arg0) :=
  ((W2_arr m c 0).trans (((dat1 (V1 m) c).arrAt_in 0 rfl _).trans (A_eq1 (V1 m) c 0))).trans (W1_main_arg0 m c)
theorem W2_main_arg1 (c : Dev nD) : W2 m c (Proc.devRef .tc main_arg1) = m ((c : Thread nD τ).loc main_arg1) :=
  ((W2_arr m c 1).trans (((dat1 (V1 m) c).arrAt_in 1 rfl _).trans (A_eq1 (V1 m) c 1))).trans (W1_main_arg1 m c)
/-- The final array is what the pooling pass's write-backs leave. -/
theorem W2_main_v1 (c : Dev nD) : W2 m c (Proc.devRef .tc main_v1) = (dat1 (V1 m) c).arrAt 4 cfg1.N := W2_arr m c 4
/-- The statistics arrays the pooling pass reads are what the statistics pass's write-backs left. -/
theorem V1_main_v0_0 (c : Dev nD) : V1 m c main_v0_0 = (dat0 (V0 m) c).arrAt 2 cfg0.N := W1_arr m c 2
theorem V1_main_v0_1 (c : Dev nD) : V1 m c main_v0_1 = (dat0 (V0 m) c).arrAt 3 cfg0.N := W1_arr m c 3
theorem V1_main_arg0 (c : Dev nD) : V1 m c main_arg0 = m ((c : Thread nD τ).loc main_arg0) := W1_main_arg0 m c
theorem V1_main_arg1 (c : Dev nD) : V1 m c main_arg1 = m ((c : Thread nD τ).loc main_arg1) := W1_main_arg1 m c

/-! ## The proof data family and the thread state -/

abbrev admH : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) admH p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers: the random-number register at some state, and no transfer units owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The passes as segments -/

set_option backward.isDefEq.respectTransparency.types false in
def reg0 : Pipeline.RegionSeg (pcfgs (F := F)) admH (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R (F := F) c)
  post c := iprop(StableHlo.held (c : Thread nD τ) (Pipeline.ucRefs τ sig) (W1 m c) ∗ R (F := F) c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V0 m) c
    unfold Pipeline.ΦA at h
    rw [show (pdats m 0 c).Φ 0 = (dat0 (V0 m) c).Φ 0 from rfl]
    iintro ⟨Hp, -, Hr⟩
    iapply h
    isplitl [Hr]; · iexact Hr
    iexact Hp
  hout c := by
    have h := hout0 (V0 m) c
    unfold Pipeline.ΦA at h
    rw [Pipeline.ownSems0_none, show (pdats m 0 c).Φ (Fin.last _) = (dat0 (V0 m) c).Φ (Fin.last cfg0.N) from rfl]
    iintro Hphi
    ihave H := h $$ Hphi
    icases H with ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) admH (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R (F := F) c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V1 m) c
    unfold Pipeline.ΦA at h
    rw [show (pdats m 1 c).Φ 0 = (dat1 (V1 m) c).Φ 0 from rfl]
    iintro ⟨Hp, -, Hr⟩
    iapply h
    isplitl [Hr]; · iexact Hr
    iexact Hp
  hout c := by
    have h := hout1 (V1 m) c
    unfold Pipeline.ΦA at h
    rw [Pipeline.ownSems0_none, show (pdats m 1 c).Φ (Fin.last _) = (dat1 (V1 m) c).Φ (Fin.last cfg1.N) from rfl]
    iintro Hphi
    ihave H := h $$ Hphi
    icases H with ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) admH (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- THE RUN: from any memory with zero counters every weakly fair execution terminates, nothing faulting, and every
    final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) admH (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R (F := F) c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W2_main_arg0 m c),
     (h c _ (mem_uc main_arg1 (by decide))).trans (W2_main_arg1 m c)⟩) (run_all m ρ)

end Cert.Kernel.Hand

end
-- ==== Proof.StatsBase.lean ====
/-
  The statistics pass (the first of the kernel's two passes), part 1: what its body's branches decide and the
  buffers it works on.

  The pass walks a grid of 16 batch entries by 4 label tiles, in row-major order, so a point t belongs to batch
  entry t / 4 and label tile t % 4. Its body has two branches on the tile: at the FIRST tile (t % 4 = 0) it copies
  the batch entry's states into a scratch buffer and resets the running maximum (to the bottom element) and the
  running sum (to zero), both kept in scratch across the tiles; at the LAST tile (t % 4 = 3) it stores the final
  maximum and the reciprocal of the final sum into its two output windows, which at the other tiles are left
  untouched and are not written back. So a point is in one of three cases: first tile, a middle tile, last tile.

  Everything here is stated for ANY buffer contents V at the pass's entry and at any float instance.
-/
import proofs.«106505_j49632642072960_2_alg».proof.Proof.Gen.KernelIdeal.Launch
import proofs.«106505_j49632642072960_2_alg».proof.Proof.Gen.KernelIdeal.Skeleton
import proofs.«106505_j49632642072960_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The states' window holds the batch entry's block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The label vectors' window holds the whole table at every point (it is fetched once). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, decided over the grid -/

/-- "This is the first label tile of the batch entry." -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last label tile of the batch entry." -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last tile the two outputs are idle and are not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last tile both are stored. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

/-! ## The buffers the body works on -/

/-- One staging buffer of each output window, through which its contents are stated. -/
abbrev VO0_2 : View sig .tc .vmem S1x1x512 .f32 := (Memref.whole cc0_stg2_0 : Memref sig .tc .vmem S1x1x512 .f32).view
abbrev VO0_3 : View sig .tc .vmem S1x512x1 .f32 := (Memref.whole cc0_stg3_0 : Memref sig .tc .vmem S1x512x1 .f32).view
/-- Each window's current staging buffer at point `t`. -/
abbrev ms0_0 (t : Fin cfg0.N) : Memref sig .tc .vmem S1x512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8000x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x1 .f32 := win0_3.stage (cfg0.slots t 3)
abbrev hs0_3 (t : Fin cfg0.N) : (ms0_3 t).IsWhole := hstage0_3 ((cfg0.slots t 3).cast nbuf0_3)
/-- The three scratch buffers: the states' copy, the running maximum, the running sum. -/
abbrev scM0_0 : Memref sig .tc .vmem S512x512 .bf16 := Memref.whole cc0_scratch0
abbrev scM0_1 : Memref sig .tc .vmem S1x512 .f32 := Memref.whole cc0_scratch1
abbrev scM0_2 : Memref sig .tc .vmem S1x512 .f32 := Memref.whole cc0_scratch2
abbrev VS0_0 : View sig .tc .vmem S512x512 .bf16 := scM0_0.view
abbrev VS0_1 : View sig .tc .vmem S1x512 .f32 := scM0_1.view
abbrev VS0_2 : View sig .tc .vmem S1x512 .f32 := scM0_2.view

/-- The scoped buffers this pass never touches (the other pass's staging and scratch), each at some contents. -/
def restOther0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- What the pass is handed besides its windows: its three scratch buffers at some contents, the untouched rest,
    and the random-number register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ restOther0 (F := F) c) ∗ (∃ r, prngReg c r)) := by
  unfold Pipeline.ΦA restOther0; rw [scopedRest0_eq]; simp only [scM0_0, scM0_1, scM0_2, owns_whole]; try rfl

end Cert.KernelIdeal.Hand

end
-- ==== Proof.StatsRunA.lean ====
/-
  The statistics pass, part 2: the body at a FIRST label tile, run once on any staging buffers.
  The run's witness is, per scratch buffer, the list of stores the body leaves in it (last first): the states'
  copy, then the reset maximum overwritten by the tile's maximum, the reset sum overwritten by the tile's sum.
-/
import proofs.«106505_j49632642072960_2_alg».proof.Proof.StatsBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a first tile: the states' block and the label table are read, the outputs are not touched, and the three
    scratch buffers — found at anything — end with the stores listed. -/
noncomputable def kernelRun0_A (c : Dev nD) (i : grid0.Coords) (arg2 : Memref sig .tc .vmem S1x512x512 .f32) (harg2 : arg2.IsWhole) (arg3 : Memref sig .tc .vmem S8000x512 .f32) (harg3 : arg3.IsWhole) (arg4 : Memref sig .tc .vmem S1x1x512 .f32) (harg4 : arg4.IsWhole) (arg5 : Memref sig .tc .vmem S1x512x1 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x512 .f32) (harg8 : arg8.IsWhole) (hc0 : cond0_0 i) (hc1 : ¬cond0_1 i)
    (x0 : Vec F S1x512x512 .f32) (x1 : Vec F S8000x512 .f32) :
    Σ' (LS0 : List (View.Piece (Elt F) S512x512 .bf16)) (LS1 : List (View.Piece (Elt F) S1x512 .f32)), { LS2 : List (View.Piece (Elt F) S1x512 .f32) //
      ∀ (E : Set ℕ) (K : PUnit → sProp 𝕄),
        iprop(owns (c : Thread nD τ) arg2 fullShare x0 ∗ owns (c : Thread nD τ) arg3 fullShare x1 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__stats_kernel i arg2 harg2 arg3 harg3 arg4 harg4 arg5 harg5 arg6 harg6 arg7 harg7 arg8 harg8) K } := by
  refine ⟨?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%ds0, %fs0, -, HS0⟩, ⟨%ds1, %fs1, -, HS1⟩, ⟨%ds2, %fs2, -, HS2⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    isplitl [HS1]; · iexists _; iexact HS1
    iexists _; iexact HS2

end Cert.KernelIdeal.Hand

end
-- ==== Proof.StatsRunB.lean ====
/-
  The statistics pass, part 3: the body at a MIDDLE label tile. The states' copy is only read; the running maximum
  and the running sum, found as the tile before left them, are each overwritten once.
-/
import proofs.«106505_j49632642072960_2_alg».proof.Proof.StatsRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a middle tile: inputs and the states' copy `xs0` are handed back as found; the running maximum and sum,
    found at `xs1`, `xs2`, end with the stores listed. -/
noncomputable def kernelRun0_B (c : Dev nD) (i : grid0.Coords) (arg2 : Memref sig .tc .vmem S1x512x512 .f32) (harg2 : arg2.IsWhole) (arg3 : Memref sig .tc .vmem S8000x512 .f32) (harg3 : arg3.IsWhole) (arg4 : Memref sig .tc .vmem S1x1x512 .f32) (harg4 : arg4.IsWhole) (arg5 : Memref sig .tc .vmem S1x512x1 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x512 .f32) (harg8 : arg8.IsWhole) (hc0 : ¬cond0_0 i) (hc1 : ¬cond0_1 i)
    (x0 : Vec F S1x512x512 .f32) (x1 : Vec F S8000x512 .f32) (xs0 : Vec F S512x512 .bf16) (xs1 : Vec F S1x512 .f32) (xs2 : Vec F S1x512 .f32) :
    Σ' (LS1 : List (View.Piece (Elt F) S1x512 .f32)), { LS2 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg6 fullShare xs0 ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__stats_kernel i arg2 harg2 arg3 harg3 arg4 harg4 arg5 harg5 arg6 harg6 arg7 harg7 arg8 harg8) K } := by
  refine ⟨?_, ?_, fun E K => ?run⟩
  case run =>
    simp only [cc0__stats_kernel_eq_skeleton]; unfold cc0__stats_kernel_skel
    unfold owns
    iintro ⟨⟨%f0, %hf0, H0⟩, ⟨%f1, %hf1, H1⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg6.eq_unread hfs0
    obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]
    · iexists _; isplitr; · ipureintro; exact harg6.read_unread _
      iexact HS0
    isplitl [HS1]; · iexists _; iexact HS1
    iexists _; iexact HS2

end Cert.KernelIdeal.Hand

end
-- ==== Proof.StatsRunC.lean ====
/-
  The statistics pass, part 4: the body at the LAST label tile. As at a middle tile, and then the final maximum and
  the reciprocal of the final sum are stored into the two output windows' buffers.
-/
import proofs.«106505_j49632642072960_2_alg».proof.Proof.StatsRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the last tile: as at a middle tile, and the two outputs' buffers — found at anything — end with one store each. -/
noncomputable def kernelRun0_C (c : Dev nD) (i : grid0.Coords) (arg2 : Memref sig .tc .vmem S1x512x512 .f32) (harg2 : arg2.IsWhole) (arg3 : Memref sig .tc .vmem S8000x512 .f32) (harg3 : arg3.IsWhole) (arg4 : Memref sig .tc .vmem S1x1x512 .f32) (harg4 : arg4.IsWhole) (arg5 : Memref sig .tc .vmem S1x512x1 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x512 .f32) (harg8 : arg8.IsWhole) (hc0 : ¬cond0_0 i) (hc1 : cond0_1 i)
    (x0 : Vec F S1x512x512 .f32) (x1 : Vec F S8000x512 .f32) (xs0 : Vec F S512x512 .bf16) (xs1 : Vec F S1x512 .f32) (xs2 : Vec F S1x512 .f32) :
    Σ' (L2 : List (View.Piece (Elt F) S1x1x512 .f32)) (L3 : List (View.Piece (Elt F) S1x512x1 .f32)) (LS1 : List (View.Piece (Elt F) S1x512 .f32)), { LS2 : List (View.Piece (Elt F) S1x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ owns (c : Thread nD τ) arg6 fullShare xs0 ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__stats_kernel i arg2 harg2 arg3 harg3 arg4 harg4 arg5 harg5 arg6 harg6 arg7 harg7 arg8 harg8) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg6.eq_unread hfs0
    obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]
    · iexists _; isplitr; · ipureintro; exact harg6.read_unread _
      iexact HS0
    isplitl [HS1]; · iexists _; iexact HS1
    iexists _; iexact HS2

end Cert.KernelIdeal.Hand

end
-- ==== Proof.StatsFrame.lean ====
/-
  The statistics pass, part 5: what its scratch buffers and outputs hold point by point, and the body's
  obligation to the pipeline.

  The three scratch buffers are carried from point to point. After a first tile they hold what that case's stores
  leave (the states' copy; the tile's maximum over the reset value; the tile's sum over the reset value); after
  a later tile the states' copy is unchanged and the running maximum and sum are what the case's stores leave when
  run from the previous point's contents: a recursion on the position in the grid. The outputs are stored at last
  tiles only, from the scratch contents of the point before. The pipeline's invariant between two points is: the
  three scratch buffers at those contents, the scoped buffers of the other pass at anything, the random-number register.
-/
import proofs.«106505_j49632642072960_2_alg».proof.Proof.StatsRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The cases at a point -/

theorem c0_of (t : Fin cfg0.N) (h : t.val % 4 = 0) : cond0_0 (grid0.coords t) := (hcond0_0 t).mpr h
theorem nc0_of (t : Fin cfg0.N) (h : ¬t.val % 4 = 0) : ¬cond0_0 (grid0.coords t) := fun hc => h ((hcond0_0 t).mp hc)
theorem c1_of (t : Fin cfg0.N) (h : t.val % 4 = 3) : cond0_1 (grid0.coords t) := (hcond0_1 t).mpr h
theorem nc1_of (t : Fin cfg0.N) (h : ¬t.val % 4 = 3) : ¬cond0_1 (grid0.coords t) := fun hc => h ((hcond0_1 t).mp hc)
theorem nc1_of_first (t : Fin cfg0.N) (h : t.val % 4 = 0) : ¬cond0_1 (grid0.coords t) :=
  nc1_of t (by omega)
theorem nc0_of_last (t : Fin cfg0.N) (h : t.val % 4 = 3) : ¬cond0_0 (grid0.coords t) :=
  nc0_of t (by omega)

/-- The body's run at a first tile, at the point's buffers and blocks. -/
abbrev runA (c : Dev nD) (t : Fin cfg0.N) (h0 : t.val % 4 = 0) :=
  kernelRun0_A (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (c0_of t h0) (nc1_of_first t h0) (iblk0 V c 0 t) (iblk0 V c 1 t)
/-- At a middle tile, from the scratch contents `p` the point before left. -/
abbrev runB (c : Dev nD) (t : Fin cfg0.N) (h0 : ¬t.val % 4 = 0) (h1 : ¬t.val % 4 = 3) (p : Vec F S512x512 .bf16 × Vec F S1x512 .f32 × Vec F S1x512 .f32) :=
  kernelRun0_B (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (nc0_of t h0) (nc1_of t h1) (iblk0 V c 0 t) (iblk0 V c 1 t) p.1 p.2.1 p.2.2
/-- At the last tile. -/
abbrev runC (c : Dev nD) (t : Fin cfg0.N) (h1 : t.val % 4 = 3) (p : Vec F S512x512 .bf16 × Vec F S1x512 .f32 × Vec F S1x512 .f32) :=
  kernelRun0_C (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (nc0_of_last t h1) (c1_of t h1) (iblk0 V c 0 t) (iblk0 V c 1 t) p.1 p.2.1 p.2.2

/-! ## The stores of each case cover the buffer they go to -/

theorem coverA_0 (c : Dev nD) (t : Fin cfg0.N) (h0 : t.val % 4 = 0) (y : S512x512.Idx) : ∃ pc ∈ (runA V c t h0).1, y ∈ pc.1.set :=
  View.cover_of_tiledL (runA V c t h0).1 S512x512.size (by sl_kernel_rfl) y
theorem coverA_1 (c : Dev nD) (t : Fin cfg0.N) (h0 : t.val % 4 = 0) (y : S1x512.Idx) : ∃ pc ∈ (runA V c t h0).2.1, y ∈ pc.1.set :=
  View.cover_of_tiledL (runA V c t h0).2.1 S1x512.size (by sl_kernel_rfl) y
theorem coverA_2 (c : Dev nD) (t : Fin cfg0.N) (h0 : t.val % 4 = 0) (y : S1x512.Idx) : ∃ pc ∈ (runA V c t h0).2.2.1, y ∈ pc.1.set :=
  View.cover_of_tiledL (runA V c t h0).2.2.1 S1x512.size (by sl_kernel_rfl) y
theorem coverB_1 (c : Dev nD) (t : Fin cfg0.N) (h0 : ¬t.val % 4 = 0) (h1 : ¬t.val % 4 = 3) (p : Vec F S512x512 .bf16 × Vec F S1x512 .f32 × Vec F S1x512 .f32) (y : S1x512.Idx) : ∃ pc ∈ (runB V c t h0 h1 p).1, y ∈ pc.1.set :=
  View.cover_of_tiledL (runB V c t h0 h1 p).1 S1x512.size (by sl_kernel_rfl) y
theorem coverB_2 (c : Dev nD) (t : Fin cfg0.N) (h0 : ¬t.val % 4 = 0) (h1 : ¬t.val % 4 = 3) (p : Vec F S512x512 .bf16 × Vec F S1x512 .f32 × Vec F S1x512 .f32) (y : S1x512.Idx) : ∃ pc ∈ (runB V c t h0 h1 p).2.1, y ∈ pc.1.set :=
  View.cover_of_tiledL (runB V c t h0 h1 p).2.1 S1x512.size (by sl_kernel_rfl) y
theorem coverC_o2 (c : Dev nD) (t : Fin cfg0.N) (h1 : t.val % 4 = 3) (p : Vec F S512x512 .bf16 × Vec F S1x512 .f32 × Vec F S1x512 .f32) (y : S1x1x512.Idx) : ∃ pc ∈ (runC V c t h1 p).1, y ∈ pc.1.set :=
  View.cover_of_tiledL (runC V c t h1 p).1 S1x1x512.size (by sl_kernel_rfl) y
theorem coverC_o3 (c : Dev nD) (t : Fin cfg0.N) (h1 : t.val % 4 = 3) (p : Vec F S512x512 .bf16 × Vec F S1x512 .f32 × Vec F S1x512 .f32) (y : S1x512x1.Idx) : ∃ pc ∈ (runC V c t h1 p).2.1, y ∈ pc.1.set :=
  View.cover_of_tiledL (runC V c t h1 p).2.1 S1x512x1.size (by sl_kernel_rfl) y
theorem coverC_1 (c : Dev nD) (t : Fin cfg0.N) (h1 : t.val % 4 = 3) (p : Vec F S512x512 .bf16 × Vec F S1x512 .f32 × Vec F S1x512 .f32) (y : S1x512.Idx) : ∃ pc ∈ (runC V c t h1 p).2.2.1, y ∈ pc.1.set :=
  View.cover_of_tiledL (runC V c t h1 p).2.2.1 S1x512.size (by sl_kernel_rfl) y
theorem coverC_2 (c : Dev nD) (t : Fin cfg0.N) (h1 : t.val % 4 = 3) (p : Vec F S512x512 .bf16 × Vec F S1x512 .f32 × Vec F S1x512 .f32) (y : S1x512.Idx) : ∃ pc ∈ (runC V c t h1 p).2.2.2.1, y ∈ pc.1.set :=
  View.cover_of_tiledL (runC V c t h1 p).2.2.2.1 S1x512.size (by sl_kernel_rfl) y

/-! ## What each case leaves in the scratch buffers and the outputs -/

/-- After a first tile: the three scratch buffers, read back from the case's stores. -/
def afterFirst (c : Dev nD) (t : Fin cfg0.N) (h0 : t.val % 4 = 0) : Vec F S512x512 .bf16 × Vec F S1x512 .f32 × Vec F S1x512 .f32 :=
  (VS0_0.read (Elt F) (VS0_0.writes (Elt F) VS0_0.junk (runA V c t h0).1),
   VS0_1.read (Elt F) (VS0_1.writes (Elt F) VS0_1.junk (runA V c t h0).2.1),
   VS0_2.read (Elt F) (VS0_2.writes (Elt F) VS0_2.junk (runA V c t h0).2.2.1))
/-- After a middle tile, from the previous contents `p`: the states' copy as it was, the two running values rewritten. -/
def afterMiddle (c : Dev nD) (t : Fin cfg0.N) (h0 : ¬t.val % 4 = 0) (h1 : ¬t.val % 4 = 3) (p : Vec F S512x512 .bf16 × Vec F S1x512 .f32 × Vec F S1x512 .f32) : Vec F S512x512 .bf16 × Vec F S1x512 .f32 × Vec F S1x512 .f32 :=
  (p.1,
   VS0_1.read (Elt F) (VS0_1.writes (Elt F) VS0_1.junk (runB V c t h0 h1 p).1),
   VS0_2.read (Elt F) (VS0_2.writes (Elt F) VS0_2.junk (runB V c t h0 h1 p).2.1))
/-- After the last tile. -/
def afterLast (c : Dev nD) (t : Fin cfg0.N) (h1 : t.val % 4 = 3) (p : Vec F S512x512 .bf16 × Vec F S1x512 .f32 × Vec F S1x512 .f32) : Vec F S512x512 .bf16 × Vec F S1x512 .f32 × Vec F S1x512 .f32 :=
  (p.1,
   VS0_1.read (Elt F) (VS0_1.writes (Elt F) VS0_1.junk (runC V c t h1 p).2.2.1),
   VS0_2.read (Elt F) (VS0_2.writes (Elt F) VS0_2.junk (runC V c t h1 p).2.2.2.1))
/-- The two outputs' buffers after the last tile. -/
def outLast (c : Dev nD) (t : Fin cfg0.N) (h1 : t.val % 4 = 3) (p : Vec F S512x512 .bf16 × Vec F S1x512 .f32 × Vec F S1x512 .f32) : Vec F S1x1x512 .f32 × Vec F S1x512x1 .f32 :=
  (VO0_2.read (Elt F) (VO0_2.writes (Elt F) VO0_2.junk (runC V c t h1 p).1),
   VO0_3.read (Elt F) (VO0_3.writes (Elt F) VO0_3.junk (runC V c t h1 p).2.1))

/-! ## The scratch contents after each point -/

/-- THE RECURSION over the grid positions: what the three scratch buffers hold after the body at position `n`. -/
def scratchAt (c : Dev nD) : (n : ℕ) → n < cfg0.N → Vec F S512x512 .bf16 × Vec F S1x512 .f32 × Vec F S1x512 .f32
  | 0, hn => afterFirst V c ⟨0, hn⟩ (Nat.zero_mod 4)
  | n + 1, hn =>
    if h0 : (n + 1) % 4 = 0 then afterFirst V c ⟨n + 1, hn⟩ h0
    else if h1 : (n + 1) % 4 = 3 then afterLast V c ⟨n + 1, hn⟩ h1 (scratchAt c n (Nat.lt_of_succ_lt hn))
    else afterMiddle V c ⟨n + 1, hn⟩ h0 h1 (scratchAt c n (Nat.lt_of_succ_lt hn))

/-- The contents the point before `t` left (read only where `t` is not a first tile). -/
abbrev prevAt (c : Dev nD) (t : Fin cfg0.N) : Vec F S512x512 .bf16 × Vec F S1x512 .f32 × Vec F S1x512 .f32 :=
  scratchAt V c (t.val - 1) (Nat.lt_of_le_of_lt (Nat.sub_le _ _) t.isLt)

theorem scratchAt_first (c : Dev nD) (t : Fin cfg0.N) (h0 : t.val % 4 = 0) : scratchAt V c t.val t.isLt = afterFirst V c t h0 := by
  obtain ⟨n, hn⟩ := t
  cases n with
  | zero => exact rfl
  | succ n => exact (dif_pos h0).trans rfl
theorem scratchAt_middle (c : Dev nD) (t : Fin cfg0.N) (h0 : ¬t.val % 4 = 0) (h1 : ¬t.val % 4 = 3) :
    scratchAt V c t.val t.isLt = afterMiddle V c t h0 h1 (prevAt V c t) := by
  obtain ⟨n, hn⟩ := t
  cases n with
  | zero => exact absurd (Nat.zero_mod 4) h0
  | succ n => exact (dif_neg h0).trans ((dif_neg h1).trans rfl)
theorem scratchAt_last (c : Dev nD) (t : Fin cfg0.N) (h1 : t.val % 4 = 3) :
    scratchAt V c t.val t.isLt = afterLast V c t h1 (prevAt V c t) := by
  obtain ⟨n, hn⟩ := t
  cases n with
  | zero => exact absurd (show (0 : ℕ) % 4 = 3 from h1) (by decide)
  | succ n => exact (dif_neg (show ¬(n + 1) % 4 = 0 from fun h => by have h1' : (n + 1) % 4 = 3 := h1; omega)).trans ((dif_pos h1).trans rfl)

/-- The outputs' buffers after the body at `t`: at a last tile what that case stores; elsewhere nothing is stored and
    nothing reads this (the windows are idle there and not written back). -/
def outsAt (c : Dev nD) (t : Fin cfg0.N) : Vec F S1x1x512 .f32 × Vec F S1x512x1 .f32 :=
  if h1 : t.val % 4 = 3 then outLast V c t h1 (prevAt V c t)
  else (VO0_2.read (Elt F) VO0_2.junk, VO0_3.read (Elt F) VO0_3.junk)

theorem outsAt_last (c : Dev nD) (t : Fin cfg0.N) (h1 : t.val % 4 = 3) : outsAt V c t = outLast V c t h1 (prevAt V c t) := dif_pos h1

/-! ## The invariant between two points -/

def PhiS0 (c : Dev nD) : (n : ℕ) → n ≤ cfg0.N → sProp 𝕄
  | 0, _ => Pipeline.ΦA spec0 c
  | n + 1, hn => iprop(iprop(owns (c : Thread nD τ) scM0_0 fullShare (scratchAt V c n hn).1 ∗ owns (c : Thread nD τ) scM0_1 fullShare (scratchAt V c n hn).2.1
      ∗ owns (c : Thread nD τ) scM0_2 fullShare (scratchAt V c n hn).2.2 ∗ restOther0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare (scratchAt V c n hn).1 ∗ owns (c : Thread nD τ) scM0_1 fullShare (scratchAt V c n hn).2.1
      ∗ owns (c : Thread nD τ) scM0_2 fullShare (scratchAt V c n hn).2.2 ∗ restOther0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare (scratchAt V c (n - 1) (by omega)).1 ∗ owns (c : Thread nD τ) scM0_1 fullShare (scratchAt V c (n - 1) (by omega)).2.1
      ∗ owns (c : Thread nD τ) scM0_2 fullShare (scratchAt V c (n - 1) (by omega)).2.2 ∗ restOther0 (F := F) c) ∗ (∃ r, prngReg c r)) := by
  cases n with
  | zero => exact absurd rfl hz
  | succ n => rfl

/-! ## The pipeline's proof data -/

/-- The arrays as the pass finds them; after the body each input's buffer at its block, the outputs' at `outsAt`;
    the invariant `PhiS0`; no transfer units owed to anyone; each array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt V c t).1
    | ⟨3, _⟩ => (outsAt V c t).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt V c t).1 := by dsimp only [dat0]
theorem after0_3 (c : Dev nD) (t : Fin cfg0.N) : (dat0 V c).after 3 t = (outsAt V c t).2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

theorem leaves0_0 (c : Dev nD) (t : Fin cfg0.N) : (dat0 V c).leavesExact 0 t = owns (c : Thread nD τ) (ms0_0 t) fullShare (iblk0 V c 0 t) := by
  rw [show (dat0 V c).leavesExact 0 t = owns (c : Thread nD τ) (ms0_0 t) fullShare ((dat0 V c).after 0 t) from by
    unfold Dat.leavesExact; rw [liveAt0_0 t], after0_0]
theorem leaves0_1 (c : Dev nD) (t : Fin cfg0.N) : (dat0 V c).leavesExact 1 t = owns (c : Thread nD τ) (ms0_1 t) fullShare (iblk0 V c 1 t) := by
  rw [show (dat0 V c).leavesExact 1 t = owns (c : Thread nD τ) (ms0_1 t) fullShare ((dat0 V c).after 1 t) from by
    unfold Dat.leavesExact; rw [liveAt0_1 t], after0_1]

set_option maxHeartbeats 4800000 in
/-- The body at any point: the case is read off the position; the invariant hands the scratch buffers at what the
    point before left (at anything, before the first point) and takes them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [leaves0_0, leaves0_1]
  by_cases h0 : t.val % 4 = 0
  · have h1 : ¬t.val % 4 = 3 := by omega
    rw [Dat.leavesExact_idle (dat0 V c) 2 t (idleAt0_2 t (nc1_of t h1)) (noFlush0_2 t (nc1_of t h1)),
      Dat.leavesExact_idle (dat0 V c) 3 t (idleAt0_3 t (nc1_of t h1)) (noFlush0_3 t (nc1_of t h1))]
    rw [scratchAt_first V c t h0]
    unfold afterFirst; dsimp only
    by_cases hz : t.val = 0
    · rw [PhiS0_castSucc V c t, PhiS0_zero V c _ _ hz, PhiA0_eq]
      iintro ⟨⟨⟨HS0, HS1, HS2, Hrest⟩, Hg⟩, Ho, ⟨%d0, H0⟩, ⟨%d1, H1⟩, H2, H3⟩
      iapply ((runA V c t h0).2.2.2 Set.univ _)
      isplitl [H0]; · iexact H0
      isplitl [H1]; · iexact H1
      isplitl [HS0]; · iexact HS0
      isplitl [HS1]; · iexact HS1
      isplitl [HS2]; · iexact HS2
      iintro ⟨H0, H1, ⟨%es0, HS0⟩, ⟨%es1, HS1⟩, ⟨%es2, HS2⟩⟩
      isplitl [HS0 HS1 HS2 Hrest Hg]
      · isplitl [HS0 HS1 HS2 Hrest]
        · isplitl [HS0]
          · unfold owns; iexists _; isplitr
            swap; · iexact HS0
            ipureintro; exact View.read_writes_of_cover _ _ _ _ _ (coverA_0 V c t h0)
          isplitl [HS1]
          · unfold owns; iexists _; isplitr
            swap; · iexact HS1
            ipureintro; exact View.read_writes_of_cover _ _ _ _ _ (coverA_1 V c t h0)
          isplitl [HS2]
          · unfold owns; iexists _; isplitr
            swap; · iexact HS2
            ipureintro; exact View.read_writes_of_cover _ _ _ _ _ (coverA_2 V c t h0)
          iexact Hrest
        iexact Hg
      isplitl [Ho]; · iexact Ho
      isplitl [H0]; · iexact H0
      isplitl [H1]; · iexact H1
      isplitl [H2]; · iexact H2
      iexact H3
    · rw [PhiS0_castSucc V c t, PhiS0_pos V c _ _ hz]
      iintro ⟨⟨⟨HS0, HS1, HS2, Hrest⟩, Hg⟩, Ho, ⟨%d0, H0⟩, ⟨%d1, H1⟩, H2, H3⟩
      iapply ((runA V c t h0).2.2.2 Set.univ _)
      isplitl [H0]; · iexact H0
      isplitl [H1]; · iexact H1
      isplitl [HS0]; · iexists _; iexact HS0
      isplitl [HS1]; · iexists _; iexact HS1
      isplitl [HS2]; · iexists _; iexact HS2
      iintro ⟨H0, H1, ⟨%es0, HS0⟩, ⟨%es1, HS1⟩, ⟨%es2, HS2⟩⟩
      isplitl [HS0 HS1 HS2 Hrest Hg]
      · isplitl [HS0 HS1 HS2 Hrest]
        · isplitl [HS0]
          · unfold owns; iexists _; isplitr
            swap; · iexact HS0
            ipureintro; exact View.read_writes_of_cover _ _ _ _ _ (coverA_0 V c t h0)
          isplitl [HS1]
          · unfold owns; iexists _; isplitr
            swap; · iexact HS1
            ipureintro; exact View.read_writes_of_cover _ _ _ _ _ (coverA_1 V c t h0)
          isplitl [HS2]
          · unfold owns; iexists _; isplitr
            swap; · iexact HS2
            ipureintro; exact View.read_writes_of_cover _ _ _ _ _ (coverA_2 V c t h0)
          iexact Hrest
        iexact Hg
      isplitl [Ho]; · iexact Ho
      isplitl [H0]; · iexact H0
      isplitl [H1]; · iexact H1
      isplitl [H2]; · iexact H2
      iexact H3
  · have hz : t.val ≠ 0 := fun e => h0 (by rw [e])
    by_cases h1 : t.val % 4 = 3
    · rw [show (dat0 V c).leavesExact 2 t = owns (c : Thread nD τ) (ms0_2 t) fullShare ((dat0 V c).after 2 t) from by
        unfold Dat.leavesExact; rw [liveAt0_2 t (c1_of t h1)], after0_2]
      rw [show (dat0 V c).leavesExact 3 t = owns (c : Thread nD τ) (ms0_3 t) fullShare ((dat0 V c).after 3 t) from by
        unfold Dat.leavesExact; rw [liveAt0_3 t (c1_of t h1)], after0_3]
      rw [outsAt_last V c t h1, scratchAt_last V c t h1]
      unfold afterLast outLast; dsimp only
      rw [PhiS0_castSucc V c t, PhiS0_pos V c _ _ hz]
      iintro ⟨⟨⟨HS0, HS1, HS2, Hrest⟩, Hg⟩, Ho, ⟨%d0, H0⟩, ⟨%d1, H1⟩, ⟨%d2, H2⟩, ⟨%d3, H3⟩⟩
      iapply ((runC V c t h1 (prevAt V c t)).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      isplitl [HS2]; · iexact HS2
      iintro ⟨H0, H1, ⟨%e2, H2⟩, ⟨%e3, H3⟩, HS0, ⟨%es1, HS1⟩, ⟨%es2, HS2⟩⟩
      isplitl [HS0 HS1 HS2 Hrest Hg]
      · isplitl [HS0 HS1 HS2 Hrest]
        · isplitl [HS0]; · iexact HS0
          isplitl [HS1]
          · unfold owns; iexists _; isplitr
            swap; · iexact HS1
            ipureintro; exact View.read_writes_of_cover _ _ _ _ _ (coverC_1 V c t h1 _)
          isplitl [HS2]
          · unfold owns; iexists _; isplitr
            swap; · iexact HS2
            ipureintro; exact View.read_writes_of_cover _ _ _ _ _ (coverC_2 V c t h1 _)
          iexact Hrest
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverC_o2 V c t h1 _)
      unfold owns; iexists _; isplitr
      swap; · iexact H3
      ipureintro; exact View.read_writes_of_cover _ _ _ _ _ (coverC_o3 V c t h1 _)
    · rw [Dat.leavesExact_idle (dat0 V c) 2 t (idleAt0_2 t (nc1_of t h1)) (noFlush0_2 t (nc1_of t h1)),
        Dat.leavesExact_idle (dat0 V c) 3 t (idleAt0_3 t (nc1_of t h1)) (noFlush0_3 t (nc1_of t h1))]
      rw [scratchAt_middle V c t h0 h1]
      unfold afterMiddle; dsimp only
      rw [PhiS0_castSucc V c t, PhiS0_pos V c _ _ hz]
      iintro ⟨⟨⟨HS0, HS1, HS2, Hrest⟩, Hg⟩, Ho, ⟨%d0, H0⟩, ⟨%d1, H1⟩, H2, H3⟩
      iapply ((runB V c t h0 h1 (prevAt V c t)).2.2 Set.univ _)
      isplitl [H0]; · iexact H0
      isplitl [H1]; · iexact H1
      isplitl [HS0]; · iexact HS0
      isplitl [HS1]; · iexact HS1
      isplitl [HS2]; · iexact HS2
      iintro ⟨H0, H1, HS0, ⟨%es1, HS1⟩, ⟨%es2, HS2⟩⟩
      isplitl [HS0 HS1 HS2 Hrest Hg]
      · isplitl [HS0 HS1 HS2 Hrest]
        · isplitl [HS0]; · iexact HS0
          isplitl [HS1]
          · unfold owns; iexists _; isplitr
            swap; · iexact HS1
            ipureintro; exact View.read_writes_of_cover _ _ _ _ _ (coverB_1 V c t h0 h1 _)
          isplitl [HS2]
          · unfold owns; iexists _; isplitr
            swap; · iexact HS2
            ipureintro; exact View.read_writes_of_cover _ _ _ _ _ (coverB_2 V c t h0 h1 _)
          iexact Hrest
        iexact Hg
      isplitl [Ho]; · iexact Ho
      isplitl [H0]; · iexact H0
      isplitl [H1]; · iexact H1
      isplitl [H2]; · iexact H2
      iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the pass is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the launch's form back: the scratch contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS0, HS1, HS2, Hrest⟩, Hg⟩
  isplitl [HS0 HS1 HS2 Hrest]
  · isplitl [HS0]; · iexists _; iexact HS0
    isplitl [HS1]; · iexists _; iexact HS1
    isplitl [HS2]; · iexists _; iexact HS2
    iexact Hrest
  iexact Hg

end Cert.KernelIdeal.Hand

end
-- ==== Proof.PoolBase.lean ====
import proofs.«106505_j49632642072960_2_alg».proof.Proof.Gen.KernelIdeal.Launch
import proofs.«106505_j49632642072960_2_alg».proof.Proof.Gen.KernelIdeal.Skeleton
import proofs.«106505_j49632642072960_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The pooling pass: what its frame is stated over

The pooling pass visits the 128 points (b, j) of a 16 x 8 grid, j fastest. At the first label tile of a batch
entry (j = 0) it stores the rounded states and the rounded, normalised states into two buffers of its own; at
every tile it reads both back and writes one block of 1000 label rows. Everything here is stated at the buffer
contents `V` the pass is entered with. -/

/-! ## The windows' blocks -/

/-- Window `w`'s block at point `t`, read off its array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is
    not fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The one branch of the body -/

/-- The condition of the body's only conditional, from the grid coordinates. -/
abbrev cond1_0 (i : grid1.Coords) : Prop := (Scalar.cmpi .ne (Scalar.extui (Scalar.cmpi .eq (BitVec.ofNat 32 (i 1).val) 0#32)) 0#32) = 1#1
/-- It holds exactly at the first label tile of each batch entry. -/
theorem hcond1_0 : ∀ t : Fin cfg1.N, cond1_0 (grid1.coords t) ↔ t.val % 8 = 0 :=
  (by decide +kernel : ∀ t : Fin grid1.N, cond1_0 (grid1.coords t) ↔ t.val % 8 = 0)

/-! ## No window is ever idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl

/-! ## The staging and scratch memrefs -/

/-- One staging buffer of the output window, through which its contents are stated. -/
abbrev VO1_4 : View sig .tc .vmem S1x1000x512 .f32 := (Memref.whole cc1_stg4_0 : Memref sig .tc .vmem S1x1000x512 .f32).view
/-- Each window's current staging memref at point `t`, and its wholeness. -/
abbrev ms1_0 (t : Fin cfg1.N) : Memref sig .tc .vmem S1x512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8000x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1000x512 .f32 := win1_4.stage (cfg1.slots t 4)
abbrev hs1_4 (t : Fin cfg1.N) : (ms1_4 t).IsWhole := hstage1_4 ((cfg1.slots t 4).cast nbuf1_4)
/-- The two buffers the body keeps between points: the rounded states and the rounded normalised states. -/
abbrev scM1_0 : Memref sig .tc .vmem S512x512 .bf16 := Memref.whole cc1_scratch0
abbrev scM1_1 : Memref sig .tc .vmem S512x512 .bf16 := Memref.whole cc1_scratch1
abbrev VS1_0 : View sig .tc .vmem S512x512 .bf16 := scM1_0.view
abbrev VS1_1 : View sig .tc .vmem S512x512 .bf16 := scM1_1.view

/-! ## The scoped buffers the pass does not stage -/

/-- The ten scoped buffers of the other pass, each at some contents, beside `Q`: the two buffers of this pass. -/
def scoped1 (c : Dev nD) (Q : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ Q)

/-- The ten alone. -/
def rest10 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))

theorem scoped1_split (c : Dev nD) (Q : sProp 𝕄) : scoped1 (F := F) c Q ⊢ iprop(rest10 (F := F) c ∗ Q) := by
  unfold scoped1 rest10
  iintro ⟨H1, H2, H3, H4, H5, H6, H7, H8, H9, H10, HQ⟩
  isplitr [HQ]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iexact HQ

theorem scoped1_join (c : Dev nD) (Q : sProp 𝕄) : iprop(rest10 (F := F) c ∗ Q) ⊢ scoped1 (F := F) c Q := by
  unfold scoped1 rest10
  iintro ⟨⟨H1, H2, H3, H4, H5, H6, H7, H8, H9, H10⟩, HQ⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact HQ

/-- What the launch hands the pass: every scoped buffer it does not stage at some contents, and the random-number
    register at some state. -/
theorem PhiA1_eq (c : Dev nD) :
    (Pipeline.ΦA spec1 c : sProp 𝕄)
      = iprop(scoped1 (F := F) c iprop((∃ d, owns (c : Thread nD τ) scM1_0 fullShare d) ∗ (∃ d, owns (c : Thread nD τ) scM1_1 fullShare d)) ∗ (∃ r, prngReg c r)) := by
  unfold Pipeline.ΦA scoped1; rw [scopedRest1_eq]; simp only [scM1_0, scM1_1, owns_whole]; try rfl

/-! ## Inside a batch entry the states' and the normalisers' blocks do not move -/

/-- Window 0's block is the same at two points with one block index. -/
theorem iblk1_0_congr (c : Dev nD) {t t' : Fin cfg1.N} (h : win1_0.index t = win1_0.index t') :
    (iblk1 V c 0 t : Vec F S1x512x512 .f32) = iblk1 V c 0 t' := by
  funext j
  unfold iblk1
  rw [View.read_apply, View.read_apply]
  show _root_.cast _ (V c (Pipeline.arrRef spec1 0) ((cfg1.win 0).arr.view.emb ((win1_0.rect t).emb j)))
    = _root_.cast _ (V c (Pipeline.arrRef spec1 0) ((cfg1.win 0).arr.view.emb ((win1_0.rect t').emb j)))
  congr 3
  funext a; apply Fin.ext
  rw [Rect.emb_apply, Rect.emb_apply]
  show win1_0.index t a * win1_0.size a + 1 * (j a).val = win1_0.index t' a * win1_0.size a + 1 * (j a).val
  rw [h]

/-- Window 3's block is the same at two points with one block index. -/
theorem iblk1_3_congr (c : Dev nD) {t t' : Fin cfg1.N} (h : win1_3.index t = win1_3.index t') :
    (iblk1 V c 3 t : Vec F S1x512x1 .f32) = iblk1 V c 3 t' := by
  funext j
  unfold iblk1
  rw [View.read_apply, View.read_apply]
  show _root_.cast _ (V c (Pipeline.arrRef spec1 3) ((cfg1.win 3).arr.view.emb ((win1_3.rect t).emb j)))
    = _root_.cast _ (V c (Pipeline.arrRef spec1 3) ((cfg1.win 3).arr.view.emb ((win1_3.rect t').emb j)))
  congr 3
  funext a; apply Fin.ext
  rw [Rect.emb_apply, Rect.emb_apply]
  show win1_3.index t a * win1_3.size a + 1 * (j a).val = win1_3.index t' a * win1_3.size a + 1 * (j a).val
  rw [h]

/-- At a point that is not the first tile of its batch entry, window 0's block is the previous point's. -/
theorem iblk1_0_prev (c : Dev nD) (t : Fin cfg1.N) (h : ¬t.val % 8 = 0) :
    (iblk1 V c 0 ⟨t.val - 1, Nat.lt_of_le_of_lt (Nat.sub_le _ _) t.isLt⟩ : Vec F S1x512x512 .f32) = iblk1 V c 0 t :=
  (iblk1_0_congr V c ((cfg1.win 0).index_eq_of_fetch rfl t (by
    cases hf : (cfg1.win 0).fetch t with
    | false => rfl
    | true => exact absurd ((fetch1_0 t).mp hf) h)).2).symm

/-- The same for window 3. -/
theorem iblk1_3_prev (c : Dev nD) (t : Fin cfg1.N) (h : ¬t.val % 8 = 0) :
    (iblk1 V c 3 ⟨t.val - 1, Nat.lt_of_le_of_lt (Nat.sub_le _ _) t.isLt⟩ : Vec F S1x512x1 .f32) = iblk1 V c 3 t :=
  (iblk1_3_congr V c ((cfg1.win 3).index_eq_of_fetch rfl t (by
    cases hf : (cfg1.win 3).fetch t with
    | false => rfl
    | true => exact absurd ((fetch1_3 t).mp hf) h)).2).symm

end Cert.KernelIdeal.Hand

end
-- ==== Proof.PoolRunA.lean ====
import proofs.«106505_j49632642072960_2_alg».proof.Proof.PoolBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The body at the first label tile of a batch entry

There the branch is taken: the body stores the rounded states and the rounded normalised states into its two
buffers, whole, then reads them back and stores the tile's 1000 pooled rows. -/

set_option maxHeartbeats 4000000 in
/-- The pieces the body's stores leave in the output's staging memref and in the two kept buffers when the branch
    is taken, with the proof that on whole memrefs (the inputs' at their contents, the output's and the two kept
    buffers at anything) the body runs to the continuation holding the inputs as they were and each of the three
    with its pieces written. -/
noncomputable def kernelRun1_A (c : Dev nD) (i : grid1.Coords) (arg2 : Memref sig .tc .vmem S1x512x512 .f32) (harg2 : arg2.IsWhole) (arg3 : Memref sig .tc .vmem S8000x512 .f32) (harg3 : arg3.IsWhole) (arg4 : Memref sig .tc .vmem S1x1x512 .f32) (harg4 : arg4.IsWhole) (arg5 : Memref sig .tc .vmem S1x512x1 .f32) (harg5 : arg5.IsWhole) (arg6 : Memref sig .tc .vmem S1x1000x512 .f32) (harg6 : arg6.IsWhole) (arg7 : Memref sig .tc .vmem S512x512 .bf16) (harg7 : arg7.IsWhole) (arg8 : Memref sig .tc .vmem S512x512 .bf16) (harg8 : arg8.IsWhole) (hc0 : cond1_0 i)
    (x0 : Vec F S1x512x512 .f32) (x1 : Vec F S8000x512 .f32) (x2 : Vec F S1x1x512 .f32) (x3 : Vec F S1x512x1 .f32) :
    Σ' (L4 : List (View.Piece (Elt F) S1x1000x512 .f32)), Σ' (LS0 : List (View.Piece (Elt F) S512x512 .bf16)), { LS1 : List (View.Piece (Elt F) S512x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__out_kernel i arg2 harg2 arg3 harg3 arg4 harg4 arg5 harg5 arg6 harg6 arg7 harg7 arg8 harg8) K } := by
  refine ⟨?_, ?_, ?_, fun E K => ?run⟩
  case run =>
    simp only [cc1__out_kernel_eq_skeleton]; unfold cc1__out_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.KernelIdeal.Hand

end
-- ==== Proof.PoolRunB.lean ====
import proofs.«106505_j49632642072960_2_alg».proof.Proof.PoolRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The body at the later label tiles of a batch entry

There the branch is not taken: the body stores nothing into its two buffers; it reads them as the point before
left them and stores the tile's 1000 pooled rows. -/

set_option maxHeartbeats 4000000 in
/-- The pieces the body's stores leave in the output's staging memref when the branch is not taken, with the proof
    that on whole memrefs (the inputs' and the two kept buffers at their contents, the output's at anything) the
    body runs to the continuation holding the inputs and the two kept buffers as they were and the output's with its
    pieces written. -/
noncomputable def kernelRun1_B (c : Dev nD) (i : grid1.Coords) (arg2 : Memref sig .tc .vmem S1x512x512 .f32) (harg2 : arg2.IsWhole) (arg3 : Memref sig .tc .vmem S8000x512 .f32) (harg3 : arg3.IsWhole) (arg4 : Memref sig .tc .vmem S1x1x512 .f32) (harg4 : arg4.IsWhole) (arg5 : Memref sig .tc .vmem S1x512x1 .f32) (harg5 : arg5.IsWhole) (arg6 : Memref sig .tc .vmem S1x1000x512 .f32) (harg6 : arg6.IsWhole) (arg7 : Memref sig .tc .vmem S512x512 .bf16) (harg7 : arg7.IsWhole) (arg8 : Memref sig .tc .vmem S512x512 .bf16) (harg8 : arg8.IsWhole) (hc0 : ¬cond1_0 i)
    (x0 : Vec F S1x512x512 .f32) (x1 : Vec F S8000x512 .f32) (x2 : Vec F S1x1x512 .f32) (x3 : Vec F S1x512x1 .f32) (xs0 : Vec F S512x512 .bf16) (xs1 : Vec F S512x512 .bf16) :
    { L4 : List (View.Piece (Elt F) S1x1000x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs0 ∗ owns (c : Thread nD τ) arg8 fullShare xs1) -∗ K ⟨⟩))
          ⊢ wp frame (wpE (defs₀ (F := F)) Variants.none c none) E (cc1__out_kernel i arg2 harg2 arg3 harg3 arg4 harg4 arg5 harg5 arg6 harg6 arg7 harg7 arg8 harg8) K } := by
  refine ⟨?_, fun E K => ?run⟩
  case run =>
    simp only [cc1__out_kernel_eq_skeleton]; unfold cc1__out_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]
    · iexists _; isplitr; · ipureintro; exact harg7.read_unread _
      iexact HS0
    iexists _; isplitr; · ipureintro; exact harg8.read_unread _
    iexact HS1

end Cert.KernelIdeal.Hand

end
-- ==== Proof.PoolFrame.lean ====
import proofs.«106505_j49632642072960_2_alg».proof.Proof.PoolRunB
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The pooling pass: what each point leaves, the invariant, and the body obligation

After EVERY point t the first kept buffer holds the rounded states of t's batch entry and the second the rounded
normalised states: at the first label tile of a batch entry the body stores them; at a later tile it stores neither,
and the blocks of the states and of the normalisers are those of the point before (their block index does not move
inside a batch entry). So what the output block holds after a point is one closed term of the four input blocks. -/

theorem hz2 : (![0, 0] : Fin 2 → Nat) = fun _ => 0 := funext fun a => by fin_cases a <;> rfl
theorem hz3 : (![0, 0, 0] : Fin 3 → Nat) = fun _ => 0 := funext fun a => by fin_cases a <;> rfl

/-- The 1000 label rows of the tile at grid coordinates `i`, cut out of the resident label array `x1`. -/
def wchunk (i : grid1.Coords) (x1 : Vec F S8000x512 .f32) : Vec F S1000x512 .f32 :=
  View.ld x1 (Rect.unit (s := S8000x512) (k1_off1 i) S1000x512.size (k1_off1_inb i))

/-! ## The stores' pieces cover their buffers -/

theorem cover1_A_4 (c : Dev nD) (i : grid1.Coords) (arg2 : Memref sig .tc .vmem S1x512x512 .f32) (harg2 : arg2.IsWhole) (arg3 : Memref sig .tc .vmem S8000x512 .f32) (harg3 : arg3.IsWhole) (arg4 : Memref sig .tc .vmem S1x1x512 .f32) (harg4 : arg4.IsWhole) (arg5 : Memref sig .tc .vmem S1x512x1 .f32) (harg5 : arg5.IsWhole) (arg6 : Memref sig .tc .vmem S1x1000x512 .f32) (harg6 : arg6.IsWhole) (arg7 : Memref sig .tc .vmem S512x512 .bf16) (harg7 : arg7.IsWhole) (arg8 : Memref sig .tc .vmem S512x512 .bf16) (harg8 : arg8.IsWhole) (hc0 : cond1_0 i) (x0 : Vec F S1x512x512 .f32) (x1 : Vec F S8000x512 .f32) (x2 : Vec F S1x1x512 .f32) (x3 : Vec F S1x512x1 .f32) (y : S1x1000x512.Idx) :
    ∃ pc ∈ (kernelRun1_A c i arg2 harg2 arg3 harg3 arg4 harg4 arg5 harg5 arg6 harg6 arg7 harg7 arg8 harg8 hc0 x0 x1 x2 x3).1, y ∈ pc.1.set :=
  View.cover_of_tiledL (kernelRun1_A c i arg2 harg2 arg3 harg3 arg4 harg4 arg5 harg5 arg6 harg6 arg7 harg7 arg8 harg8 hc0 x0 x1 x2 x3).1 S1x1000x512.size (by sl_kernel_rfl) y

theorem scover1_A_0 (c : Dev nD) (i : grid1.Coords) (arg2 : Memref sig .tc .vmem S1x512x512 .f32) (harg2 : arg2.IsWhole) (arg3 : Memref sig .tc .vmem S8000x512 .f32) (harg3 : arg3.IsWhole) (arg4 : Memref sig .tc .vmem S1x1x512 .f32) (harg4 : arg4.IsWhole) (arg5 : Memref sig .tc .vmem S1x512x1 .f32) (harg5 : arg5.IsWhole) (arg6 : Memref sig .tc .vmem S1x1000x512 .f32) (harg6 : arg6.IsWhole) (arg7 : Memref sig .tc .vmem S512x512 .bf16) (harg7 : arg7.IsWhole) (arg8 : Memref sig .tc .vmem S512x512 .bf16) (harg8 : arg8.IsWhole) (hc0 : cond1_0 i) (x0 : Vec F S1x512x512 .f32) (x1 : Vec F S8000x512 .f32) (x2 : Vec F S1x1x512 .f32) (x3 : Vec F S1x512x1 .f32) (y : S512x512.Idx) :
    ∃ pc ∈ (kernelRun1_A c i arg2 harg2 arg3 harg3 arg4 harg4 arg5 harg5 arg6 harg6 arg7 harg7 arg8 harg8 hc0 x0 x1 x2 x3).2.1, y ∈ pc.1.set :=
  View.cover_of_tiledL (kernelRun1_A c i arg2 harg2 arg3 harg3 arg4 harg4 arg5 harg5 arg6 harg6 arg7 harg7 arg8 harg8 hc0 x0 x1 x2 x3).2.1 S512x512.size (by sl_kernel_rfl) y

theorem scover1_A_1 (c : Dev nD) (i : grid1.Coords) (arg2 : Memref sig .tc .vmem S1x512x512 .f32) (harg2 : arg2.IsWhole) (arg3 : Memref sig .tc .vmem S8000x512 .f32) (harg3 : arg3.IsWhole) (arg4 : Memref sig .tc .vmem S1x1x512 .f32) (harg4 : arg4.IsWhole) (arg5 : Memref sig .tc .vmem S1x512x1 .f32) (harg5 : arg5.IsWhole) (arg6 : Memref sig .tc .vmem S1x1000x512 .f32) (harg6 : arg6.IsWhole) (arg7 : Memref sig .tc .vmem S512x512 .bf16) (harg7 : arg7.IsWhole) (arg8 : Memref sig .tc .vmem S512x512 .bf16) (harg8 : arg8.IsWhole) (hc0 : cond1_0 i) (x0 : Vec F S1x512x512 .f32) (x1 : Vec F S8000x512 .f32) (x2 : Vec F S1x1x512 .f32) (x3 : Vec F S1x512x1 .f32) (y : S512x512.Idx) :
    ∃ pc ∈ (kernelRun1_A c i arg2 harg2 arg3 harg3 arg4 harg4 arg5 harg5 arg6 harg6 arg7 harg7 arg8 harg8 hc0 x0 x1 x2 x3).2.2.1, y ∈ pc.1.set :=
  View.cover_of_tiledL (kernelRun1_A c i arg2 harg2 arg3 harg3 arg4 harg4 arg5 harg5 arg6 harg6 arg7 harg7 arg8 harg8 hc0 x0 x1 x2 x3).2.2.1 S512x512.size (by sl_kernel_rfl) y

theorem cover1_B_4 (c : Dev nD) (i : grid1.Coords) (arg2 : Memref sig .tc .vmem S1x512x512 .f32) (harg2 : arg2.IsWhole) (arg3 : Memref sig .tc .vmem S8000x512 .f32) (harg3 : arg3.IsWhole) (arg4 : Memref sig .tc .vmem S1x1x512 .f32) (harg4 : arg4.IsWhole) (arg5 : Memref sig .tc .vmem S1x512x1 .f32) (harg5 : arg5.IsWhole) (arg6 : Memref sig .tc .vmem S1x1000x512 .f32) (harg6 : arg6.IsWhole) (arg7 : Memref sig .tc .vmem S512x512 .bf16) (harg7 : arg7.IsWhole) (arg8 : Memref sig .tc .vmem S512x512 .bf16) (harg8 : arg8.IsWhole) (hc0 : ¬cond1_0 i) (x0 : Vec F S1x512x512 .f32) (x1 : Vec F S8000x512 .f32) (x2 : Vec F S1x1x512 .f32) (x3 : Vec F S1x512x1 .f32) (xs0 : Vec F S512x512 .bf16) (xs1 : Vec F S512x512 .bf16) (y : S1x1000x512.Idx) :
    ∃ pc ∈ (kernelRun1_B c i arg2 harg2 arg3 harg3 arg4 harg4 arg5 harg5 arg6 harg6 arg7 harg7 arg8 harg8 hc0 x0 x1 x2 x3 xs0 xs1).1, y ∈ pc.1.set :=
  View.cover_of_tiledL (kernelRun1_B c i arg2 harg2 arg3 harg3 arg4 harg4 arg5 harg5 arg6 harg6 arg7 harg7 arg8 harg8 hc0 x0 x1 x2 x3 xs0 xs1).1 S1x1000x512.size (by sl_kernel_rfl) y

/-! ## What the pieces leave -/

/-- At a first tile the first kept buffer is left holding the rounded states. -/
theorem canon1_A_S0 (c : Dev nD) (i : grid1.Coords) (arg2 : Memref sig .tc .vmem S1x512x512 .f32) (harg2 : arg2.IsWhole) (arg3 : Memref sig .tc .vmem S8000x512 .f32) (harg3 : arg3.IsWhole) (arg4 : Memref sig .tc .vmem S1x1x512 .f32) (harg4 : arg4.IsWhole) (arg5 : Memref sig .tc .vmem S1x512x1 .f32) (harg5 : arg5.IsWhole) (arg6 : Memref sig .tc .vmem S1x1000x512 .f32) (harg6 : arg6.IsWhole) (arg7 : Memref sig .tc .vmem S512x512 .bf16) (harg7 : arg7.IsWhole) (arg8 : Memref sig .tc .vmem S512x512 .bf16) (harg8 : arg8.IsWhole) (hc0 : cond1_0 i) (x0 : Vec F S1x512x512 .f32) (x1 : Vec F S8000x512 .f32) (x2 : Vec F S1x1x512 .f32) (x3 : Vec F S1x512x1 .f32) :
    View.canon (kernelRun1_A c i arg2 harg2 arg3 harg3 arg4 harg4 arg5 harg5 arg6 harg6 arg7 harg7 arg8 harg8 hc0 x0 x1 x2 x3).2.1 = k1_pay2 x0 := by
  unfold kernelRun1_A
  dsimp only
  sl_unfold_run_names
  rw [View.canon_unit_zero (S := S512x512) hz2]
  simp only [View.readAt_eq_ld, harg2.read_unread, View.ld_unit_zero (S := S1x512x512) hz3]

/-- At a first tile the second kept buffer is left holding the rounded normalised states. -/
theorem canon1_A_S1 (c : Dev nD) (i : grid1.Coords) (arg2 : Memref sig .tc .vmem S1x512x512 .f32) (harg2 : arg2.IsWhole) (arg3 : Memref sig .tc .vmem S8000x512 .f32) (harg3 : arg3.IsWhole) (arg4 : Memref sig .tc .vmem S1x1x512 .f32) (harg4 : arg4.IsWhole) (arg5 : Memref sig .tc .vmem S1x512x1 .f32) (harg5 : arg5.IsWhole) (arg6 : Memref sig .tc .vmem S1x1000x512 .f32) (harg6 : arg6.IsWhole) (arg7 : Memref sig .tc .vmem S512x512 .bf16) (harg7 : arg7.IsWhole) (arg8 : Memref sig .tc .vmem S512x512 .bf16) (harg8 : arg8.IsWhole) (hc0 : cond1_0 i) (x0 : Vec F S1x512x512 .f32) (x1 : Vec F S8000x512 .f32) (x2 : Vec F S1x1x512 .f32) (x3 : Vec F S1x512x1 .f32) :
    View.canon (kernelRun1_A c i arg2 harg2 arg3 harg3 arg4 harg4 arg5 harg5 arg6 harg6 arg7 harg7 arg8 harg8 hc0 x0 x1 x2 x3).2.2.1 = k1_pay3 x0 x3 := by
  unfold kernelRun1_A
  dsimp only
  sl_unfold_run_names
  rw [View.canon_unit_zero (S := S512x512) hz2]
  simp only [View.readAt_eq_ld, harg2.read_unread, harg5.read_unread, View.ld_unit_zero (S := S1x512x512) hz3, View.ld_unit_zero (S := S1x512x1) hz3]

/-- At a first tile the output block is left holding the pooled rows of the tile, computed from the two buffers
    just stored. -/
theorem canon1_A_4 (c : Dev nD) (i : grid1.Coords) (arg2 : Memref sig .tc .vmem S1x512x512 .f32) (harg2 : arg2.IsWhole) (arg3 : Memref sig .tc .vmem S8000x512 .f32) (harg3 : arg3.IsWhole) (arg4 : Memref sig .tc .vmem S1x1x512 .f32) (harg4 : arg4.IsWhole) (arg5 : Memref sig .tc .vmem S1x512x1 .f32) (harg5 : arg5.IsWhole) (arg6 : Memref sig .tc .vmem S1x1000x512 .f32) (harg6 : arg6.IsWhole) (arg7 : Memref sig .tc .vmem S512x512 .bf16) (harg7 : arg7.IsWhole) (arg8 : Memref sig .tc .vmem S512x512 .bf16) (harg8 : arg8.IsWhole) (hc0 : cond1_0 i) (x0 : Vec F S1x512x512 .f32) (x1 : Vec F S8000x512 .f32) (x2 : Vec F S1x1x512 .f32) (x3 : Vec F S1x512x1 .f32) :
    View.canon (kernelRun1_A c i arg2 harg2 arg3 harg3 arg4 harg4 arg5 harg5 arg6 harg6 arg7 harg7 arg8 harg8 hc0 x0 x1 x2 x3).1 = k1_pay4 (wchunk i x1) (k1_pay2 x0) x2 (k1_pay3 x0 x3) := by
  unfold kernelRun1_A
  dsimp only
  sl_unfold_run_names
  rw [View.canon_unit_zero (S := S1x1000x512) hz3, View.readCov_unit_zero (S := S512x512) _ hz2, View.readCov_unit_zero (S := S512x512) _ hz2]
  simp only [View.readAt_eq_ld, harg2.read_unread, harg3.read_unread, harg4.read_unread, harg5.read_unread, View.ld_unit_zero (S := S1x512x512) hz3, View.ld_unit_zero (S := S1x512x1) hz3, View.ld_unit_zero (S := S1x1x512) hz3]
  rfl

/-- At a later tile the output block is left holding the pooled rows of the tile, computed from what the two kept
    buffers held. -/
theorem canon1_B_4 (c : Dev nD) (i : grid1.Coords) (arg2 : Memref sig .tc .vmem S1x512x512 .f32) (harg2 : arg2.IsWhole) (arg3 : Memref sig .tc .vmem S8000x512 .f32) (harg3 : arg3.IsWhole) (arg4 : Memref sig .tc .vmem S1x1x512 .f32) (harg4 : arg4.IsWhole) (arg5 : Memref sig .tc .vmem S1x512x1 .f32) (harg5 : arg5.IsWhole) (arg6 : Memref sig .tc .vmem S1x1000x512 .f32) (harg6 : arg6.IsWhole) (arg7 : Memref sig .tc .vmem S512x512 .bf16) (harg7 : arg7.IsWhole) (arg8 : Memref sig .tc .vmem S512x512 .bf16) (harg8 : arg8.IsWhole) (hc0 : ¬cond1_0 i) (x0 : Vec F S1x512x512 .f32) (x1 : Vec F S8000x512 .f32) (x2 : Vec F S1x1x512 .f32) (x3 : Vec F S1x512x1 .f32) (xs0 : Vec F S512x512 .bf16) (xs1 : Vec F S512x512 .bf16) :
    View.canon (kernelRun1_B c i arg2 harg2 arg3 harg3 arg4 harg4 arg5 harg5 arg6 harg6 arg7 harg7 arg8 harg8 hc0 x0 x1 x2 x3 xs0 xs1).1 = k1_pay4 (wchunk i x1) xs0 x2 xs1 := by
  unfold kernelRun1_B
  dsimp only
  sl_unfold_run_names
  rw [View.canon_unit_zero (S := S1x1000x512) hz3]
  simp only [View.readAt_eq_ld, harg3.read_unread, harg4.read_unread, harg7.read_unread, harg8.read_unread, View.ld_unit_zero (S := S512x512) hz2, View.ld_unit_zero (S := S1x1x512) hz3]
  rfl

/-! ## What the output block holds after each point -/

/-- The output block after point `t`: the pooled rows of t's label tile, from the tile's label rows, the rounded
    states, the column maxima and the rounded normalised states of t's batch entry. -/
def poolOut (c : Dev nD) (t : Fin cfg1.N) : Vec F S1x1000x512 .f32 :=
  k1_pay4 (wchunk (grid1.coords t) (iblk1 V c 1 t)) (k1_pay2 (iblk1 V c 0 t)) (iblk1 V c 2 t) (k1_pay3 (iblk1 V c 0 t) (iblk1 V c 3 t))

/-! ## The invariant -/

/-- Before the first point: what the launch hands over. Before any later point: the ten scoped buffers of the other
    pass at anything, the two kept buffers at the rounded states and the rounded normalised states of the point
    before, the random-number register at some state. -/
def PhiS (c : Dev nD) : (n : ℕ) → n ≤ cfg1.N → sProp 𝕄
  | 0, _ => Pipeline.ΦA spec1 c
  | n + 1, hn => iprop(scoped1 (F := F) c iprop(owns (c : Thread nD τ) scM1_0 fullShare (k1_pay2 (iblk1 V c 0 ⟨n, hn⟩)) ∗ owns (c : Thread nD τ) scM1_1 fullShare (k1_pay3 (iblk1 V c 0 ⟨n, hn⟩) (iblk1 V c 3 ⟨n, hn⟩))) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scoped1 (F := F) c iprop(owns (c : Thread nD τ) scM1_0 fullShare (k1_pay2 (iblk1 V c 0 ⟨n, hn⟩)) ∗ owns (c : Thread nD τ) scM1_1 fullShare (k1_pay3 (iblk1 V c 0 ⟨n, hn⟩) (iblk1 V c 3 ⟨n, hn⟩))) ∗ (∃ r, prngReg c r)) := rfl

theorem PhiS_pos (c : Dev nD) (n : ℕ) (h : n ≤ cfg1.N) (hz : n ≠ 0) :
    PhiS V c n h = iprop(scoped1 (F := F) c iprop(owns (c : Thread nD τ) scM1_0 fullShare (k1_pay2 (iblk1 V c 0 ⟨n - 1, by omega⟩)) ∗ owns (c : Thread nD τ) scM1_1 fullShare (k1_pay3 (iblk1 V c 0 ⟨n - 1, by omega⟩) (iblk1 V c 3 ⟨n - 1, by omega⟩))) ∗ (∃ r, prngReg c r)) := by
  cases n with
  | zero => exact absurd rfl hz
  | succ n => rfl

/-! ## The proof data -/

/-- The proof data of the pooling pass on core `c`: the arrays as the pass finds them; after the body at point
    `t` each input's buffer at its block and the output's at `poolOut`; the invariant `PhiS`; no transfer units owed to
    anyone; each array held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => poolOut V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = poolOut V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 4800000 in
/-- The body at any point. The inputs' memrefs hold their blocks. At a first tile the branch is taken and the run
    stores both kept buffers (handed over at anything, or at what the point before left, which is then forgotten);
    at a later tile it is not, the kept buffers hold the rounded states and normalised states of the point before,
    which are this point's, and they come back untouched. Either way the output block ends at `poolOut`. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [after1_0, after1_1, after1_2, after1_3, after1_4]
  unfold poolOut
  by_cases h0 : t.val % 8 = 0
  · by_cases hz : t.val = 0
    · rw [PhiS_castSucc V c t, PhiS_zero V c _ _ hz, PhiA1_eq]
      iintro ⟨⟨HΦ, Hg⟩, Ho, ⟨%d0, H0⟩, ⟨%d1, H1⟩, ⟨%d2, H2⟩, ⟨%d3, H3⟩, ⟨%d4, H4⟩⟩
      ihave HΦ' := (scoped1_split (F := F) c _) $$ HΦ
      icases HΦ' with ⟨Hr, HS0, HS1⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t)).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [Hr HS0 HS1 Hg]
      · isplitl [Hr HS0 HS1]
        · iapply (scoped1_join (F := F) c _)
          isplitl [Hr]; · iexact Hr
          isplitl [HS0]
          · unfold owns; iexists _; isplitr
            swap; · iexact HS0
            ipureintro; exact (View.read_writes_eq_canon _ _ _ (scover1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t))).trans (canon1_A_S0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t))
          unfold owns; iexists _; isplitr
          swap; · iexact HS1
          ipureintro; exact (View.read_writes_eq_canon _ _ _ (scover1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t))).trans (canon1_A_S1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t))
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact (View.read_writes_eq_canon _ _ _ (cover1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t))).trans (canon1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t))
    · rw [PhiS_castSucc V c t, PhiS_pos V c _ _ hz]
      iintro ⟨⟨HΦ, Hg⟩, Ho, ⟨%d0, H0⟩, ⟨%d1, H1⟩, ⟨%d2, H2⟩, ⟨%d3, H3⟩, ⟨%d4, H4⟩⟩
      ihave HΦ' := (scoped1_split (F := F) c _) $$ HΦ
      icases HΦ' with ⟨Hr, HS0, HS1⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t)).2.2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      isplitl [HS1]; · iexists _; iexact HS1
      iintro ⟨H0, H1, H2, H3, ⟨%e4, H4⟩, ⟨%es0, HS0⟩, ⟨%es1, HS1⟩⟩
      isplitl [Hr HS0 HS1 Hg]
      · isplitl [Hr HS0 HS1]
        · iapply (scoped1_join (F := F) c _)
          isplitl [Hr]; · iexact Hr
          isplitl [HS0]
          · unfold owns; iexists _; isplitr
            swap; · iexact HS0
            ipureintro; exact (View.read_writes_eq_canon _ _ _ (scover1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t))).trans (canon1_A_S0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t))
          unfold owns; iexists _; isplitr
          swap; · iexact HS1
          ipureintro; exact (View.read_writes_eq_canon _ _ _ (scover1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t))).trans (canon1_A_S1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t))
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact (View.read_writes_eq_canon _ _ _ (cover1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t))).trans (canon1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t))
  · have hz : t.val ≠ 0 := fun e => h0 (by rw [e])
    rw [PhiS_castSucc V c t, PhiS_pos V c _ _ hz, iblk1_0_prev V c t h0, iblk1_3_prev V c t h0]
    iintro ⟨⟨HΦ, Hg⟩, Ho, ⟨%d0, H0⟩, ⟨%d1, H1⟩, ⟨%d2, H2⟩, ⟨%d3, H3⟩, ⟨%d4, H4⟩⟩
    ihave HΦ' := (scoped1_split (F := F) c _) $$ HΦ
    icases HΦ' with ⟨Hr, HS0, HS1⟩
    iapply ((kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (iblk1 V c 0 t) (iblk1 V c 1 t) (iblk1 V c 2 t) (iblk1 V c 3 t) (k1_pay2 (iblk1 V c 0 t)) (k1_pay3 (iblk1 V c 0 t) (iblk1 V c 3 t))).2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%e4, H4⟩, HS0, HS1⟩
    isplitl [Hr HS0 HS1 Hg]
    · isplitl [Hr HS0 HS1]
      · iapply (scoped1_join (F := F) c _)
        isplitl [Hr]; · iexact Hr
        isplitl [HS0]; · iexact HS0
        iexact HS1
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact (View.read_writes_eq_canon _ _ _ (cover1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (iblk1 V c 0 t) (iblk1 V c 1 t) (iblk1 V c 2 t) (iblk1 V c 3 t) (k1_pay2 (iblk1 V c 0 t)) (k1_pay3 (iblk1 V c 0 t) (iblk1 V c 3 t)))).trans (canon1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (iblk1 V c 0 t) (iblk1 V c 1 t) (iblk1 V c 2 t) (iblk1 V c 3 t) (k1_pay2 (iblk1 V c 0 t)) (k1_pay3 (iblk1 V c 0 t) (iblk1 V c 3 t)))

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the pass is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives back what the launch handed over: the kept buffers' named
    contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨HΦ, Hg⟩
  isplitl [HΦ]
  · ihave HΦ' := (scoped1_split (F := F) c _) $$ HΦ
    icases HΦ' with ⟨Hr, HS0, HS1⟩
    iapply (scoped1_join (F := F) c _)
    isplitl [Hr]; · iexact Hr
    isplitl [HS0]; · iexists _; iexact HS0
    iexists _; iexact HS1
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Hand

end
-- ==== Proof.TwoPass.lean ====
/-
  The two passes in sequence: the whole program's run.

  The program is the statistics pass followed by the pooling pass, with nothing between them. Core c's unscoped
  buffers start at the launch contents; the statistics pass leaves its two result arrays (the maxima and the
  reciprocal sums) at what its write-backs produce and everything else as it was; the pooling pass then leaves the
  final array at what ITS write-backs produce, computed from the arguments and the two statistics arrays as the
  first pass left them. The theorem `run_all` says every execution ends with every unscoped buffer at that last
  valuation; the argument arrays walk back through both passes unchanged.
-/
import proofs.«106505_j49632642072960_2_alg».proof.Proof.StatsFrame
import proofs.«106505_j49632642072960_2_alg».proof.Proof.PoolFrame
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the three boundaries -/

/-- At launch. -/
abbrev W0 : Dev nD → Valuation τ sig (Elt F) := fun c b => m (c, b)
abbrev V0 : (c : Dev nD) → (b : Ref sig .tc) → Buf (Elt F) ((c : Thread nD τ).loc b) := fun c b => W0 m c b
/-- After the statistics pass: its arrays at what the pipeline leaves, every other buffer as it was. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- After the pooling pass. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ## The arguments end as launched: each is an input window of both passes -/

theorem W1_main_arg0 (c : Dev nD) : W1 m c (Proc.devRef .tc main_arg0) = m ((c : Thread nD τ).loc main_arg0) :=
  (W1_arr m c 0).trans (((dat0 (V0 m) c).arrAt_in 0 rfl _).trans (A_eq0 (V0 m) c 0))
theorem W1_main_arg1 (c : Dev nD) : W1 m c (Proc.devRef .tc main_arg1) = m ((c : Thread nD τ).loc main_arg1) :=
  (W1_arr m c 1).trans (((dat0 (V0 m) c).arrAt_in 1 rfl _).trans (A_eq0 (V0 m) c 1))
theorem W2_main_arg0 (c : Dev nD) : W2 m c (Proc.devRef .tc main_arg0) = m ((c : Thread nD τ).loc main_arg0) :=
  ((W2_arr m c 0).trans (((dat1 (V1 m) c).arrAt_in 0 rfl _).trans (A_eq1 (V1 m) c 0))).trans (W1_main_arg0 m c)
theorem W2_main_arg1 (c : Dev nD) : W2 m c (Proc.devRef .tc main_arg1) = m ((c : Thread nD τ).loc main_arg1) :=
  ((W2_arr m c 1).trans (((dat1 (V1 m) c).arrAt_in 1 rfl _).trans (A_eq1 (V1 m) c 1))).trans (W1_main_arg1 m c)
/-- The final array is what the pooling pass's write-backs leave. -/
theorem W2_main_v1 (c : Dev nD) : W2 m c (Proc.devRef .tc main_v1) = (dat1 (V1 m) c).arrAt 4 cfg1.N := W2_arr m c 4
/-- The statistics arrays the pooling pass reads are what the statistics pass's write-backs left. -/
theorem V1_main_v0_0 (c : Dev nD) : V1 m c main_v0_0 = (dat0 (V0 m) c).arrAt 2 cfg0.N := W1_arr m c 2
theorem V1_main_v0_1 (c : Dev nD) : V1 m c main_v0_1 = (dat0 (V0 m) c).arrAt 3 cfg0.N := W1_arr m c 3
theorem V1_main_arg0 (c : Dev nD) : V1 m c main_arg0 = m ((c : Thread nD τ).loc main_arg0) := W1_main_arg0 m c
theorem V1_main_arg1 (c : Dev nD) : V1 m c main_arg1 = m ((c : Thread nD τ).loc main_arg1) := W1_main_arg1 m c

/-! ## The proof data family and the thread state -/

abbrev admH : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) admH p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers: the random-number register at some state, and no transfer units owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The passes as segments -/

set_option backward.isDefEq.respectTransparency.types false in
def reg0 : Pipeline.RegionSeg (pcfgs (F := F)) admH (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R (F := F) c)
  post c := iprop(StableHlo.held (c : Thread nD τ) (Pipeline.ucRefs τ sig) (W1 m c) ∗ R (F := F) c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V0 m) c
    unfold Pipeline.ΦA at h
    rw [show (pdats m 0 c).Φ 0 = (dat0 (V0 m) c).Φ 0 from rfl]
    iintro ⟨Hp, -, Hr⟩
    iapply h
    isplitl [Hr]; · iexact Hr
    iexact Hp
  hout c := by
    have h := hout0 (V0 m) c
    unfold Pipeline.ΦA at h
    rw [Pipeline.ownSems0_none, show (pdats m 0 c).Φ (Fin.last _) = (dat0 (V0 m) c).Φ (Fin.last cfg0.N) from rfl]
    iintro Hphi
    ihave H := h $$ Hphi
    icases H with ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) admH (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R (F := F) c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V1 m) c
    unfold Pipeline.ΦA at h
    rw [show (pdats m 1 c).Φ 0 = (dat1 (V1 m) c).Φ 0 from rfl]
    iintro ⟨Hp, -, Hr⟩
    iapply h
    isplitl [Hr]; · iexact Hr
    iexact Hp
  hout c := by
    have h := hout1 (V1 m) c
    unfold Pipeline.ΦA at h
    rw [Pipeline.ownSems0_none, show (pdats m 1 c).Φ (Fin.last _) = (dat1 (V1 m) c).Φ (Fin.last cfg1.N) from rfl]
    iintro Hphi
    ihave H := h $$ Hphi
    icases H with ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) admH (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- THE RUN: from any memory with zero counters every weakly fair execution terminates, nothing faulting, and every
    final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) admH (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R (F := F) c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W2_main_arg0 m c),
     (h c _ (mem_uc main_arg1 (by decide))).trans (W2_main_arg1 m c)⟩) (run_all m ρ)

end Cert.KernelIdeal.Hand

end
-- ==== Proof.Spec.lean ====
/-
  The pooled label attention both programs compute, stated once over the extended reals.

  For a batch entry b, a label l and a sequence position s the score is the inner product of the label's
  vector with the state at s; the weights are a softmax of the scores ACROSS THE LABELS (for each position s
  separately), and the result pools the states over the positions with those weights:
      out[b,l,d] = sum_s ( exp(sc[b,l,s] - M[b,s]) / Z[b,s] ) * x[b,s,d],
      M[b,s] = max_l sc[b,l,s],   Z[b,s] = sum_l exp(sc[b,l,s] - M[b,s]).
  `pooledK` is the same quantity with the division by Z moved onto the state, the arrangement in which a
  two-pass evaluation (first M and 1/Z, then the pooling) produces it.
-/
import Idealize.ShloMosaic.PureOps.Ideal
import Idealize.ShloMosaic.Lib.ValueIdx

noncomputable section

namespace Cert.LabelPool

open Idealize.ShloMosaic Idealize.ShloMosaic.ValueIdx

/-- The states x[b,s,d], the label vectors w[l,d], the result out[b,l,d]. -/
abbrev SX : Shape := ⟨3, ![16, 512, 512]⟩
abbrev SW : Shape := ⟨2, ![8000, 512]⟩
abbrev SO : Shape := ⟨3, ![16, 8000, 512]⟩

/-- The score of label `l` at position `s` of batch entry `b`: the inner product over the feature axis. -/
def sc (x : SX.Idx → EReal) (w : SW.Idx → EReal) (b : Fin 16) (l : Fin 8000) (s : Fin 512) : EReal :=
  ∑ d : Fin 512, w (ix2 l d) * x (ix3 b s d)

/-- The largest score over the labels at a position (the fold of `max` from the bottom element). -/
def mx (x : SX.Idx → EReal) (w : SW.Idx → EReal) (b : Fin 16) (s : Fin 512) : EReal :=
  (Finset.univ : Finset (Fin 8000)).fold max ⊥ (fun l => sc x w b l s)

/-- The shifted exponential of a score. -/
def ex (x : SX.Idx → EReal) (w : SW.Idx → EReal) (b : Fin 16) (l : Fin 8000) (s : Fin 512) : EReal :=
  Ideal.exp (sc x w b l s - mx x w b s)

/-- The softmax denominator at a position: the sum of the shifted exponentials over the labels. -/
def zz (x : SX.Idx → EReal) (w : SW.Idx → EReal) (b : Fin 16) (s : Fin 512) : EReal :=
  ∑ l : Fin 8000, ex x w b l s

/-- The pooled state of label `l`: the states weighted by the label-axis softmax, summed over the positions. -/
def pooled (x : SX.Idx → EReal) (w : SW.Idx → EReal) (b : Fin 16) (l : Fin 8000) (d : Fin 512) : EReal :=
  ∑ s : Fin 512, Ideal.div (ex x w b l s) (zz x w b s) * x (ix3 b s d)

/-- The same with the reciprocal of the denominator folded into the state before the pooling sum. -/
def pooledK (x : SX.Idx → EReal) (w : SW.Idx → EReal) (b : Fin 16) (l : Fin 8000) (d : Fin 512) : EReal :=
  ∑ s : Fin 512, ex x w b l s * (x (ix3 b s d) * Ideal.div 1 (zz x w b s))

/-- The result array, index by index. -/
def G (x : SX.Idx → EReal) (w : SW.Idx → EReal) : SO.Idx → EReal :=
  fun i => pooled x w (i 0) (i 1) (i 2)

end Cert.LabelPool

end
-- ==== Proof.SpecPass.lean ====
/-
  The two passes' results as functions of the arrays each pass reads.

  The statistics pass produces, per batch entry and position, the largest score over the labels and the reciprocal of
  the sum of the shifted exponentials; the pooling pass, from ANY pair of such arrays `ms`, `iz`, produces
  sum_s exp(sc[b,l,s] - ms[b,s]) * (x[b,s,d] * iz[b,s]). With the first pass's results put in, that is `pooledK`.
-/
import proofs.«106505_j49632642072960_2_alg».proof.Proof.Spec

noncomputable section

namespace Cert.LabelPool

open Idealize.ShloMosaic Idealize.ShloMosaic.ValueIdx

/-- The per-position maxima m[b,0,s] and reciprocal sums invz[b,s,0], as the passes lay them out. -/
abbrev SM : Shape := ⟨3, ![16, 1, 512]⟩
abbrev SZ : Shape := ⟨3, ![16, 512, 1]⟩

/-- What the statistics pass leaves. -/
def statMax (x : SX.Idx → EReal) (w : SW.Idx → EReal) : SM.Idx → EReal := fun i => mx x w (i 0) (i 2)
def statInv (x : SX.Idx → EReal) (w : SW.Idx → EReal) : SZ.Idx → EReal := fun i => Ideal.div 1 (zz x w (i 0) (i 1))

/-- What the pooling pass computes from the states, the label vectors and two statistics arrays. -/
def poolFrom (x : SX.Idx → EReal) (w : SW.Idx → EReal) (ms : SM.Idx → EReal) (iz : SZ.Idx → EReal)
    (b : Fin 16) (l : Fin 8000) (d : Fin 512) : EReal :=
  ∑ s : Fin 512, Ideal.exp ((∑ k : Fin 512, w (ix2 l k) * x (ix3 b s k)) - ms (ix3 b 0 s)) * (x (ix3 b s d) * iz (ix3 b s 0))

/-- With the statistics pass's own results the pooling pass computes `pooledK`. -/
theorem poolFrom_stats (x : SX.Idx → EReal) (w : SW.Idx → EReal) (b : Fin 16) (l : Fin 8000) (d : Fin 512) :
    poolFrom x w (statMax x w) (statInv x w) b l d = pooledK x w b l d := rfl

end Cert.LabelPool

end
-- ==== Proof.LibMoment.lean ====
import Idealize.ShloMosaic.PureOps.Ideal
import Mathlib.Data.EReal.Basic
import Mathlib.Data.EReal.Operations
import Mathlib.Data.EReal.Inv
import Mathlib.Algebra.BigOperators.Group.Finset.Basic
import Mathlib.Tactic

/-!
# Finite extended reals and the second-moment law

`IsReal x` says that an extended real is a real number. The finite values are closed under
the ring operations, `max`, finite sums, division by a nonzero real and the reciprocal square
root of a positive value. On finite values every operation is the operation of `ℝ`, so an
identity between extended reals reduces to the identity between the real witnesses.

The moment law: for `n` finite values `y r` with mean `μ = (∑ y) / n` and a finite scale `s`,
the mean of the squared deviations from `s · μ` is

  `(∑ (y r - s μ)²) / n = (∑ y r²) / n - μ² (2 s - s²)`,

because `∑ (y r - t)² = ∑ y r² - 2 t ∑ y r + n t²` and `∑ y r = n μ`.
-/

noncomputable section

namespace Cert.LibMoment

open Idealize.ShloMosaic
open scoped BigOperators

/-- An extended real that is a real number. -/
def IsReal (x : EReal) : Prop := ∃ a : ℝ, x = (a : EReal)

theorem isReal_coe (a : ℝ) : IsReal (a : EReal) := ⟨a, rfl⟩

theorem isReal_zero : IsReal (0 : EReal) := ⟨0, EReal.coe_zero.symm⟩

theorem isReal_one : IsReal (1 : EReal) := ⟨1, rfl⟩

theorem IsReal.ne_top {x : EReal} (hx : IsReal x) : x ≠ ⊤ := by
  obtain ⟨a, rfl⟩ := hx
  exact EReal.coe_ne_top a

theorem IsReal.ne_bot {x : EReal} (hx : IsReal x) : x ≠ ⊥ := by
  obtain ⟨a, rfl⟩ := hx
  exact EReal.coe_ne_bot a

/-- A value that is neither infinity is a real number. -/
theorem isReal_of_ne {x : EReal} (h1 : x ≠ ⊤) (h2 : x ≠ ⊥) : IsReal x :=
  ⟨x.toReal, (EReal.coe_toReal h1 h2).symm⟩

theorem isReal_iff {x : EReal} : IsReal x ↔ x ≠ ⊤ ∧ x ≠ ⊥ :=
  ⟨fun h => ⟨h.ne_top, h.ne_bot⟩, fun h => isReal_of_ne h.1 h.2⟩

/-- A value whose absolute value `max x (-x)` is below `⊤` is a real number. -/
theorem isReal_of_abs_lt_top {x : EReal} (h : max x (-x) < ⊤) : IsReal x := by
  have h1 : x < ⊤ := lt_of_le_of_lt (le_max_left _ _) h
  have h2 : -x < ⊤ := lt_of_le_of_lt (le_max_right _ _) h
  refine isReal_of_ne h1.ne ?_
  intro hx
  rw [hx, EReal.neg_bot] at h2
  exact lt_irrefl _ h2

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.max {x y : EReal} (hx : IsReal x) (hy : IsReal y) : IsReal (max x y) := by
  rcases le_total x y with h | h
  · rw [max_eq_right h]; exact hy
  · rw [max_eq_left h]; exact hx

theorem IsReal.min {x y : EReal} (hx : IsReal x) (hy : IsReal y) : IsReal (min x y) := by
  rcases le_total x y with h | h
  · rw [min_eq_left h]; exact hx
  · rw [min_eq_right h]; exact hy

/-- The coercion of reals commutes with a finite sum. -/
theorem coe_finset_sum {α : Type*} (s : Finset α) (f : α → ℝ) :
    (∑ i ∈ s, ((f i : ℝ) : EReal)) = ((∑ i ∈ s, f i : ℝ) : EReal) := by
  classical
  refine Finset.induction_on s ?_ ?_
  · simp
  · intro a s ha ih
    rw [Finset.sum_insert ha, Finset.sum_insert ha, ih, EReal.coe_add]

/-- A finite sum of real numbers is a real number. -/
theorem IsReal.sum {α : Type*} (s : Finset α) (f : α → EReal) (h : ∀ i ∈ s, IsReal (f i)) :
    IsReal (∑ i ∈ s, f i) := by
  classical
  revert h
  refine Finset.induction_on s ?_ ?_
  · intro _
    rw [Finset.sum_empty]
    exact isReal_zero
  · intro a s ha ih h
    rw [Finset.sum_insert ha]
    exact (h a (Finset.mem_insert_self a s)).add
      (ih (fun i hi => h i (Finset.mem_insert_of_mem hi)))

theorem IsReal.sum' {α : Type*} (s : Finset α) (f : α → EReal) (h : ∀ i, IsReal (f i)) :
    IsReal (∑ i ∈ s, f i) :=
  IsReal.sum s f (fun i _ => h i)

theorem IsReal.sum_univ {α : Type*} [Fintype α] (f : α → EReal) (h : ∀ i, IsReal (f i)) :
    IsReal (∑ i, f i) :=
  IsReal.sum Finset.univ f (fun i _ => h i)

/-- Division of a real number by a nonzero real is a real number. -/
theorem IsReal.div_coe {x : EReal} (hx : IsReal x) {n : ℝ} (hn : n ≠ 0) :
    IsReal (Ideal.div x (n : EReal)) := by
  rw [Ideal.div_coe hn]
  exact hx.mul (isReal_coe _)

/-- The reciprocal square root of a positive real number is a real number. -/
theorem IsReal.rsqrt {x : EReal} (hx : IsReal x) (hpos : 0 < x) : IsReal (Ideal.rsqrt x) := by
  obtain ⟨a, rfl⟩ := hx
  have ha : 0 < a := EReal.coe_pos.mp hpos
  rw [Ideal.rsqrt_coe, if_neg (not_lt.mpr ha.le), if_neg ha.ne']
  exact isReal_coe _

/-- Sum of squared deviations from a constant `t`, over the reals:
    `∑ (a r - t)² = ∑ a r² - 2 t ∑ a r + n t²`. -/
theorem sum_sq_dev {ι : Type} [Fintype ι] (a : ι → ℝ) (t : ℝ) :
    ∑ r, (a r - t) * (a r - t)
      = (∑ r, a r * a r) - 2 * t * (∑ r, a r) + (Fintype.card ι : ℝ) * (t * t) := by
  have h : ∀ r, (a r - t) * (a r - t) = a r * a r - 2 * t * a r + t * t := fun r => by ring
  simp only [h, Finset.sum_add_distrib, Finset.sum_sub_distrib, ← Finset.mul_sum,
    Finset.sum_const, Finset.card_univ, nsmul_eq_mul]
  ring

/-- The moment law over the reals. -/
theorem var_eq_real {ι : Type} [Fintype ι] (n : ℝ) (hn : n = (Fintype.card ι : ℝ)) (hn0 : n ≠ 0)
    (a : ι → ℝ) (m : ℝ) :
    (∑ r, (a r - m * ((∑ r, a r) * (1 / n))) * (a r - m * ((∑ r, a r) * (1 / n)))) * (1 / n)
      = (∑ r, a r * a r) * (1 / n)
        - ((∑ r, a r) * (1 / n)) * ((∑ r, a r) * (1 / n)) * (2 * m - m * m) := by
  rw [sum_sq_dev, ← hn]
  field_simp
  ring

/-- THE MOMENT LAW: the mean of the squared deviations from `ms · mean` is the mean of the
    squares minus `mean² · (2 ms - ms²)`. -/
theorem var_eq {ι : Type} [Fintype ι] (n : ℝ) (hn : n = (Fintype.card ι : ℝ))
    (hpos : 0 < Fintype.card ι)
    (y : ι → EReal) (hy : ∀ r, IsReal (y r)) (ms : EReal) (hms : IsReal ms) :
    Ideal.div (∑ r, (y r - ms * Ideal.div (∑ r, y r) (n : EReal))
        * (y r - ms * Ideal.div (∑ r, y r) (n : EReal))) (n : EReal)
      = Ideal.div (∑ r, y r * y r) (n : EReal)
        - (Ideal.div (∑ r, y r) (n : EReal) * Ideal.div (∑ r, y r) (n : EReal))
          * (((2 : ℝ) : EReal) * ms - ms * ms) := by
  choose a ha using hy
  obtain ⟨m, rfl⟩ := hms
  have hy' : y = fun r => ((a r : ℝ) : EReal) := funext ha
  subst hy'
  have hn0 : n ≠ 0 := by
    rw [hn]
    exact_mod_cast hpos.ne'
  simp only [Ideal.div_coe hn0, coe_finset_sum, ← EReal.coe_mul, ← EReal.coe_sub]
  rw [EReal.coe_eq_coe_iff]
  exact var_eq_real n hn hn0 a m

end Cert.LibMoment
-- ==== Proof.LibFiniteMax.lean ====
/-
  Finite entries, clips and maxima on the extended reals. Library imports only.

  * The words of `+inf` and `-inf` denote `⊤` and `⊥`.
  * An extended real that the comparison `|x| < +inf` accepts — `max x (-x)` compared with the word of `+inf`, the
    element test of a "every input is finite" precondition — is a real number.
  * A value clipped into a real interval, `min hi (max lo r)`, is a real number whatever `r` is.
  * The maximum, taken from `⊥`, of a nonempty finite family of real numbers is a real number (a row's or an
    array's largest absolute value, as a quantizer's scale takes it).
  * The absolute value `max x (-x)` of a real number is a real number.
  "Is a real number" is stated as `∃ a : ℝ, x = ↑a`.
-/
import Idealize.ShloMosaic.PureOps.Ideal
import Mathlib.Data.EReal.Basic
import Mathlib.Data.EReal.Operations
import Mathlib.Data.Finset.Fold
import Mathlib.Tactic

noncomputable section

namespace Cert.LibFiniteMax

open Idealize.ShloMosaic

/-- The word of `+inf` denotes `⊤`. -/
theorem ofBits_pos_inf : Ideal.ofBits .f32 0x7F800000#32 = ⊤ := by
  simp [Ideal.ofBits, Ideal.ieee]

/-- The word of `-inf` denotes `⊥`. -/
theorem ofBits_neg_inf : Ideal.ofBits .f32 0xFF800000#32 = ⊥ := by
  simp [Ideal.ofBits, Ideal.ieee]

/-- A value that is neither infinity is a real number. -/
theorem real_of_ne {x : EReal} (h1 : x ≠ ⊤) (h2 : x ≠ ⊥) : ∃ a : ℝ, x = (a : EReal) :=
  ⟨x.toReal, (EReal.coe_toReal h1 h2).symm⟩

/-- A value whose absolute value `max x (-x)` is below `⊤` is a real number. -/
theorem real_of_abs_lt_top {x : EReal} (h : max x (-x) < ⊤) : ∃ a : ℝ, x = (a : EReal) := by
  have h1 : x < ⊤ := lt_of_le_of_lt (le_max_left _ _) h
  have h2 : -x < ⊤ := lt_of_le_of_lt (le_max_right _ _) h
  refine real_of_ne (ne_of_lt h1) ?_
  rintro rfl
  simp at h2

/-- An entry that the comparison `|x| < +inf` accepts is a real number. -/
theorem real_of_lt_inf {x : EReal}
    (h : Ideal.cmp .olt (max x (-x)) (Ideal.ofBits .f32 0x7F800000#32) = 1#1) : ∃ a : ℝ, x = (a : EReal) := by
  rw [ofBits_pos_inf] at h
  apply real_of_abs_lt_top
  by_contra hc
  have : Ideal.cmp .olt (max x (-x)) ⊤ = 0#1 := by
    unfold Ideal.cmp
    simp only [decide_eq_false hc]
    rfl
  rw [this] at h
  exact absurd h (by decide)

/-- A value clipped into the real interval [lo, hi] is a real number. -/
theorem clip_real (lo hi : ℝ) (hle : lo ≤ hi) (r : EReal) :
    ∃ a : ℝ, min (hi : EReal) (max (lo : EReal) r) = (a : EReal) := by
  apply real_of_ne
  · exact ne_of_lt (lt_of_le_of_lt (min_le_left _ _) (EReal.coe_lt_top _))
  · exact ne_of_gt (lt_of_lt_of_le (EReal.bot_lt_coe _)
      (le_min (EReal.coe_le_coe_iff.2 hle) (le_max_left _ _)))

/-- The maximum, from `⊥`, of a nonempty finite family of real numbers is a real number. -/
theorem fold_max_real {ι : Type*} (S : Finset ι) (f : ι → EReal) (hne : S.Nonempty)
    (hf : ∀ i ∈ S, ∃ a : ℝ, f i = (a : EReal)) : ∃ a : ℝ, S.fold max ⊥ f = (a : EReal) := by
  apply real_of_ne
  · apply ne_of_lt
    rw [Finset.fold_max_lt]
    refine ⟨bot_lt_top, fun i hi => ?_⟩
    obtain ⟨a, ha⟩ := hf i hi
    rw [ha]; exact EReal.coe_lt_top a
  · apply ne_of_gt
    rw [Finset.lt_fold_max]
    obtain ⟨i, hi⟩ := hne
    obtain ⟨a, ha⟩ := hf i hi
    exact Or.inr ⟨i, hi, by rw [ha]; exact EReal.bot_lt_coe a⟩

/-- The absolute value of a real number is a real number. -/
theorem abs_real {x : EReal} (hx : ∃ a : ℝ, x = (a : EReal)) : ∃ a : ℝ, max x (-x) = (a : EReal) := by
  obtain ⟨a, rfl⟩ := hx
  rcases le_total (a : EReal) (-(a : EReal)) with h | h
  · rw [max_eq_right h]; exact ⟨-a, (EReal.coe_neg a).symm⟩
  · rw [max_eq_left h]; exact ⟨a, rfl⟩

end Cert.LibFiniteMax

end
-- ==== Proof.SoftmaxLaws.lean ====
/-
  The mathematics of the two-pass, label-axis softmax pooling, over the extended reals.

  Part 1. With every input entry a real number, each score is a real number, the largest score over the
  labels is a real number (the maximum of a nonempty finite family of reals), every shifted exponential is a
  positive real, the softmax denominator is a positive real, and dividing the weight by the denominator is
  the same as multiplying the state by the reciprocal of the denominator:  e * (x * (1/z)) = (e / z) * x.

  Part 2. The ONLINE evaluation of the maximum and of the denominator over four consecutive tiles of 2000
  labels.  The running maximum after a tile is the larger of the previous running maximum and the tile's
  maximum; the running sum is rescaled by exp (old maximum - new maximum) and the tile's shifted exponentials
  are added.  After the four tiles the running maximum is the maximum over all 8000 labels and, for real
  scores, the running sum is the sum of exp (f l - maximum) over all 8000 labels, because
      exp (M - M') * exp (a - M) = exp (a - M')      on the reals,
  and the first rescaling multiplies the empty sum 0.
-/
import proofs.«106505_j49632642072960_2_alg».proof.Proof.Spec
import proofs.«106505_j49632642072960_2_alg».proof.Proof.LibMoment
import proofs.«106505_j49632642072960_2_alg».proof.Proof.LibFiniteMax
import Mathlib

noncomputable section

namespace Cert.LabelPool

open Idealize.ShloMosaic Idealize.ShloMosaic.ValueIdx Cert.LibMoment
open scoped BigOperators

/-! ### Part 1: real inputs -/

/-- Every entry of the array is a real number. -/
def AllReal {S : Idealize.ShloMosaic.Shape} (f : S.Idx → EReal) : Prop :=
  ∀ i, ∃ r : ℝ, f i = (r : EReal)

/-- A score is a finite sum of products of reals. -/
theorem sc_real {x : SX.Idx → EReal} {w : SW.Idx → EReal} (hx : AllReal x) (hw : AllReal w)
    (b : Fin 16) (l : Fin 8000) (s : Fin 512) : ∃ r : ℝ, sc x w b l s = (r : EReal) :=
  IsReal.sum_univ _ (fun _ => IsReal.mul (hw _) (hx _))

/-- The largest of the 8000 real scores at a position is a real number. -/
theorem mx_real {x : SX.Idx → EReal} {w : SW.Idx → EReal} (hx : AllReal x) (hw : AllReal w)
    (b : Fin 16) (s : Fin 512) : ∃ r : ℝ, mx x w b s = (r : EReal) :=
  Cert.LibFiniteMax.fold_max_real _ _ ⟨⟨0, by norm_num⟩, Finset.mem_univ _⟩
    (fun l _ => sc_real hx hw b l s)

/-- A shifted exponential is a positive real. -/
theorem ex_real_pos {x : SX.Idx → EReal} {w : SW.Idx → EReal} (hx : AllReal x) (hw : AllReal w)
    (b : Fin 16) (l : Fin 8000) (s : Fin 512) : ∃ r : ℝ, 0 < r ∧ ex x w b l s = (r : EReal) := by
  obtain ⟨a, ha⟩ := sc_real hx hw b l s
  obtain ⟨m, hm⟩ := mx_real hx hw b s
  refine ⟨Real.exp (a - m), Real.exp_pos _, ?_⟩
  rw [ex, ha, hm, ← EReal.coe_sub, Ideal.exp_coe]

/-- The softmax denominator is a sum of 8000 positive reals. -/
theorem zz_real_pos {x : SX.Idx → EReal} {w : SW.Idx → EReal} (hx : AllReal x) (hw : AllReal w)
    (b : Fin 16) (s : Fin 512) : ∃ r : ℝ, 0 < r ∧ zz x w b s = (r : EReal) := by
  choose e hpos he using fun l => ex_real_pos hx hw b l s
  refine ⟨∑ l, e l, Finset.sum_pos (fun l _ => hpos l) ⟨⟨0, by norm_num⟩, Finset.mem_univ _⟩, ?_⟩
  rw [zz, ← coe_finset_sum]
  exact Finset.sum_congr rfl (fun l _ => he l)

/-- Moving the division by the denominator onto the state does not change the pooled value:
    termwise  e * (x * (1 * (1/z))) = (e * (1/z)) * x  for a nonzero real z. -/
theorem pooledK_eq_pooled {x : SX.Idx → EReal} {w : SW.Idx → EReal} (hx : AllReal x) (hw : AllReal w)
    (b : Fin 16) (l : Fin 8000) (d : Fin 512) : pooledK x w b l d = pooled x w b l d := by
  unfold pooledK pooled
  refine Finset.sum_congr rfl (fun s _ => ?_)
  obtain ⟨z, hz, hzz⟩ := zz_real_pos hx hw b s
  rw [hzz, Ideal.div_coe hz.ne', Ideal.div_coe hz.ne', one_mul]
  ac_rfl

/-! ### Part 2: the online recurrence over four tiles of 2000 labels -/

/-- Label r of tile k. -/
def tileIx (k : Fin 4) (r : Fin 2000) : Fin 8000 :=
  ⟨2000 * k.val + r.val, by have := k.isLt; have := r.isLt; omega⟩

/-- The largest value of f on tile k. -/
def tileMax (f : Fin 8000 → EReal) (k : Fin 4) : EReal :=
  (Finset.univ : Finset (Fin 2000)).fold max ⊥ (fun r => f (tileIx k r))

/-- The running maximum after tile k. -/
def stepM (f : Fin 8000 → EReal) (k : Fin 4) (m : EReal) : EReal := max m (tileMax f k)

/-- The running sum after tile k: the earlier sum rescaled to the new maximum, plus the tile's terms. -/
def stepL (f : Fin 8000 → EReal) (k : Fin 4) (m l : EReal) : EReal :=
  Ideal.exp (m - stepM f k m) * l + ∑ r : Fin 2000, Ideal.exp (f (tileIx k r) - stepM f k m)

/-- The running maximum after the first n tiles (from the bottom element). -/
def runM (f : Fin 8000 → EReal) : ℕ → EReal
  | 0 => ⊥
  | n + 1 => if h : n < 4 then stepM f ⟨n, h⟩ (runM f n) else runM f n

/-- The running sum after the first n tiles (from zero). -/
def runL (f : Fin 8000 → EReal) : ℕ → EReal
  | 0 => 0
  | n + 1 => if h : n < 4 then stepL f ⟨n, h⟩ (runM f n) (runL f n) else runL f n

theorem runM_succ (f : Fin 8000 → EReal) {n : ℕ} (h : n < 4) :
    runM f (n + 1) = stepM f ⟨n, h⟩ (runM f n) := by
  rw [runM, dif_pos h]

theorem runL_succ (f : Fin 8000 → EReal) {n : ℕ} (h : n < 4) :
    runL f (n + 1) = stepL f ⟨n, h⟩ (runM f n) (runL f n) := by
  rw [runL, dif_pos h]

/-- The four tiles of 2000 labels are the 8000 labels. -/
def tileEquiv : Fin 4 × Fin 2000 ≃ Fin 8000 where
  toFun p := tileIx p.1 p.2
  invFun l := (⟨l.val / 2000, by have := l.isLt; omega⟩, ⟨l.val % 2000, by omega⟩)
  left_inv := by
    rintro ⟨k, r⟩
    have := k.isLt
    have := r.isLt
    apply Prod.ext <;> apply Fin.ext <;> simp only [tileIx] <;> omega
  right_inv := by
    intro l
    apply Fin.ext
    simp only [tileIx]
    omega

theorem le_tileMax (f : Fin 8000 → EReal) (k : Fin 4) (r : Fin 2000) : f (tileIx k r) ≤ tileMax f k :=
  (Finset.le_fold_max _).2 (Or.inr ⟨r, Finset.mem_univ _, le_rfl⟩)

theorem tileMax_le_fold (f : Fin 8000 → EReal) (k : Fin 4) :
    tileMax f k ≤ (Finset.univ : Finset (Fin 8000)).fold max ⊥ f :=
  (Finset.fold_max_le _).2 ⟨bot_le, fun r _ =>
    (Finset.le_fold_max _).2 (Or.inr ⟨tileIx k r, Finset.mem_univ _, le_rfl⟩)⟩

/-- After the four tiles the running maximum is the maximum over all labels (no finiteness needed). -/
theorem runM_four (f : Fin 8000 → EReal) :
    runM f 4 = (Finset.univ : Finset (Fin 8000)).fold max ⊥ f := by
  have e : runM f 4
      = max (max (max (max ⊥ (tileMax f 0)) (tileMax f 1)) (tileMax f 2)) (tileMax f 3) := rfl
  rw [e]
  apply le_antisymm
  · exact max_le (max_le (max_le (max_le bot_le (tileMax_le_fold f 0)) (tileMax_le_fold f 1))
      (tileMax_le_fold f 2)) (tileMax_le_fold f 3)
  · refine (Finset.fold_max_le _).2 ⟨bot_le, fun l _ => ?_⟩
    obtain ⟨⟨k, r⟩, rfl⟩ := tileEquiv.surjective l
    refine le_trans (le_tileMax f k r) ?_
    fin_cases k <;> simp [le_max_iff]

/-- The largest of the 2000 real values of a tile is a real number. -/
theorem tileMax_real (f : Fin 8000 → EReal) (hf : ∀ l, ∃ r : ℝ, f l = (r : EReal)) (k : Fin 4) :
    IsReal (tileMax f k) :=
  Cert.LibFiniteMax.fold_max_real _ _ ⟨⟨0, by norm_num⟩, Finset.mem_univ _⟩ (fun r _ => hf _)

/-- After at least one tile the running maximum of real values is a real number. -/
theorem runM_real (f : Fin 8000 → EReal) (hf : ∀ l, ∃ r : ℝ, f l = (r : EReal)) :
    ∀ n : ℕ, 1 ≤ n → IsReal (runM f n)
  | 0, h => absurd h (by norm_num)
  | n + 1, _ => by
    by_cases h : n < 4
    · rw [runM_succ f h, stepM]
      rcases Nat.eq_zero_or_pos n with rfl | hn
      · rw [runM, max_eq_right bot_le]
        exact tileMax_real f hf _
      · exact (runM_real f hf n hn).max (tileMax_real f hf _)
    · have e : runM f (n + 1) = runM f n := by rw [runM, dif_neg h]
      rw [e]
      exact runM_real f hf n (by omega)

/-- On the reals, rescaling a shifted exponential from the shift m to the shift m'. -/
theorem exp_sub_mul_exp_sub (a m m' : ℝ) :
    Ideal.exp ((m : EReal) - m') * Ideal.exp ((a : EReal) - m) = Ideal.exp ((a : EReal) - m') := by
  rw [← EReal.coe_sub, ← EReal.coe_sub, ← EReal.coe_sub, Ideal.exp_coe, Ideal.exp_coe, Ideal.exp_coe,
    ← EReal.coe_mul, ← Real.exp_add]
  congr 2
  ring

theorem isReal_exp_sub (a m : ℝ) : IsReal (Ideal.exp ((a : EReal) - m)) :=
  ⟨Real.exp (a - m), by rw [← EReal.coe_sub, Ideal.exp_coe]⟩

/-- A real factor distributes over a finite sum of reals. -/
theorem real_mul_sum {ι : Type*} (S : Finset ι) {c : EReal} (hc : IsReal c) (g : ι → EReal)
    (hg : ∀ i ∈ S, ∃ a : ℝ, g i = (a : EReal)) : c * ∑ i ∈ S, g i = ∑ i ∈ S, c * g i := by
  obtain ⟨c, rfl⟩ := hc
  choose! a ha using hg
  rw [Finset.sum_congr rfl ha, coe_finset_sum, ← EReal.coe_mul, Finset.mul_sum, ← coe_finset_sum]
  refine Finset.sum_congr rfl (fun i hi => ?_)
  rw [EReal.coe_mul, ha i hi]

/-- The sum of the exponentials of tile k shifted by m (zero past the last tile). -/
def tileSum (f : Fin 8000 → EReal) (k : ℕ) (m : EReal) : EReal :=
  if h : k < 4 then ∑ r : Fin 2000, Ideal.exp (f (tileIx ⟨k, h⟩ r) - m) else 0

theorem tileSum_real (a : Fin 8000 → ℝ) (k : ℕ) (m : ℝ) :
    IsReal (tileSum (fun l => (a l : EReal)) k m) := by
  unfold tileSum
  split_ifs with h
  · exact IsReal.sum_univ _ (fun r => isReal_exp_sub _ _)
  · exact isReal_zero

/-- Rescaling a tile's sum from the shift m to the shift m'. -/
theorem tileSum_rescale (a : Fin 8000 → ℝ) (k : ℕ) (m m' : ℝ) :
    Ideal.exp ((m : EReal) - m') * tileSum (fun l => (a l : EReal)) k m
      = tileSum (fun l => (a l : EReal)) k m' := by
  unfold tileSum
  split_ifs with h
  · rw [real_mul_sum _ (isReal_exp_sub m m') _ (fun r _ => isReal_exp_sub _ _)]
    exact Finset.sum_congr rfl (fun r _ => exp_sub_mul_exp_sub _ _ _)
  · rw [mul_zero]

/-- The invariant: after n tiles the running sum is the sum, over those tiles, of the exponentials
    shifted by the CURRENT running maximum. -/
theorem runL_inv (f : Fin 8000 → EReal) (hf : ∀ l, ∃ r : ℝ, f l = (r : EReal)) :
    ∀ n : ℕ, n ≤ 4 → runL f n = ∑ k ∈ Finset.range n, tileSum f k (runM f n)
  | 0, _ => by rw [Finset.range_zero, Finset.sum_empty, runL]
  | n + 1, hn => by
    have h : n < 4 := hn
    have ih := runL_inv f hf n (by omega)
    rw [runL_succ f h, stepL, ← runM_succ f h, Finset.sum_range_succ]
    congr 1
    · rcases Nat.eq_zero_or_pos n with rfl | hpos
      · rw [runL, mul_zero, Finset.range_zero, Finset.sum_empty]
      · obtain ⟨m, hm⟩ := runM_real f hf n hpos
        obtain ⟨m', hm'⟩ := runM_real f hf (n + 1) (by omega)
        choose a ha using hf
        obtain rfl : f = fun l => (a l : EReal) := funext ha
        rw [ih, hm, hm', real_mul_sum _ (isReal_exp_sub m m') _ (fun k _ => tileSum_real a k m)]
        exact Finset.sum_congr rfl (fun k _ => tileSum_rescale a k m m')
    · rw [tileSum, dif_pos h]

/-- After the four tiles the running sum of real scores is the softmax denominator over all labels. -/
theorem runL_four (f : Fin 8000 → EReal) (hf : ∀ l, ∃ r : ℝ, f l = (r : EReal)) :
    runL f 4 = ∑ l : Fin 8000, Ideal.exp (f l - (Finset.univ : Finset (Fin 8000)).fold max ⊥ f) := by
  rw [runL_inv f hf 4 le_rfl, runM_four]
  generalize (Finset.univ : Finset (Fin 8000)).fold max ⊥ f = M
  rw [← Fin.sum_univ_eq_sum_range (fun k => tileSum f k M) 4, ← Equiv.sum_comp tileEquiv,
    Fintype.sum_prod_type]
  refine Finset.sum_congr rfl (fun k _ => ?_)
  rw [tileSum, dif_pos k.isLt]
  rfl

/-- The largest score over the labels is the running maximum after the four tiles. -/
theorem mx_eq_runM (x : SX.Idx → EReal) (w : SW.Idx → EReal) (b : Fin 16) (s : Fin 512) :
    mx x w b s = runM (fun l => sc x w b l s) 4 :=
  (runM_four _).symm

/-- For real inputs the softmax denominator is the running sum after the four tiles. -/
theorem zz_eq_runL {x : SX.Idx → EReal} {w : SW.Idx → EReal} (hx : AllReal x) (hw : AllReal w)
    (b : Fin 16) (s : Fin 512) : zz x w b s = runL (fun l => sc x w b l s) 4 := by
  rw [runL_four _ (fun l => sc_real hx hw b l s)]
  rfl

end Cert.LabelPool

end
-- ==== Proof.StatsPieces.lean ====
/-
  The statistics pass, part 6: what each case leaves, as the body's arithmetic.

  Every store of the body goes through the whole buffer, so what a case leaves in a buffer is the value of its LAST
  store there, and a value loaded after a store is the stored value. Written out: at a first tile the states' copy is
  the cast of the states' block, the running maximum is the tile's maximum taken over the reset value, the running sum
  the tile's sum taken over the reset values; at a later tile they are the same expressions over the contents the
  point before left; and at the last tile the outputs are the final maximum and the reciprocal of the final sum.
  `chunk0` is the tile of 2000 label vectors the body cuts out of the table at the point.
-/
import proofs.«106505_j49632642072960_2_alg».proof.Proof.StatsFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → ℕ) = fun _ => 0 := by funext a; fin_cases a <;> rfl
theorem hz3 : (![0, 0, 0] : Fin 3 → ℕ) = fun _ => 0 := by funext a; fin_cases a <;> rfl

/-- The tile of 2000 label vectors the body loads at grid coordinates `i`, out of the whole table `x1`. -/
def chunk0 (i : grid0.Coords) (x1 : Vec F S8000x512 .f32) : Vec F S2000x512 .f32 :=
  View.ld x1 (Rect.unit (s := S8000x512) (k0_off1 i) S2000x512.size (k0_off1_inb i))

/-- Reading a whole scratch buffer whose raw contents were chosen to read `X` gives `X`. -/
theorem rd0 (h : (scM0_0 : Memref sig .tc .vmem S512x512 .bf16).IsWhole) (X : Vec F S512x512 .bf16) :
    View.read (Elt F) (View.whole cc0_scratch0) (h.unread X) = X := h.read_unread X
theorem rd1 (h : (scM0_1 : Memref sig .tc .vmem S1x512 .f32).IsWhole) (X : Vec F S1x512 .f32) :
    View.read (Elt F) (View.whole cc0_scratch1) (h.unread X) = X := h.read_unread X
theorem rd2 (h : (scM0_2 : Memref sig .tc .vmem S1x512 .f32).IsWhole) (X : Vec F S1x512 .f32) :
    View.read (Elt F) (View.whole cc0_scratch2) (h.unread X) = X := h.read_unread X

theorem first_x (c : Dev nD) (t : Fin cfg0.N) (h0 : t.val % 4 = 0) : (afterFirst V c t h0).1 = k0_pay1 (iblk0 V c 0 t) := by
  unfold afterFirst; dsimp only
  rw [View.read_writes_eq_canon _ _ _ (coverA_0 V c t h0)]
  unfold runA kernelRun0_A; dsimp only
  sl_unfold_run_names
  simp only [View.canon_cons_unit_zero (S := S1x512) hz2, View.canon_unit_zero (S := S1x512) hz2, View.canon_cons_unit_zero (S := S512x512) hz2, View.canon_unit_zero (S := S512x512) hz2, View.canon_unit_zero (S := S1x1x512) hz3, View.canon_unit_zero (S := S1x512x1) hz3, View.readCov_unit_zero (S := S1x512) _ hz2, View.readCov_unit_zero (S := S512x512) _ hz2, View.readAt_eq_ld, Memref.IsWhole.read_unread, View.ld_unit_zero (S := S1x512) hz2, View.ld_unit_zero (S := S512x512) hz2, View.ld_unit_zero (S := S1x512x512) hz3, rd0, rd1, rd2]
  try rfl

theorem first_m (c : Dev nD) (t : Fin cfg0.N) (h0 : t.val % 4 = 0) : (afterFirst V c t h0).2.1 = k0_pay6 (chunk0 (grid0.coords t) (iblk0 V c 1 t)) (k0_pay1 (iblk0 V c 0 t)) (k0_pay2 (F := F)) := by
  unfold afterFirst; dsimp only
  rw [View.read_writes_eq_canon _ _ _ (coverA_1 V c t h0)]
  unfold runA kernelRun0_A; dsimp only
  sl_unfold_run_names
  simp only [View.canon_cons_unit_zero (S := S1x512) hz2, View.canon_unit_zero (S := S1x512) hz2, View.canon_cons_unit_zero (S := S512x512) hz2, View.canon_unit_zero (S := S512x512) hz2, View.canon_unit_zero (S := S1x1x512) hz3, View.canon_unit_zero (S := S1x512x1) hz3, View.readCov_unit_zero (S := S1x512) _ hz2, View.readCov_unit_zero (S := S512x512) _ hz2, View.readAt_eq_ld, Memref.IsWhole.read_unread, View.ld_unit_zero (S := S1x512) hz2, View.ld_unit_zero (S := S512x512) hz2, View.ld_unit_zero (S := S1x512x512) hz3, rd0, rd1, rd2]
  try rfl

theorem first_l (c : Dev nD) (t : Fin cfg0.N) (h0 : t.val % 4 = 0) : (afterFirst V c t h0).2.2 = k0_pay7 (chunk0 (grid0.coords t) (iblk0 V c 1 t)) (k0_pay1 (iblk0 V c 0 t)) (k0_pay2 (F := F)) (k0_pay3 (F := F)) := by
  unfold afterFirst; dsimp only
  rw [View.read_writes_eq_canon _ _ _ (coverA_2 V c t h0)]
  unfold runA kernelRun0_A; dsimp only
  sl_unfold_run_names
  simp only [View.canon_cons_unit_zero (S := S1x512) hz2, View.canon_unit_zero (S := S1x512) hz2, View.canon_cons_unit_zero (S := S512x512) hz2, View.canon_unit_zero (S := S512x512) hz2, View.canon_unit_zero (S := S1x1x512) hz3, View.canon_unit_zero (S := S1x512x1) hz3, View.readCov_unit_zero (S := S1x512) _ hz2, View.readCov_unit_zero (S := S512x512) _ hz2, View.readAt_eq_ld, Memref.IsWhole.read_unread, View.ld_unit_zero (S := S1x512) hz2, View.ld_unit_zero (S := S512x512) hz2, View.ld_unit_zero (S := S1x512x512) hz3, rd0, rd1, rd2]
  try rfl

theorem middle_m (c : Dev nD) (t : Fin cfg0.N) (h0 : ¬t.val % 4 = 0) (h1 : ¬t.val % 4 = 3) (p : Vec F S512x512 .bf16 × Vec F S1x512 .f32 × Vec F S1x512 .f32) : (afterMiddle V c t h0 h1 p).2.1 = k0_pay6 (chunk0 (grid0.coords t) (iblk0 V c 1 t)) p.1 p.2.1 := by
  unfold afterMiddle; dsimp only
  rw [View.read_writes_eq_canon _ _ _ (coverB_1 V c t h0 h1 p)]
  unfold runB kernelRun0_B; dsimp only
  sl_unfold_run_names
  simp only [View.canon_cons_unit_zero (S := S1x512) hz2, View.canon_unit_zero (S := S1x512) hz2, View.canon_cons_unit_zero (S := S512x512) hz2, View.canon_unit_zero (S := S512x512) hz2, View.canon_unit_zero (S := S1x1x512) hz3, View.canon_unit_zero (S := S1x512x1) hz3, View.readCov_unit_zero (S := S1x512) _ hz2, View.readCov_unit_zero (S := S512x512) _ hz2, View.readAt_eq_ld, Memref.IsWhole.read_unread, View.ld_unit_zero (S := S1x512) hz2, View.ld_unit_zero (S := S512x512) hz2, View.ld_unit_zero (S := S1x512x512) hz3, rd0, rd1, rd2]
  try rfl

theorem middle_l (c : Dev nD) (t : Fin cfg0.N) (h0 : ¬t.val % 4 = 0) (h1 : ¬t.val % 4 = 3) (p : Vec F S512x512 .bf16 × Vec F S1x512 .f32 × Vec F S1x512 .f32) : (afterMiddle V c t h0 h1 p).2.2 = k0_pay7 (chunk0 (grid0.coords t) (iblk0 V c 1 t)) p.1 p.2.1 p.2.2 := by
  unfold afterMiddle; dsimp only
  rw [View.read_writes_eq_canon _ _ _ (coverB_2 V c t h0 h1 p)]
  unfold runB kernelRun0_B; dsimp only
  sl_unfold_run_names
  simp only [View.canon_cons_unit_zero (S := S1x512) hz2, View.canon_unit_zero (S := S1x512) hz2, View.canon_cons_unit_zero (S := S512x512) hz2, View.canon_unit_zero (S := S512x512) hz2, View.canon_unit_zero (S := S1x1x512) hz3, View.canon_unit_zero (S := S1x512x1) hz3, View.readCov_unit_zero (S := S1x512) _ hz2, View.readCov_unit_zero (S := S512x512) _ hz2, View.readAt_eq_ld, Memref.IsWhole.read_unread, View.ld_unit_zero (S := S1x512) hz2, View.ld_unit_zero (S := S512x512) hz2, View.ld_unit_zero (S := S1x512x512) hz3, rd0, rd1, rd2]
  try rfl

theorem last_m (c : Dev nD) (t : Fin cfg0.N) (h1 : t.val % 4 = 3) (p : Vec F S512x512 .bf16 × Vec F S1x512 .f32 × Vec F S1x512 .f32) : (afterLast V c t h1 p).2.1 = k0_pay6 (chunk0 (grid0.coords t) (iblk0 V c 1 t)) p.1 p.2.1 := by
  unfold afterLast; dsimp only
  rw [View.read_writes_eq_canon _ _ _ (coverC_1 V c t h1 p)]
  unfold runC kernelRun0_C; dsimp only
  sl_unfold_run_names
  simp only [View.canon_cons_unit_zero (S := S1x512) hz2, View.canon_unit_zero (S := S1x512) hz2, View.canon_cons_unit_zero (S := S512x512) hz2, View.canon_unit_zero (S := S512x512) hz2, View.canon_unit_zero (S := S1x1x512) hz3, View.canon_unit_zero (S := S1x512x1) hz3, View.readCov_unit_zero (S := S1x512) _ hz2, View.readCov_unit_zero (S := S512x512) _ hz2, View.readAt_eq_ld, Memref.IsWhole.read_unread, View.ld_unit_zero (S := S1x512) hz2, View.ld_unit_zero (S := S512x512) hz2, View.ld_unit_zero (S := S1x512x512) hz3, rd0, rd1, rd2]
  try rfl

theorem last_l (c : Dev nD) (t : Fin cfg0.N) (h1 : t.val % 4 = 3) (p : Vec F S512x512 .bf16 × Vec F S1x512 .f32 × Vec F S1x512 .f32) : (afterLast V c t h1 p).2.2 = k0_pay7 (chunk0 (grid0.coords t) (iblk0 V c 1 t)) p.1 p.2.1 p.2.2 := by
  unfold afterLast; dsimp only
  rw [View.read_writes_eq_canon _ _ _ (coverC_2 V c t h1 p)]
  unfold runC kernelRun0_C; dsimp only
  sl_unfold_run_names
  simp only [View.canon_cons_unit_zero (S := S1x512) hz2, View.canon_unit_zero (S := S1x512) hz2, View.canon_cons_unit_zero (S := S512x512) hz2, View.canon_unit_zero (S := S512x512) hz2, View.canon_unit_zero (S := S1x1x512) hz3, View.canon_unit_zero (S := S1x512x1) hz3, View.readCov_unit_zero (S := S1x512) _ hz2, View.readCov_unit_zero (S := S512x512) _ hz2, View.readAt_eq_ld, Memref.IsWhole.read_unread, View.ld_unit_zero (S := S1x512) hz2, View.ld_unit_zero (S := S512x512) hz2, View.ld_unit_zero (S := S1x512x512) hz3, rd0, rd1, rd2]
  try rfl

theorem last_o2 (c : Dev nD) (t : Fin cfg0.N) (h1 : t.val % 4 = 3) (p : Vec F S512x512 .bf16 × Vec F S1x512 .f32 × Vec F S1x512 .f32) : (outLast V c t h1 p).1 = k0_pay8 (k0_pay6 (chunk0 (grid0.coords t) (iblk0 V c 1 t)) p.1 p.2.1) := by
  unfold outLast; dsimp only
  rw [View.read_writes_eq_canon _ _ _ (coverC_o2 V c t h1 p)]
  unfold runC kernelRun0_C; dsimp only
  sl_unfold_run_names
  simp only [View.canon_cons_unit_zero (S := S1x512) hz2, View.canon_unit_zero (S := S1x512) hz2, View.canon_cons_unit_zero (S := S512x512) hz2, View.canon_unit_zero (S := S512x512) hz2, View.canon_unit_zero (S := S1x1x512) hz3, View.canon_unit_zero (S := S1x512x1) hz3, View.readCov_unit_zero (S := S1x512) _ hz2, View.readCov_unit_zero (S := S512x512) _ hz2, View.readAt_eq_ld, Memref.IsWhole.read_unread, View.ld_unit_zero (S := S1x512) hz2, View.ld_unit_zero (S := S512x512) hz2, View.ld_unit_zero (S := S1x512x512) hz3, rd0, rd1, rd2]
  try rfl

theorem last_o3 (c : Dev nD) (t : Fin cfg0.N) (h1 : t.val % 4 = 3) (p : Vec F S512x512 .bf16 × Vec F S1x512 .f32 × Vec F S1x512 .f32) : (outLast V c t h1 p).2 = k0_pay9 (k0_pay7 (chunk0 (grid0.coords t) (iblk0 V c 1 t)) p.1 p.2.1 p.2.2) := by
  unfold outLast; dsimp only
  rw [View.read_writes_eq_canon _ _ _ (coverC_o3 V c t h1 p)]
  unfold runC kernelRun0_C; dsimp only
  sl_unfold_run_names
  simp only [View.canon_cons_unit_zero (S := S1x512) hz2, View.canon_unit_zero (S := S1x512) hz2, View.canon_cons_unit_zero (S := S512x512) hz2, View.canon_unit_zero (S := S512x512) hz2, View.canon_unit_zero (S := S1x1x512) hz3, View.canon_unit_zero (S := S1x512x1) hz3, View.readCov_unit_zero (S := S1x512) _ hz2, View.readCov_unit_zero (S := S512x512) _ hz2, View.readAt_eq_ld, Memref.IsWhole.read_unread, View.ld_unit_zero (S := S1x512) hz2, View.ld_unit_zero (S := S512x512) hz2, View.ld_unit_zero (S := S1x512x512) hz3, rd0, rd1, rd2]
  try rfl

end Cert.KernelIdeal.Hand

end
-- ==== Proof.LibContract.lean ====
/-
  A contraction over ONE axis read as a sum over that axis's coordinate.

  For any dimension-number record whose contraction shape has rank one and extent `k`, the sum over the contraction
  index of the operands' products is the sum over `i : Fin k` of the products at the operand indices the caller names,
  provided the record's operand indices at a contraction index whose one coordinate is `i` are those. The matrix unit's
  product into a zero accumulator and the host's dot_general follow. Library imports only.
-/
import Idealize.ShloMosaic.PureOps.Ideal.Laws
import Idealize.ShloMosaic.Lib.ValueIdx

noncomputable section

namespace Cert.LibContract

open Idealize.ShloMosaic Idealize.ShloMosaic.ValueIdx
open scoped BigOperators

variable {sl sr so : Shape} (D : DotDims sl sr so) (k : ℕ) (hr : D.contr.rank = 1) (hs : D.contr.size ⟨0, by omega⟩ = k)

include hr hs

/-- The sum over the contraction index, re-indexed by the one coordinate. -/
theorem sum_contr1 (lhs : sl.Idx → EReal) (rhs : sr.Idx → EReal) (j : so.Idx) (li : Fin k → sl.Idx) (ri : Fin k → sr.Idx)
    (hl : ∀ (q : D.contr.Idx) (i : Fin k), (q ⟨0, by omega⟩).val = i.val → D.lhsIdx j q = li i)
    (hrr : ∀ (q : D.contr.Idx) (i : Fin k), (q ⟨0, by omega⟩).val = i.val → D.rhsIdx j q = ri i) :
    (∑ c : D.contr.Idx, lhs (D.lhsIdx j c) * rhs (D.rhsIdx j c)) = ∑ i : Fin k, lhs (li i) * rhs (ri i) := by
  rw [← Equiv.sum_comp (contrEquiv1 D k hr hs).symm]
  refine Finset.sum_congr rfl fun i _ => ?_
  have hk := contrEquiv1_symm_val D k hr hs i
  rw [hl _ i hk, hrr _ i hk]

/-- The matrix unit's product into a zero accumulator at an output index. -/
theorem matmul_zero_apply {φ₁ φ₂ : FTy} (prec : Option ContractPrecision) (lhs : FVec Ideal sl φ₁) (rhs : FVec Ideal sr φ₂)
    (j : so.Idx) (li : Fin k → sl.Idx) (ri : Fin k → sr.Idx)
    (hl : ∀ (q : D.contr.Idx) (i : Fin k), (q ⟨0, by omega⟩).val = i.val → D.lhsIdx j q = li i)
    (hrr : ∀ (q : D.contr.Idx) (i : Fin k), (q ⟨0, by omega⟩).val = i.val → D.rhsIdx j q = ri i) :
    FloatOps.matmul D prec lhs rhs (constant so .f32 0x00000000#32) j = ∑ i : Fin k, lhs (li i) * rhs (ri i) :=
  (Ideal.matmul_constant_zero_apply D prec lhs rhs j).trans (sum_contr1 D k hr hs lhs rhs j li ri hl hrr)

/-- The host's dot_general at an output index. -/
theorem dotGeneral_apply {φ₁ φ₂ : FTy} (prec : Option ContractPrecision) (sched : HostSchedule) (lhs : FVec Ideal sl φ₁)
    (rhs : FVec Ideal sr φ₂) (j : so.Idx) (li : Fin k → sl.Idx) (ri : Fin k → sr.Idx)
    (hl : ∀ (q : D.contr.Idx) (i : Fin k), (q ⟨0, by omega⟩).val = i.val → D.lhsIdx j q = li i)
    (hrr : ∀ (q : D.contr.Idx) (i : Fin k), (q ⟨0, by omega⟩).val = i.val → D.rhsIdx j q = ri i) :
    FloatOps.dotGeneral D prec sched lhs rhs j = ∑ i : Fin k, lhs (li i) * rhs (ri i) :=
  (Ideal.dotGeneral_apply D prec sched lhs rhs j).trans (sum_contr1 D k hr hs lhs rhs j li ri hl hrr)

end Cert.LibContract

end
-- ==== Proof.LibColReduce.lean ====
/-
  A reduction over the FIRST axis of a matrix, read at a coordinate.

  A matrix `[a, b]` summed over its row axis gives, at column `c`, the sum over `r : Fin a` of the entry `(r, c)`:
  the library states the sum over the reduced index with the coordinate re-inserted; here the re-inserted index is
  written by its coordinates. (The companion of the last-axis forms.) Library imports only.
-/
import Idealize.ShloMosaic.PureOps.Ideal.Laws
import Idealize.ShloMosaic.Lib.ValueIdx

noncomputable section

namespace Cert.LibColReduce

open Idealize.ShloMosaic Idealize.ShloMosaic.ValueIdx

variable {φ : FTy}

/-- Column `c` with row `r` put back is the entry `(r, c)`. -/
theorem lift_col {a b : ℕ} (h : (⟨2, ![a, b]⟩ : Shape).Reduces [0] ⟨1, ![b]⟩) (c : Fin b) (r : Fin a) :
    h.lift (ix1 c) r = ix2 r c := by
  funext d; apply Fin.ext
  fin_cases d <;> rfl

/-- A sum of a matrix down its rows, at column `c`: the sum of the column's entries. -/
theorem multiReduction_add_col {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) :=
  (Ideal.multiReduction_add_single src acc h hφ hacc (ix1 c)).trans
    (Finset.sum_congr rfl fun r _ => congrArg src (lift_col h c r))

end Cert.LibColReduce

end
-- ==== Proof.StatsPayload.lean ====
/-
  The first kernel's stored values, read at an index over the extended reals.

  The first pass keeps, per position s, a running maximum and a running sum of shifted exponentials of the
  scores of one tile of 2000 labels. Its stored values are: the states rounded for the matrix unit (the
  rounding is the identity here), the two initial rows (bottom and zero), the tile's scores w . x^T (a
  contraction over the feature axis of both operands), the new maximum max(m, max_r score), the rescaled
  sum exp(m - m') * l + sum_r exp(score - m'), and at the last tile the row of maxima and the column of
  reciprocals 1 / l. Each is read at explicit coordinates.
-/
import proofs.«106505_j49632642072960_2_alg».proof.Proof.Gen.KernelIdeal.Skeleton
import proofs.«106505_j49632642072960_2_alg».proof.Proof.LibContract
import proofs.«106505_j49632642072960_2_alg».proof.Proof.LibColReduce
import proofs.«106505_j49632642072960_2_alg».proof.Proof.LibFiniteMax
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.KernelIdeal.Pay

open Cert.KernelIdeal Cert.KernelIdeal.Gen Idealize.ShloMosaic Idealize.ShloMosaic.ValueIdx

/-- The states' block with its leading unit axis dropped. -/
theorem pay1_at (v33 : Vec Ideal S1x512x512 .f32) (s d : Fin 512) :
    k0_pay1 v33 (ix2 s d) = v33 (ix3 (0 : Fin 1) s d) := by
  unfold k0_pay1
  rw [shapeCast_self]
  exact shapeCast_1ab_ab_apply v33 shapeCasts_S1x512x512_S512x512 s d

/-- The initial row of maxima is the bottom element everywhere. -/
theorem pay2_at (i : S1x512.Idx) : k0_pay2 (F := Ideal) i = (⊥ : EReal) := by
  unfold k0_pay2
  rw [shapeCast_self]
  exact Cert.LibFiniteMax.ofBits_neg_inf

/-- The initial row of sums is zero everywhere. -/
theorem pay3_at (i : S1x512.Idx) : k0_pay3 (F := Ideal) i = (0 : EReal) := by
  unfold k0_pay3
  rw [shapeCast_self]
  exact Ideal.ofBits_zero_f32

/-- The left operand's row coordinate is the output's row coordinate. -/
theorem lhs_scores_0 (j : S2000x512.Idx) (q : dot_S2000x512_S512x512_S2000x512_1_1_0_0_n_n.contr.Idx) :
    (dot_S2000x512_S512x512_S2000x512_1_1_0_0_n_n.lhsIdx j q 0).val = (j 0).val := by
  unfold DotDims.lhsIdx
  rw [dif_neg (show ¬(0 : Fin S2000x512.rank) ∈ dot_S2000x512_S512x512_S2000x512_1_1_0_0_n_n.lhsBatch by decide),
    dif_pos (show (0 : Fin S2000x512.rank) ∈ dot_S2000x512_S512x512_S2000x512_1_1_0_0_n_n.lhsNonContracting by decide)]
  rfl

/-- The right operand's row coordinate is the output's column coordinate. -/
theorem rhs_scores_0 (j : S2000x512.Idx) (q : dot_S2000x512_S512x512_S2000x512_1_1_0_0_n_n.contr.Idx) :
    (dot_S2000x512_S512x512_S2000x512_1_1_0_0_n_n.rhsIdx j q 0).val = (j 1).val := by
  unfold DotDims.rhsIdx
  rw [dif_neg (show ¬(0 : Fin S512x512.rank) ∈ dot_S2000x512_S512x512_S2000x512_1_1_0_0_n_n.rhsBatch by decide),
    dif_pos (show (0 : Fin S512x512.rank) ∈ dot_S2000x512_S512x512_S2000x512_1_1_0_0_n_n.rhsNonContracting by decide)]
  rfl

/-- The left operand's index of the scores' contraction: row of the output, the contracted coordinate. -/
theorem lhs_scores (j : S2000x512.Idx) (q : dot_S2000x512_S512x512_S2000x512_1_1_0_0_n_n.contr.Idx) (i : Fin 512)
    (h : (q ⟨0, by decide⟩).val = i.val) :
    dot_S2000x512_S512x512_S2000x512_1_1_0_0_n_n.lhsIdx j q = ix2 (j 0) i :=
  funext fun a => Fin.ext (by
    match a with
    | ⟨0, _⟩ => exact lhs_scores_0 j q
    | ⟨1, _⟩ => exact (dot_S2000x512_S512x512_S2000x512_1_1_0_0_n_n.lhsIdx_val_of_single rfl j q).trans h)

/-- The right operand's index of the scores' contraction: column of the output, the contracted coordinate. -/
theorem rhs_scores (j : S2000x512.Idx) (q : dot_S2000x512_S512x512_S2000x512_1_1_0_0_n_n.contr.Idx) (i : Fin 512)
    (h : (q ⟨0, by decide⟩).val = i.val) :
    dot_S2000x512_S512x512_S2000x512_1_1_0_0_n_n.rhsIdx j q = ix2 (j 1) i :=
  funext fun a => Fin.ext (by
    match a with
    | ⟨0, _⟩ => exact rhs_scores_0 j q
    | ⟨1, _⟩ => exact (dot_S2000x512_S512x512_S2000x512_1_1_0_0_n_n.rhsIdx_val_of_single rfl j q).trans h)

/-- The matrix unit's product of a tile with the transposed states, at (r, s). -/
theorem scores_at (L : FVec Ideal S2000x512 .bf16) (v8 : FVec Ideal S512x512 .bf16) (r : Fin 2000) (s : Fin 512) :
    (matmul dot_S2000x512_S512x512_S2000x512_1_1_0_0_n_n none L v8 (constant S2000x512 .f32 0x00000000#32) : FVec Ideal S2000x512 .f32) (ix2 r s)
      = ∑ k : Fin 512, L (ix2 r k) * v8 (ix2 s k) :=
  Cert.LibContract.matmul_zero_apply dot_S2000x512_S512x512_S2000x512_1_1_0_0_n_n 512 rfl rfl none L v8 (ix2 r s) (fun k => ix2 r k) (fun k => ix2 s k)
    (fun q i h => lhs_scores (ix2 r s) q i h) (fun q i h => rhs_scores (ix2 r s) q i h)

/-- The tile's scores: label row r against position s, contracted over the feature axis. -/
theorem pay4_at (v6 : Vec Ideal S2000x512 .f32) (v8 : Vec Ideal S512x512 .bf16) (r : Fin 2000) (s : Fin 512) :
    k0_pay4 v6 v8 (ix2 r s) = ∑ k : Fin 512, v6 (ix2 r k) * v8 (ix2 s k) := by
  unfold k0_pay4
  exact scores_at (truncf .bf16 v6 bitsLt_bf16_f32) v8 r s

/-- A maximum down the rows of a tile, kept as a row. -/
theorem colmax_at (P : FVec Ideal S2000x512 .f32) (s : Fin 512) :
    (shapeCast S1x512 (multiReduction .maximumf [0] S512 P 0xFF800000#32 reduces_S2000x512_S512 (.inl rfl) rfl)
        shapeCasts_S512_S1x512 : FVec Ideal S1x512 .f32) (ix2 (0 : Fin 1) s)
      = (Finset.univ : Finset (Fin 2000)).fold max (⊥ : EReal) (fun r => P (ix2 r s)) := by
  refine (shapeCast_a_1a_apply _ shapeCasts_S512_S1x512 (0 : Fin 1) s).trans ?_
  refine (Ideal.multiReduction_maximumf_single P 0xFF800000#32 reduces_S2000x512_S512 (.inl rfl) rfl (ix1 s)).trans ?_
  have hb : (FloatOps.ofBits .f32 0xFF800000#32 : Ideal .f32) = (⊥ : EReal) := Cert.LibFiniteMax.ofBits_neg_inf
  have hf : (P ∘ reduces_S2000x512_S512.lift (ix1 s)) = fun r : Fin 2000 => P (ix2 r s) :=
    funext fun r => congrArg P (Cert.LibColReduce.lift_col reduces_S2000x512_S512 s r)
  rw [hb, hf]
  rfl

/-- The new running maximum: the old one against the tile's largest score at the position. -/
theorem pay5_at (v6 : Vec Ideal S2000x512 .f32) (v8 : Vec Ideal S512x512 .bf16) (v10 : Vec Ideal S1x512 .f32) (s : Fin 512) :
    k0_pay5 v6 v8 v10 (ix2 (0 : Fin 1) s)
      = max (v10 (ix2 (0 : Fin 1) s))
          ((Finset.univ : Finset (Fin 2000)).fold max (⊥ : EReal) (fun r => k0_pay4 v6 v8 (ix2 r s))) := by
  unfold k0_pay5
  generalize k0_pay4 v6 v8 = P
  refine (maximumf_apply _ _ (ix2 (0 : Fin 1) s)).trans ?_
  exact congrArg (max (v10 (ix2 (0 : Fin 1) s))) (colmax_at P s)

/-- The stored maximum is the new running maximum. -/
theorem pay6_at (v6 : Vec Ideal S2000x512 .f32) (v8 : Vec Ideal S512x512 .bf16) (v10 : Vec Ideal S1x512 .f32) :
    k0_pay6 v6 v8 v10 = k0_pay5 v6 v8 v10 := by
  unfold k0_pay6
  exact shapeCast_self _ _

/-- A sum down the rows of the shifted exponentials of a tile, kept as a row. -/
theorem colsum_at (P : FVec Ideal S2000x512 .f32) (M : FVec Ideal S1x512 .f32) (s : Fin 512) :
    (shapeCast S1x512 (multiReduction .add [0] S512 (exp (subf P (broadcastTo S2000x512 M broadcasts_S1x512_S2000x512)))
        0x00000000#32 reduces_S2000x512_S512 (.inl rfl) rfl) shapeCasts_S512_S1x512 : FVec Ideal S1x512 .f32) (ix2 (0 : Fin 1) s)
      = ∑ r : Fin 2000, Ideal.exp (P (ix2 r s) - M (ix2 (0 : Fin 1) s)) := by
  refine (shapeCast_a_1a_apply _ shapeCasts_S512_S1x512 (0 : Fin 1) s).trans ?_
  refine (Cert.LibColReduce.multiReduction_add_col _ 0x00000000#32 reduces_S2000x512_S512 (.inl rfl) rfl s).trans ?_
  refine Finset.sum_congr rfl fun r _ => ?_
  refine (congrArg (fun t => Ideal.exp (P (ix2 r s) - t)) (broadcastTo_1b_ab_apply M broadcasts_S1x512_S2000x512 r s))

/-- The new running sum: the old one rescaled to the new maximum, plus the tile's shifted exponentials. -/
theorem pay7_at (v6 : Vec Ideal S2000x512 .f32) (v8 : Vec Ideal S512x512 .bf16) (v10 : Vec Ideal S1x512 .f32)
    (v19 : Vec Ideal S1x512 .f32) (s : Fin 512) :
    k0_pay7 v6 v8 v10 v19 (ix2 (0 : Fin 1) s)
      = Ideal.exp (v10 (ix2 (0 : Fin 1) s) - k0_pay5 v6 v8 v10 (ix2 (0 : Fin 1) s)) * v19 (ix2 (0 : Fin 1) s)
        + ∑ r : Fin 2000, Ideal.exp (k0_pay4 v6 v8 (ix2 r s) - k0_pay5 v6 v8 v10 (ix2 (0 : Fin 1) s)) := by
  unfold k0_pay7
  generalize k0_pay5 v6 v8 v10 = M
  generalize k0_pay4 v6 v8 = P
  rw [shapeCast_self]
  refine (addf_apply _ _ (ix2 (0 : Fin 1) s)).trans ?_
  refine congrArg₂ (· + ·) ?_ (colsum_at P M s)
  rfl

/-- The row of maxima with a leading unit axis added. -/
theorem pay8_at (v33 : Vec Ideal S1x512 .f32) (s : Fin 512) :
    k0_pay8 v33 (ix3 (0 : Fin 1) (0 : Fin 1) s) = v33 (ix2 (0 : Fin 1) s) := by
  unfold k0_pay8
  exact shapeCast_ab_1ab_apply v33 shapeCasts_S1x512_S1x1x512 (0 : Fin 1) (0 : Fin 1) s

/-- The column of reciprocals of the sums: the word 0x3F800000 denotes one. -/
theorem pay9_at (v37 : Vec Ideal S1x512 .f32) (s : Fin 512) :
    k0_pay9 v37 (ix3 (0 : Fin 1) s (0 : Fin 1)) = Ideal.div 1 (v37 (ix2 (0 : Fin 1) s)) := by
  unfold k0_pay9
  refine (shapeCast_ab_1ab_apply _ shapeCasts_S512x1_S1x512x1 (0 : Fin 1) s (0 : Fin 1)).trans ?_
  refine (transpose_ix2_apply _ transposes_S1x512_p1_0_S512x1 s (0 : Fin 1)).trans ?_
  show Ideal.div (Ideal.ofBits .f32 0x3F800000#32) (v37 (ix2 (0 : Fin 1) s)) = _
  rw [Ideal.ofBits_one_f32]

end Cert.KernelIdeal.Pay

end
-- ==== Proof.StatsArray.lean ====
import proofs.«106505_j49632642072960_2_alg».proof.Proof.StatsFrame
import proofs.«106505_j49632642072960_2_alg».proof.Proof.SpecPass
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LabelPool (mx zz statMax statInv)

variable (V : (c : Dev nD) → (b : Ref sig .tc) → Buf (Elt Ideal) ((c : Thread nD τ).loc b))

/-! # The statistics pass's two result arrays, from what its last label tile leaves

Point t = 4 b + j of the grid handles label tile j of batch entry b. Only the last tile of a batch entry (j = 3)
writes back: the row of column maxima into row b of the maxima array, the column of reciprocal sums into slab b of
the normalisers. So each entry of either array is written by exactly the point 4 b + 3 of its batch entry, and the
arrays end holding whatever those points leave: given that a last tile leaves the maxima and the reciprocal sums of
its batch entry, the arrays are the maxima and the reciprocal sums. -/

/-- The batch entry point t works on. -/
def bOf (t : Fin cfg0.N) : Fin 16 := ⟨t.val / 4, by have := t.isLt; have h : cfg0.N = 64 := N_0; omega⟩

/-! ## The index maps of the two result windows, decided once over the grid -/

theorem idx_facts0 : ∀ t : Fin cfg0.N,
    win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = 0 :=
  (by decide +kernel : ∀ t : Fin grid0.N, _)

/-! ## The target arrays at an index given by its coordinates -/

theorem statMax_at (x : Cert.LabelPool.SX.Idx → EReal) (w : Cert.LabelPool.SW.Idx → EReal) (i : S16x1x512.Idx) (b : Fin 16) (s : Fin 512)
    (h0 : (i 0).val = b.val) (h2 : (i 2).val = s.val) : statMax x w i = mx x w b s := by
  unfold Cert.LabelPool.statMax
  exact congrArg₂ (mx x w) (Fin.ext h0) (Fin.ext h2)

theorem statInv_at (x : Cert.LabelPool.SX.Idx → EReal) (w : Cert.LabelPool.SW.Idx → EReal) (i : S16x512x1.Idx) (b : Fin 16) (s : Fin 512)
    (h0 : (i 0).val = b.val) (h1 : (i 1).val = s.val) : statInv x w i = Ideal.div 1 (zz x w b s) := by
  unfold Cert.LabelPool.statInv
  exact congrArg (Ideal.div 1) (congrArg₂ (zz x w) (Fin.ext h0) (Fin.ext h1))

/-! ## What a last tile writes back is its block of the target array -/

theorem flushed0_2_eq (c : Dev nD)
    (hmax : ∀ (t : Fin cfg0.N), t.val % 4 = 3 → ∀ s : Fin 512, (outsAt (F := Ideal) V c t).1 (ix3 0 0 s) = mx (V c main_arg0) (V c main_arg1) (bOf t) s)
    (t : Fin cfg0.N) (hf : (cfg0.win 2).flush t = true) :
    (dat0 V c).flushed 2 t = ((cfg0.win 2).blk t).view.read (Elt Ideal) (statMax (V c main_arg0) (V c main_arg1)) := by
  have h3 : t.val % 4 = 3 := (flush0_2 t).mp hf
  show (cfg0.win 2).cut (grid0.coords t) ((dat0 V c).after 2 t) = _
  rw [after0_2]
  obtain ⟨e0, e1, e2, -⟩ := idx_facts0 t
  refine funext fun (j : S1x1x512.Idx) => ?_
  obtain ⟨u, u', s, rfl⟩ : ∃ (u : Fin 1) (u' : Fin 1) (s : Fin 512), j = ix3 u u' s := ⟨j 0, j 1, j 2, eq_ix3 j⟩
  obtain rfl : u = 0 := Subsingleton.elim _ _
  obtain rfl : u' = 0 := Subsingleton.elim _ _
  show (outsAt V c t).1 (ix3 (0 : Fin 1) (0 : Fin 1) s) = statMax (V c main_arg0) (V c main_arg1) (((cfg0.win 2).blk t).view.emb (ix3 (0 : Fin 1) (0 : Fin 1) s))
  rw [hmax t h3 s]
  exact (statMax_at (V c main_arg0) (V c main_arg1) _ (bOf t) s
    (by show win0_2.index t (0 : Fin 3) * 1 + 1 * 0 = t.val / 4; rw [e0]; omega)
    (by show win0_2.index t (2 : Fin 3) * 512 + 1 * s.val = s.val; rw [e2]; omega)).symm

theorem flushed0_3_eq (c : Dev nD)
    (hinv : ∀ (t : Fin cfg0.N), t.val % 4 = 3 → ∀ s : Fin 512, (outsAt (F := Ideal) V c t).2 (ix3 0 s 0) = Ideal.div 1 (zz (V c main_arg0) (V c main_arg1) (bOf t) s))
    (t : Fin cfg0.N) (hf : (cfg0.win 3).flush t = true) :
    (dat0 V c).flushed 3 t = ((cfg0.win 3).blk t).view.read (Elt Ideal) (statInv (V c main_arg0) (V c main_arg1)) := by
  have h3 : t.val % 4 = 3 := (flush0_3 t).mp hf
  show (cfg0.win 3).cut (grid0.coords t) ((dat0 V c).after 3 t) = _
  rw [after0_3]
  obtain ⟨-, -, -, e0, e1, e2⟩ := idx_facts0 t
  refine funext fun (j : S1x512x1.Idx) => ?_
  obtain ⟨u, s, u', rfl⟩ : ∃ (u : Fin 1) (s : Fin 512) (u' : Fin 1), j = ix3 u s u' := ⟨j 0, j 1, j 2, eq_ix3 j⟩
  obtain rfl : u = 0 := Subsingleton.elim _ _
  obtain rfl : u' = 0 := Subsingleton.elim _ _
  show (outsAt V c t).2 (ix3 (0 : Fin 1) s (0 : Fin 1)) = statInv (V c main_arg0) (V c main_arg1) (((cfg0.win 3).blk t).view.emb (ix3 (0 : Fin 1) s (0 : Fin 1)))
  rw [hinv t h3 s]
  exact (statInv_at (V c main_arg0) (V c main_arg1) _ (bOf t) s
    (by show win0_3.index t (0 : Fin 3) * 1 + 1 * 0 = t.val / 4; rw [e0]; omega)
    (by show win0_3.index t (1 : Fin 3) * 512 + 1 * s.val = s.val; rw [e1]; omega)).symm

/-! ## Every entry is in the block of the last tile of its batch entry -/

theorem cover0_2 (i : S16x1x512.Idx) :
    ∃ t : Fin cfg0.N, (cfg0.win 2).flush t = true ∧ i ∈ ((cfg0.win 2).blk t).view.set := by
  have h0 : (i 0).val < 16 := (i 0).isLt
  have h1 : (i 1).val < 1 := (i 1).isLt
  have h2 : (i 2).val < 512 := (i 2).isLt
  obtain ⟨t, ht⟩ : ∃ t : Fin cfg0.N, t.val = 4 * (i 0).val + 3 :=
    ⟨⟨4 * (i 0).val + 3, lt_of_lt_of_eq (by omega : 4 * (i 0).val + 3 < 64) (show cfg0.N = 64 from N_0).symm⟩, rfl⟩
  obtain ⟨e0, e1, e2, -⟩ := idx_facts0 t
  refine ⟨t, (flush0_2 t).mpr (by rw [ht]; omega), ?_⟩
  show i ∈ ((View.whole main_v0_0).slice (win0_2.rect t)).set
  rw [View.set_slice_whole, Rect.mem_set_unit]
  intro a
  match a with
  | ⟨0, _⟩ =>
    show win0_2.index t (0 : Fin 3) * 1 ≤ (i 0).val ∧ (i 0).val < win0_2.index t (0 : Fin 3) * 1 + 1
    rw [e0, ht]; omega
  | ⟨1, _⟩ =>
    show win0_2.index t (1 : Fin 3) * 1 ≤ (i 1).val ∧ (i 1).val < win0_2.index t (1 : Fin 3) * 1 + 1
    rw [e1]; omega
  | ⟨2, _⟩ =>
    show win0_2.index t (2 : Fin 3) * 512 ≤ (i 2).val ∧ (i 2).val < win0_2.index t (2 : Fin 3) * 512 + 512
    rw [e2]; omega

theorem cover0_3 (i : S16x512x1.Idx) :
    ∃ t : Fin cfg0.N, (cfg0.win 3).flush t = true ∧ i ∈ ((cfg0.win 3).blk t).view.set := by
  have h0 : (i 0).val < 16 := (i 0).isLt
  have h1 : (i 1).val < 512 := (i 1).isLt
  have h2 : (i 2).val < 1 := (i 2).isLt
  obtain ⟨t, ht⟩ : ∃ t : Fin cfg0.N, t.val = 4 * (i 0).val + 3 :=
    ⟨⟨4 * (i 0).val + 3, lt_of_lt_of_eq (by omega : 4 * (i 0).val + 3 < 64) (show cfg0.N = 64 from N_0).symm⟩, rfl⟩
  obtain ⟨-, -, -, e0, e1, e2⟩ := idx_facts0 t
  refine ⟨t, (flush0_3 t).mpr (by rw [ht]; omega), ?_⟩
  show i ∈ ((View.whole main_v0_1).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + 1
    rw [e0, ht]; omega
  | ⟨1, _⟩ =>
    show win0_3.index t (1 : Fin 3) * 512 ≤ (i 1).val ∧ (i 1).val < win0_3.index t (1 : Fin 3) * 512 + 512
    rw [e1]; omega
  | ⟨2, _⟩ =>
    show win0_3.index t (2 : Fin 3) * 1 ≤ (i 2).val ∧ (i 2).val < win0_3.index t (2 : Fin 3) * 1 + 1
    rw [e2]; omega

/-! ## The two arrays after the pass -/

/-- The maxima array ends holding the column maxima, given that every last tile leaves those of its batch entry. -/
theorem stats_max_of (c : Dev nD)
    (hmax : ∀ (t : Fin cfg0.N), t.val % 4 = 3 → ∀ s : Fin 512, (outsAt (F := Ideal) V c t).1 (ix3 0 0 s) = mx (V c main_arg0) (V c main_arg1) (bOf t) s) :
    (dat0 (F := Ideal) V c).arrAt 2 cfg0.N = statMax (V c main_arg0) (V c main_arg1) :=
  (dat0 V c).arrAt_eq_of_cover 2 (statMax (V c main_arg0) (V c main_arg1)) (fun t hf => flushed0_2_eq V c hmax t hf) cover0_2

/-- The normalisers' array ends holding the reciprocal sums, given that every last tile leaves those of its batch
    entry. -/
theorem stats_inv_of (c : Dev nD)
    (hinv : ∀ (t : Fin cfg0.N), t.val % 4 = 3 → ∀ s : Fin 512, (outsAt (F := Ideal) V c t).2 (ix3 0 s 0) = Ideal.div 1 (zz (V c main_arg0) (V c main_arg1) (bOf t) s)) :
    (dat0 (F := Ideal) V c).arrAt 3 cfg0.N = statInv (V c main_arg0) (V c main_arg1) :=
  (dat0 V c).arrAt_eq_of_cover 3 (statInv (V c main_arg0) (V c main_arg1)) (fun t hf => flushed0_3_eq V c hinv t hf) cover0_3

end Cert.KernelIdeal.Hand

end
-- ==== Proof.StatsValue.lean ====
import proofs.«106505_j49632642072960_2_alg».proof.Proof.StatsPieces
import proofs.«106505_j49632642072960_2_alg».proof.Proof.StatsPayload
import proofs.«106505_j49632642072960_2_alg».proof.Proof.SoftmaxLaws
import proofs.«106505_j49632642072960_2_alg».proof.Proof.SpecPass
import proofs.«106505_j49632642072960_2_alg».proof.Proof.StatsArray
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LabelPool (sc mx zz runM runL stepM stepL tileIx tileMax statMax statInv AllReal)

variable (V : (c : Dev nD) → (b : Ref sig .tc) → Buf (Elt Ideal) ((c : Thread nD τ).loc b))

/-! # The statistics pass's two result arrays, index by index

Point t = 4 b + k of the grid handles label tile k (2000 labels) of batch entry b. Its block of the states is batch
entry b; its label rows are rows 2000 k .. 2000 k + 1999 of the resident label array. Across the four tiles of a batch
entry the scratch buffers hold the states' copy, the running maximum and the running sum of the ONLINE recurrence
(runM, runL of the scores of position s against all labels), and the last tile stores the final maximum and the
reciprocal of the final sum into block b of the two result arrays. So entry (b, 0, s) of the first result is the
largest score over the 8000 labels, and, for real inputs, entry (b, s, 0) of the second is one over the sum of the
shifted exponentials. -/

/-! ## The windows' index maps, decided once over the grid -/

theorem in_facts0 : ∀ t : Fin cfg0.N,
    win0_0.index t (0 : Fin 3) = t.val / 4 ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = 0
    ∧ k0_off1 (grid0.coords t) (0 : Fin 2) = 2000 * (t.val % 4) ∧ k0_off1 (grid0.coords t) (1 : Fin 2) = 0 :=
  (by decide +kernel : ∀ t : Fin grid0.N, _)

/-! ## The arrays the pass is entered with, at their shapes -/

abbrev sX (c : Dev nD) : S16x512x512.Idx → EReal := V c main_arg0
abbrev sW (c : Dev nD) : S8000x512.Idx → EReal := V c main_arg1

/-! ## Each input block read at an index -/

/-- The states' block at point t is batch entry t / 4 of the states. -/
theorem sblk0_at (c : Dev nD) (t : Fin cfg0.N) (s k : Fin 512) (b : Fin 16) (hb : b.val = t.val / 4) :
    (iblk0 V c 0 t : Vec Ideal S1x512x512 .f32) (ix3 (0 : Fin 1) s k) = (sX V c) (ix3 b s k) := by
  obtain ⟨e0, e1, e2, -⟩ := in_facts0 t
  unfold iblk0
  rw [View.read_apply]
  show V c main_arg0 _ = V c main_arg0 _
  congr 1
  funext a; apply Fin.ext
  match a with
  | ⟨0, _⟩ => show win0_0.index t (0 : Fin 3) * 1 + 1 * 0 = b.val; rw [e0, hb]; omega
  | ⟨1, _⟩ => show win0_0.index t (1 : Fin 3) * 512 + 1 * s.val = s.val; rw [e1]; omega
  | ⟨2, _⟩ => show win0_0.index t (2 : Fin 3) * 512 + 1 * k.val = k.val; rw [e2]; omega

/-- The tile's label rows at point t are rows 2000 (t % 4) .. of the label array. -/
theorem schunk_at (c : Dev nD) (t : Fin cfg0.N) (r : Fin 2000) (k : Fin 512) (l : Fin 8000) (hl : l.val = 2000 * (t.val % 4) + r.val) :
    chunk0 (grid0.coords t) (iblk0 V c 1 t : Vec Ideal S8000x512 .f32) (ix2 r k) = (sW V c) (ix2 l k) := by
  obtain ⟨-, -, -, e0, e1, -, -, -, -, -, -, o0, o1⟩ := in_facts0 t
  unfold chunk0 iblk0
  show V c main_arg1 _ = V c main_arg1 _
  congr 1
  funext a; apply Fin.ext
  match a with
  | ⟨0, _⟩ => show win0_1.index t (0 : Fin 2) * 8000 + 1 * (k0_off1 (grid0.coords t) (0 : Fin 2) + 1 * r.val) = l.val; rw [e0, o0, hl]; omega
  | ⟨1, _⟩ => show win0_1.index t (1 : Fin 2) * 512 + 1 * (k0_off1 (grid0.coords t) (1 : Fin 2) + 1 * k.val) = k.val; rw [e1, o1]; omega

/-! ## One tile's step is one step of the online recurrence -/

/-- From a states' copy holding batch entry b, a tile holding the label rows of tile k, and a running maximum and sum
    at position s holding the recurrence's values after k tiles, the stored maximum and sum are its values after k + 1. -/
theorem step_vals (x : S16x512x512.Idx → EReal) (w : S8000x512.Idx → EReal) (b : Fin 16) (k : ℕ) (hk : k < 4)
    (v6 : Vec Ideal S2000x512 .f32) (v8 : Vec Ideal S512x512 .bf16) (v10 v19 : Vec Ideal S1x512 .f32)
    (h6 : ∀ (r : Fin 2000) (d : Fin 512), v6 (ix2 r d) = w (ix2 (tileIx ⟨k, hk⟩ r) d))
    (h8 : ∀ (s d : Fin 512), v8 (ix2 s d) = x (ix3 b s d))
    (s : Fin 512)
    (h10 : v10 (ix2 (0 : Fin 1) s) = runM (fun l => sc x w b l s) k)
    (h19 : v19 (ix2 (0 : Fin 1) s) = runL (fun l => sc x w b l s) k) :
    k0_pay6 v6 v8 v10 (ix2 (0 : Fin 1) s) = runM (fun l => sc x w b l s) (k + 1)
    ∧ k0_pay7 v6 v8 v10 v19 (ix2 (0 : Fin 1) s) = runL (fun l => sc x w b l s) (k + 1) := by
  have hsc : ∀ r : Fin 2000, k0_pay4 v6 v8 (ix2 r s) = sc x w b (tileIx ⟨k, hk⟩ r) s := fun r => by
    rw [Cert.KernelIdeal.Pay.pay4_at]
    show _ = ∑ d : Fin 512, w (ix2 (tileIx ⟨k, hk⟩ r) d) * x (ix3 b s d)
    exact Finset.sum_congr rfl fun d _ => by rw [h6, h8]
  have h5 : k0_pay5 v6 v8 v10 (ix2 (0 : Fin 1) s) = runM (fun l => sc x w b l s) (k + 1) := by
    rw [Cert.KernelIdeal.Pay.pay5_at, h10, Cert.LabelPool.runM_succ _ hk,
      show (fun r : Fin 2000 => k0_pay4 v6 v8 (ix2 r s)) = fun r => sc x w b (tileIx ⟨k, hk⟩ r) s from funext hsc]
    rfl
  refine ⟨by rw [Cert.KernelIdeal.Pay.pay6_at]; exact h5, ?_⟩
  rw [Cert.KernelIdeal.Pay.pay7_at, h5, h10, h19, Cert.LabelPool.runL_succ _ hk]
  unfold Cert.LabelPool.stepL
  rw [← Cert.LabelPool.runM_succ _ hk]
  congr 1
  exact Finset.sum_congr rfl fun r _ => by rw [hsc]

/-- The same at a point of the grid, with the tile the body cuts out of the resident label array. -/
theorem step_at (c : Dev nD) (t : Fin cfg0.N) (b : Fin 16) (hb : b.val = t.val / 4)
    (v8 : Vec Ideal S512x512 .bf16) (v10 v19 : Vec Ideal S1x512 .f32)
    (h8 : ∀ (s d : Fin 512), v8 (ix2 s d) = (sX V c) (ix3 b s d))
    (s : Fin 512)
    (h10 : v10 (ix2 (0 : Fin 1) s) = runM (fun l => sc (sX V c) (sW V c) b l s) (t.val % 4))
    (h19 : v19 (ix2 (0 : Fin 1) s) = runL (fun l => sc (sX V c) (sW V c) b l s) (t.val % 4)) :
    k0_pay6 (chunk0 (grid0.coords t) (iblk0 V c 1 t)) v8 v10 (ix2 (0 : Fin 1) s) = runM (fun l => sc (sX V c) (sW V c) b l s) (t.val % 4 + 1)
    ∧ k0_pay7 (chunk0 (grid0.coords t) (iblk0 V c 1 t)) v8 v10 v19 (ix2 (0 : Fin 1) s) = runL (fun l => sc (sX V c) (sW V c) b l s) (t.val % 4 + 1) :=
  step_vals (sX V c) (sW V c) b (t.val % 4) (Nat.mod_lt _ (by norm_num)) (chunk0 (grid0.coords t) (iblk0 V c 1 t)) v8 v10 v19
    (fun r d => schunk_at V c t r d (tileIx ⟨t.val % 4, Nat.mod_lt _ (by norm_num)⟩ r) rfl) h8 s h10 h19

/-! ## The scratch contents after each point -/

/-- THE INVARIANT, by induction on the position: after position n (tile n % 4 of batch entry n / 4) the states' copy
    holds the batch entry, and at every position s the running maximum and the running sum are the online
    recurrence's values after n % 4 + 1 tiles. -/
theorem scratch_inv (c : Dev nD) : ∀ (n : ℕ) (hn : n < cfg0.N) (b : Fin 16) (hb : b.val = n / 4),
    (∀ s d : Fin 512, (scratchAt V c n hn).1 (ix2 s d) = (sX V c) (ix3 b s d))
    ∧ (∀ s : Fin 512, (scratchAt V c n hn).2.1 (ix2 (0 : Fin 1) s) = runM (fun l => sc (sX V c) (sW V c) b l s) (n % 4 + 1))
    ∧ (∀ s : Fin 512, (scratchAt V c n hn).2.2 (ix2 (0 : Fin 1) s) = runL (fun l => sc (sX V c) (sW V c) b l s) (n % 4 + 1)) := by
  intro n
  induction n using Nat.strong_induction_on with
  | _ n ih =>
    intro hn b hb
    have hN : cfg0.N = 64 := N_0
    by_cases h0 : n % 4 = 0
    · -- a first tile: the reset values are the recurrence's start
      rw [show scratchAt V c n hn = afterFirst V c ⟨n, hn⟩ h0 from scratchAt_first V c ⟨n, hn⟩ h0]
      have h8 : ∀ s d : Fin 512, k0_pay1 (iblk0 V c 0 ⟨n, hn⟩) (ix2 s d) = (sX V c) (ix3 b s d) := fun s d => by
        rw [Cert.KernelIdeal.Pay.pay1_at]; exact sblk0_at V c ⟨n, hn⟩ s d b hb
      have hst : ∀ s : Fin 512, _ := fun s => step_at V c ⟨n, hn⟩ b hb (k0_pay1 (iblk0 V c 0 ⟨n, hn⟩)) (k0_pay2 (F := Ideal)) (k0_pay3 (F := Ideal)) h8 s
        (by rw [Cert.KernelIdeal.Pay.pay2_at]; show (⊥ : EReal) = runM _ (n % 4); rw [h0]; rfl)
        (by rw [Cert.KernelIdeal.Pay.pay3_at]; show (0 : EReal) = runL _ (n % 4); rw [h0]; rfl)
      refine ⟨fun s d => ?_, fun s => ?_, fun s => ?_⟩
      · rw [first_x]; exact h8 s d
      · rw [first_m]; exact (hst s).1
      · rw [first_l]; exact (hst s).2
    · have hpos : n - 1 < n := by omega
      have ek : (n - 1) % 4 + 1 = n % 4 := by omega
      obtain ⟨p1, p2, p3⟩ := ih (n - 1) hpos (Nat.lt_of_le_of_lt (Nat.sub_le _ _) hn) b (by omega)
      rw [ek] at p2 p3
      by_cases h1 : n % 4 = 3
      · rw [show scratchAt V c n hn = afterLast V c ⟨n, hn⟩ h1 (prevAt V c ⟨n, hn⟩) from scratchAt_last V c ⟨n, hn⟩ h1]
        have hst : ∀ s : Fin 512, _ := fun s => step_at V c ⟨n, hn⟩ b hb (prevAt V c ⟨n, hn⟩).1 (prevAt V c ⟨n, hn⟩).2.1 (prevAt V c ⟨n, hn⟩).2.2 p1 s (p2 s) (p3 s)
        refine ⟨fun s d => p1 s d, fun s => ?_, fun s => ?_⟩
        · rw [last_m]; exact (hst s).1
        · rw [last_l]; exact (hst s).2
      · rw [show scratchAt V c n hn = afterMiddle V c ⟨n, hn⟩ h0 h1 (prevAt V c ⟨n, hn⟩) from scratchAt_middle V c ⟨n, hn⟩ h0 h1]
        have hst : ∀ s : Fin 512, _ := fun s => step_at V c ⟨n, hn⟩ b hb (prevAt V c ⟨n, hn⟩).1 (prevAt V c ⟨n, hn⟩).2.1 (prevAt V c ⟨n, hn⟩).2.2 p1 s (p2 s) (p3 s)
        refine ⟨fun s d => p1 s d, fun s => ?_, fun s => ?_⟩
        · rw [middle_m]; exact (hst s).1
        · rw [middle_l]; exact (hst s).2

/-! ## What a last tile stores -/

/-- At the last tile of batch entry b the first output's block holds, at position s, the largest score over all
    the labels, and the second's holds one over the recurrence's final sum. -/
theorem out_vals (c : Dev nD) (t : Fin cfg0.N) (h1 : t.val % 4 = 3) (b : Fin 16) (hb : b.val = t.val / 4) (s : Fin 512) :
    (outsAt V c t).1 (ix3 (0 : Fin 1) (0 : Fin 1) s) = mx (sX V c) (sW V c) b s
    ∧ (outsAt V c t).2 (ix3 (0 : Fin 1) s (0 : Fin 1)) = Ideal.div 1 (runL (fun l => sc (sX V c) (sW V c) b l s) 4) := by
  have hN : cfg0.N = 64 := N_0
  have ek : (t.val - 1) % 4 + 1 = t.val % 4 := by omega
  obtain ⟨p1, p2, p3⟩ := scratch_inv V c (t.val - 1) (Nat.lt_of_le_of_lt (Nat.sub_le _ _) t.isLt) b (by omega)
  rw [ek] at p2 p3
  have hst := step_at V c t b hb (prevAt V c t).1 (prevAt V c t).2.1 (prevAt V c t).2.2 p1 s (p2 s) (p3 s)
  have e4 : t.val % 4 + 1 = 4 := by omega
  rw [e4] at hst
  rw [outsAt_last V c t h1]
  constructor
  · rw [last_o2, Cert.KernelIdeal.Pay.pay8_at, hst.1]
    exact (Cert.LabelPool.mx_eq_runM _ _ b s).symm
  · rw [last_o3, Cert.KernelIdeal.Pay.pay9_at, hst.2]

/-- At the last tile of a batch entry the first output's block holds the largest score over all the labels. -/
theorem outs_last_max (c : Dev nD) (t : Fin cfg0.N) (h1 : t.val % 4 = 3) (s : Fin 512) :
    (outsAt (F := Ideal) V c t).1 (ix3 0 0 s) = mx (V c main_arg0) (V c main_arg1) (bOf t) s :=
  (out_vals V c t h1 (bOf t) rfl s).1

/-- For real inputs the second output's block holds one over the sum of the shifted exponentials: the recurrence's
    final sum is the softmax denominator. -/
theorem outs_last_inv (c : Dev nD) (hx : AllReal (V c main_arg0)) (hw : AllReal (V c main_arg1))
    (t : Fin cfg0.N) (h1 : t.val % 4 = 3) (s : Fin 512) :
    (outsAt (F := Ideal) V c t).2 (ix3 0 s 0) = Ideal.div 1 (zz (V c main_arg0) (V c main_arg1) (bOf t) s) := by
  rw [Cert.LabelPool.zz_eq_runL hx hw (bOf t) s]
  exact (out_vals V c t h1 (bOf t) rfl s).2

/-! ## The two result arrays after the pass -/

/-- THE MAXIMA ARRAY after the statistics pass: at (b, 0, s) the largest score over the labels. -/
theorem stats_max (c : Dev nD) :
    (dat0 (F := Ideal) V c).arrAt 2 cfg0.N = statMax (V c main_arg0) (V c main_arg1) :=
  stats_max_of V c (outs_last_max V c)

/-- THE NORMALISERS' ARRAY after the statistics pass, for real inputs: at (b, s, 0) one over the softmax denominator. -/
theorem stats_inv (c : Dev nD) (hx : AllReal (V c main_arg0)) (hw : AllReal (V c main_arg1)) :
    (dat0 (F := Ideal) V c).arrAt 3 cfg0.N = statInv (V c main_arg0) (V c main_arg1) :=
  stats_inv_of V c (outs_last_inv V c hx hw)

end Cert.KernelIdeal.Hand

end
-- ==== Proof.LibColumnLayout.lean ====
/-
  Two layout operations on a column, read at an index: the forms a row sum kept as a column goes through before it meets a
  full matrix. (The library has the row forms `[a] → [1, a]` and `[1, b] → [a, b]`; these are their column counterparts.)
  Library imports only.
-/
import Idealize.ShloMosaic.Lib.ValueIdx
import Idealize.ShloMosaic.Lib.ValueLayout
import Idealize.ShloMosaic.Lib.Pipeline.Value

namespace Cert.LibColumnLayout

open Idealize.ShloMosaic Idealize.ShloMosaic.ValueIdx

/-- An `[a]` array cast to `[a, 1]` reads, at `(i, u)`, the operand at `i`, whatever the unit coordinate `u`: both indices
    have row-major position `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`, whatever `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnLayout
-- ==== Proof.PoolPayload.lean ====
/-
  The second kernel's stored values, read at an index over the extended reals.

  The second pass keeps the states and the states scaled by the reciprocal sums (both rounded for the matrix
  unit, the rounding being the identity here), and for each tile of 1000 labels stores the pooled rows: the
  scores w . x^T (contracted over the feature axis of both operands), shifted by the row of maxima,
  exponentiated, and contracted over the positions with the scaled states. Each is read at explicit coordinates.
-/
import proofs.«106505_j49632642072960_2_alg».proof.Proof.Gen.KernelIdeal.Skeleton
import proofs.«106505_j49632642072960_2_alg».proof.Proof.LibContract
import proofs.«106505_j49632642072960_2_alg».proof.Proof.LibColumnLayout
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

/-- The states' block with its leading unit axis dropped. -/
theorem p1_at (v21 : Vec Ideal S1x512x512 .f32) (s d : Fin 512) :
    k1_pay1 v21 (ix2 s d) = v21 (ix3 (0 : Fin 1) s d) := by
  unfold k1_pay1
  exact shapeCast_1ab_ab_apply v21 shapeCasts_S1x512x512_S512x512 s d

/-- The stored states are the states. -/
theorem p2_at (v21 : Vec Ideal S1x512x512 .f32) (s d : Fin 512) :
    k1_pay2 v21 (ix2 s d) = v21 (ix3 (0 : Fin 1) s d) := by
  unfold k1_pay2
  rw [shapeCast_self]
  exact p1_at v21 s d

/-- The stored scaled states: the state at (s, d) times the reciprocal sum of position s. -/
theorem p3_at (v21 : Vec Ideal S1x512x512 .f32) (v27 : Vec Ideal S1x512x1 .f32) (s d : Fin 512) :
    k1_pay3 v21 v27 (ix2 s d) = v21 (ix3 (0 : Fin 1) s d) * v27 (ix3 (0 : Fin 1) s (0 : Fin 1)) := by
  unfold k1_pay3
  rw [shapeCast_self]
  refine (mulf_apply (k1_pay1 v21) _ (ix2 s d)).trans ?_
  refine congrArg₂ (· * ·) (p1_at v21 s d) ?_
  refine (Cert.LibColumnLayout.broadcastTo_a1_ab_apply _ broadcasts_S512x1_S512x512 s d).trans ?_
  exact shapeCast_1ab_ab_apply v27 shapeCasts_S1x512x1_S512x1 s (0 : Fin 1)

/-- The left operand's row coordinate is the output's row coordinate. -/
theorem lhs_scores1_0 (j : S1000x512.Idx) (q : dot_S1000x512_S512x512_S1000x512_1_1_0_0_n_n.contr.Idx) :
    (dot_S1000x512_S512x512_S1000x512_1_1_0_0_n_n.lhsIdx j q 0).val = (j 0).val := by
  unfold DotDims.lhsIdx
  rw [dif_neg (show ¬(0 : Fin S1000x512.rank) ∈ dot_S1000x512_S512x512_S1000x512_1_1_0_0_n_n.lhsBatch by decide),
    dif_pos (show (0 : Fin S1000x512.rank) ∈ dot_S1000x512_S512x512_S1000x512_1_1_0_0_n_n.lhsNonContracting by decide)]
  rfl

/-- The right operand's row coordinate is the output's column coordinate. -/
theorem rhs_scores1_0 (j : S1000x512.Idx) (q : dot_S1000x512_S512x512_S1000x512_1_1_0_0_n_n.contr.Idx) :
    (dot_S1000x512_S512x512_S1000x512_1_1_0_0_n_n.rhsIdx j q 0).val = (j 1).val := by
  unfold DotDims.rhsIdx
  rw [dif_neg (show ¬(0 : Fin S512x512.rank) ∈ dot_S1000x512_S512x512_S1000x512_1_1_0_0_n_n.rhsBatch by decide),
    dif_pos (show (0 : Fin S512x512.rank) ∈ dot_S1000x512_S512x512_S1000x512_1_1_0_0_n_n.rhsNonContracting by decide)]
  rfl

/-- The left operand's row coordinate is the output's row coordinate. -/
theorem lhs_pool_0 (j : S1000x512.Idx) (q : dot_S1000x512_S512x512_S1000x512_1_0_0_1_n_n.contr.Idx) :
    (dot_S1000x512_S512x512_S1000x512_1_0_0_1_n_n.lhsIdx j q 0).val = (j 0).val := by
  unfold DotDims.lhsIdx
  rw [dif_neg (show ¬(0 : Fin S1000x512.rank) ∈ dot_S1000x512_S512x512_S1000x512_1_0_0_1_n_n.lhsBatch by decide),
    dif_pos (show (0 : Fin S1000x512.rank) ∈ dot_S1000x512_S512x512_S1000x512_1_0_0_1_n_n.lhsNonContracting by decide)]
  rfl

/-- The right operand's column coordinate is the output's column coordinate. -/
theorem rhs_pool_1 (j : S1000x512.Idx) (q : dot_S1000x512_S512x512_S1000x512_1_0_0_1_n_n.contr.Idx) :
    (dot_S1000x512_S512x512_S1000x512_1_0_0_1_n_n.rhsIdx j q 1).val = (j 1).val := by
  unfold DotDims.rhsIdx
  rw [dif_neg (show ¬(1 : Fin S512x512.rank) ∈ dot_S1000x512_S512x512_S1000x512_1_0_0_1_n_n.rhsBatch by decide),
    dif_pos (show (1 : Fin S512x512.rank) ∈ dot_S1000x512_S512x512_S1000x512_1_0_0_1_n_n.rhsNonContracting by decide)]
  rfl

/-- The left operand's index of the scores' contraction: row of the output, the contracted coordinate. -/
theorem lhs_scores1 (j : S1000x512.Idx) (q : dot_S1000x512_S512x512_S1000x512_1_1_0_0_n_n.contr.Idx) (i : Fin 512) (h : (q ⟨0, by decide⟩).val = i.val) :
    dot_S1000x512_S512x512_S1000x512_1_1_0_0_n_n.lhsIdx j q = ix2 (j 0) i :=
  funext fun a => Fin.ext (by
    match a with
    | ⟨0, _⟩ => exact lhs_scores1_0 j q
    | ⟨1, _⟩ => exact (dot_S1000x512_S512x512_S1000x512_1_1_0_0_n_n.lhsIdx_val_of_single rfl j q).trans h)

/-- The right operand's index of the scores' contraction: column of the output, the contracted coordinate. -/
theorem rhs_scores1 (j : S1000x512.Idx) (q : dot_S1000x512_S512x512_S1000x512_1_1_0_0_n_n.contr.Idx) (i : Fin 512) (h : (q ⟨0, by decide⟩).val = i.val) :
    dot_S1000x512_S512x512_S1000x512_1_1_0_0_n_n.rhsIdx j q = ix2 (j 1) i :=
  funext fun a => Fin.ext (by
    match a with
    | ⟨0, _⟩ => exact rhs_scores1_0 j q
    | ⟨1, _⟩ => exact (dot_S1000x512_S512x512_S1000x512_1_1_0_0_n_n.rhsIdx_val_of_single rfl j q).trans h)

/-- The left operand's index of the pooling contraction: row of the output, the contracted coordinate. -/
theorem lhs_pool (j : S1000x512.Idx) (q : dot_S1000x512_S512x512_S1000x512_1_0_0_1_n_n.contr.Idx) (i : Fin 512) (h : (q ⟨0, by decide⟩).val = i.val) :
    dot_S1000x512_S512x512_S1000x512_1_0_0_1_n_n.lhsIdx j q = ix2 (j 0) i :=
  funext fun a => Fin.ext (by
    match a with
    | ⟨0, _⟩ => exact lhs_pool_0 j q
    | ⟨1, _⟩ => exact (dot_S1000x512_S512x512_S1000x512_1_0_0_1_n_n.lhsIdx_val_of_single rfl j q).trans h)

/-- The right operand's index of the pooling contraction: the contracted coordinate, column of the output. -/
theorem rhs_pool (j : S1000x512.Idx) (q : dot_S1000x512_S512x512_S1000x512_1_0_0_1_n_n.contr.Idx) (i : Fin 512) (h : (q ⟨0, by decide⟩).val = i.val) :
    dot_S1000x512_S512x512_S1000x512_1_0_0_1_n_n.rhsIdx j q = ix2 i (j 1) :=
  funext fun a => Fin.ext (by
    match a with
    | ⟨0, _⟩ => exact (dot_S1000x512_S512x512_S1000x512_1_0_0_1_n_n.rhsIdx_val_of_single rfl j q).trans h
    | ⟨1, _⟩ => exact rhs_pool_1 j q)

/-- The matrix unit's product of a tile with the transposed states, at (r, s): the scores. -/
theorem scores1_at (L : FVec Ideal S1000x512 .bf16) (v8 : FVec Ideal S512x512 .bf16) (r : Fin 1000) (s : Fin 512) :
    (matmul dot_S1000x512_S512x512_S1000x512_1_1_0_0_n_n none L v8 (constant S1000x512 .f32 0x00000000#32) : FVec Ideal S1000x512 .f32) (ix2 r s)
      = ∑ k : Fin 512, L (ix2 r k) * v8 (ix2 s k) :=
  Cert.LibContract.matmul_zero_apply dot_S1000x512_S512x512_S1000x512_1_1_0_0_n_n 512 rfl rfl none L v8 (ix2 r s) (fun k => ix2 r k) (fun k => ix2 s k)
    (fun q i h => lhs_scores1 (ix2 r s) q i h) (fun q i h => rhs_scores1 (ix2 r s) q i h)

/-- The matrix unit's product of a tile of weights with the scaled states, at (r, d): the pooling sum. -/
theorem pool_at (E : FVec Ideal S1000x512 .bf16) (v16 : FVec Ideal S512x512 .bf16) (r : Fin 1000) (d : Fin 512) :
    (matmul dot_S1000x512_S512x512_S1000x512_1_0_0_1_n_n none E v16 (constant S1000x512 .f32 0x00000000#32) : FVec Ideal S1000x512 .f32) (ix2 r d)
      = ∑ s : Fin 512, E (ix2 r s) * v16 (ix2 s d) :=
  Cert.LibContract.matmul_zero_apply dot_S1000x512_S512x512_S1000x512_1_0_0_1_n_n 512 rfl rfl none E v16 (ix2 r d) (fun s => ix2 r s) (fun s => ix2 s d)
    (fun q i h => lhs_pool (ix2 r d) q i h) (fun q i h => rhs_pool (ix2 r d) q i h)

/-- The row of maxima, given with two leading unit axes, broadcast over a tile's rows. -/
theorem shift_at (v10 : FVec Ideal S1x1x512 .f32) (r : Fin 1000) (s : Fin 512) :
    broadcastTo S1000x512 (shapeCast S1x512 v10 shapeCasts_S1x1x512_S1x512) broadcasts_S1x512_S1000x512 (ix2 r s)
      = v10 (ix3 (0 : Fin 1) (0 : Fin 1) s) :=
  (broadcastTo_1b_ab_apply _ broadcasts_S1x512_S1000x512 r s).trans
    (shapeCast_1ab_ab_apply v10 shapeCasts_S1x1x512_S1x512 (0 : Fin 1) s)

/-- The pooled rows of a tile: the shifted exponentials of the scores contracted with the scaled states over the
    positions. -/
theorem p4_at (v6 : Vec Ideal S1000x512 .f32) (v8 : Vec Ideal S512x512 .bf16) (v10 : Vec Ideal S1x1x512 .f32)
    (v16 : Vec Ideal S512x512 .bf16) (r : Fin 1000) (d : Fin 512) :
    k1_pay4 v6 v8 v10 v16 (ix3 (0 : Fin 1) r d)
      = ∑ s : Fin 512, Ideal.exp ((∑ k : Fin 512, v6 (ix2 r k) * v8 (ix2 s k)) - v10 (ix3 (0 : Fin 1) (0 : Fin 1) s))
          * v16 (ix2 s d) := by
  unfold k1_pay4
  refine (shapeCast_ab_1ab_apply _ shapeCasts_S1000x512_S1x1000x512 (0 : Fin 1) r d).trans ?_
  refine (pool_at _ v16 r d).trans ?_
  refine Finset.sum_congr rfl fun s _ => ?_
  refine congrArg (· * v16 (ix2 s d)) ?_
  refine (congrArg₂ (fun a b => Ideal.exp (a - b)) (scores1_at (truncf .bf16 v6 bitsLt_bf16_f32) v8 r s) (shift_at v10 r s))

end Cert.KernelIdeal.Pay

end
-- ==== Proof.PoolValue.lean ====
import proofs.«106505_j49632642072960_2_alg».proof.Proof.PoolFrame
import proofs.«106505_j49632642072960_2_alg».proof.Proof.PoolPayload
import proofs.«106505_j49632642072960_2_alg».proof.Proof.SpecPass
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LabelPool (poolFrom)

variable (V : (c : Dev nD) → (b : Ref sig .tc) → Buf (Elt Ideal) ((c : Thread nD τ).loc b))

/-! # The pooling pass's result array, index by index

Point t = 8 b + j of the grid handles label tile j of batch entry b. Its blocks of the states, the column maxima and
the normalisers are those of batch entry b; its label rows are rows 1000 j .. 1000 j + 999 of the resident label
array; it writes block (b, j) of the result. So every entry (b, l, d) of the result is written by the point
8 b + l / 1000, and holds the pooling sum of the arrays the pass was entered with. -/

/-! ## The windows' index maps, decided once over the grid -/

theorem idx_facts1 : ∀ t : Fin cfg1.N,
    win1_0.index t (0 : Fin 3) = t.val / 8 ∧ win1_0.index t (1 : Fin 3) = 0 ∧ win1_0.index t (2 : Fin 3) = 0
    ∧ win1_1.index t (0 : Fin 2) = 0 ∧ win1_1.index t (1 : Fin 2) = 0
    ∧ win1_2.index t (0 : Fin 3) = t.val / 8 ∧ win1_2.index t (1 : Fin 3) = 0 ∧ win1_2.index t (2 : Fin 3) = 0
    ∧ win1_3.index t (0 : Fin 3) = t.val / 8 ∧ win1_3.index t (1 : Fin 3) = 0 ∧ win1_3.index t (2 : Fin 3) = 0
    ∧ win1_4.index t (0 : Fin 3) = t.val / 8 ∧ win1_4.index t (1 : Fin 3) = t.val % 8 ∧ win1_4.index t (2 : Fin 3) = 0
    ∧ k1_off1 (grid1.coords t) (0 : Fin 2) = 1000 * (t.val % 8) ∧ k1_off1 (grid1.coords t) (1 : Fin 2) = 0 :=
  (by decide +kernel : ∀ t : Fin grid1.N, _)

/-! ## The arrays the pass is entered with, at their shapes -/

abbrev aX (c : Dev nD) : S16x512x512.Idx → EReal := V c main_arg0
abbrev aW (c : Dev nD) : S8000x512.Idx → EReal := V c main_arg1
abbrev aM (c : Dev nD) : S16x1x512.Idx → EReal := V c main_v0_0
abbrev aZ (c : Dev nD) : S16x512x1.Idx → EReal := V c main_v0_1

/-! ## Each input block read at an index -/

/-- The states' block at point t is batch entry t / 8 of the states. -/
theorem iblk0_at (c : Dev nD) (t : Fin cfg1.N) (s k : Fin 512) (b : Fin 16) (hb : b.val = t.val / 8) :
    (iblk1 V c 0 t : Vec Ideal S1x512x512 .f32) (ix3 (0 : Fin 1) s k) = (aX V c) (ix3 b s k) := by
  obtain ⟨e0, e1, e2, -⟩ := idx_facts1 t
  unfold iblk1
  rw [View.read_apply]
  show V c main_arg0 _ = V c main_arg0 _
  congr 1
  funext a; apply Fin.ext
  match a with
  | ⟨0, _⟩ => show win1_0.index t (0 : Fin 3) * 1 + 1 * 0 = b.val; rw [e0, hb]; omega
  | ⟨1, _⟩ => show win1_0.index t (1 : Fin 3) * 512 + 1 * s.val = s.val; rw [e1]; omega
  | ⟨2, _⟩ => show win1_0.index t (2 : Fin 3) * 512 + 1 * k.val = k.val; rw [e2]; omega

/-- The column maxima's block at point t is batch entry t / 8 of the maxima. -/
theorem iblk2_at (c : Dev nD) (t : Fin cfg1.N) (s : Fin 512) (b : Fin 16) (hb : b.val = t.val / 8) :
    (iblk1 V c 2 t : Vec Ideal S1x1x512 .f32) (ix3 (0 : Fin 1) (0 : Fin 1) s) = (aM V c) (ix3 b (0 : Fin 1) s) := by
  obtain ⟨-, -, -, -, -, e0, e1, e2, -⟩ := idx_facts1 t
  unfold iblk1
  rw [View.read_apply]
  show V c main_v0_0 _ = V c main_v0_0 _
  congr 1
  funext a; apply Fin.ext
  match a with
  | ⟨0, _⟩ => show win1_2.index t (0 : Fin 3) * 1 + 1 * 0 = b.val; rw [e0, hb]; omega
  | ⟨1, _⟩ => show win1_2.index t (1 : Fin 3) * 1 + 1 * 0 = 0; rw [e1]
  | ⟨2, _⟩ => show win1_2.index t (2 : Fin 3) * 512 + 1 * s.val = s.val; rw [e2]; omega

/-- The normalisers' block at point t is batch entry t / 8 of the normalisers. -/
theorem iblk3_at (c : Dev nD) (t : Fin cfg1.N) (s : Fin 512) (b : Fin 16) (hb : b.val = t.val / 8) :
    (iblk1 V c 3 t : Vec Ideal S1x512x1 .f32) (ix3 (0 : Fin 1) s (0 : Fin 1)) = (aZ V c) (ix3 b s (0 : Fin 1)) := by
  obtain ⟨-, -, -, -, -, -, -, -, e0, e1, e2, -⟩ := idx_facts1 t
  unfold iblk1
  rw [View.read_apply]
  show V c main_v0_1 _ = V c main_v0_1 _
  congr 1
  funext a; apply Fin.ext
  match a with
  | ⟨0, _⟩ => show win1_3.index t (0 : Fin 3) * 1 + 1 * 0 = b.val; rw [e0, hb]; omega
  | ⟨1, _⟩ => show win1_3.index t (1 : Fin 3) * 512 + 1 * s.val = s.val; rw [e1]; omega
  | ⟨2, _⟩ => show win1_3.index t (2 : Fin 3) * 1 + 1 * 0 = 0; rw [e2]

/-- The tile's label rows at point t are rows 1000 (t % 8) .. of the label array. -/
theorem wchunk_at (c : Dev nD) (t : Fin cfg1.N) (r : Fin 1000) (k : Fin 512) (l : Fin 8000) (hl : l.val = 1000 * (t.val % 8) + r.val) :
    wchunk (grid1.coords t) (iblk1 V c 1 t : Vec Ideal S8000x512 .f32) (ix2 r k) = (aW V c) (ix2 l k) := by
  obtain ⟨-, -, -, e0, e1, -, -, -, -, -, -, -, -, -, o0, o1⟩ := idx_facts1 t
  unfold wchunk iblk1
  show V c main_arg1 _ = V c main_arg1 _
  congr 1
  funext a; apply Fin.ext
  match a with
  | ⟨0, _⟩ => show win1_1.index t (0 : Fin 2) * 8000 + 1 * (k1_off1 (grid1.coords t) (0 : Fin 2) + 1 * r.val) = l.val; rw [e0, o0, hl]; omega
  | ⟨1, _⟩ => show win1_1.index t (1 : Fin 2) * 512 + 1 * (k1_off1 (grid1.coords t) (1 : Fin 2) + 1 * k.val) = k.val; rw [e1, o1]; omega

/-! ## What a point leaves in the output block is the pooling sum of the arrays -/

/-- The output block after point t, at row r and feature d: the pooling sum for batch entry t / 8 and label
    1000 (t % 8) + r. -/
theorem poolOut_at (c : Dev nD) (t : Fin cfg1.N) (r : Fin 1000) (d : Fin 512) (b : Fin 16) (l : Fin 8000)
    (hb : b.val = t.val / 8) (hl : l.val = 1000 * (t.val % 8) + r.val) :
    poolOut V c t (ix3 (0 : Fin 1) r d)
      = poolFrom (aX V c) (aW V c)
          (aM V c) (aZ V c) b l d := by
  unfold poolOut
  refine (Cert.KernelIdeal.Pay.p4_at (wchunk (grid1.coords t) (iblk1 V c 1 t)) (k1_pay2 (iblk1 V c 0 t)) (iblk1 V c 2 t) (k1_pay3 (iblk1 V c 0 t) (iblk1 V c 3 t)) r d).trans ?_
  unfold Cert.LabelPool.poolFrom
  refine Finset.sum_congr rfl fun s _ => ?_
  have e1 : (∑ k : Fin 512, wchunk (grid1.coords t) (iblk1 V c 1 t : Vec Ideal S8000x512 .f32) (ix2 r k) * k1_pay2 (iblk1 V c 0 t) (ix2 s k))
      = ∑ k : Fin 512, (aW V c) (ix2 l k) * (aX V c) (ix3 b s k) :=
    Finset.sum_congr rfl fun k _ => by
      rw [wchunk_at V c t r k l hl, Cert.KernelIdeal.Pay.p2_at (iblk1 V c 0 t) s k, iblk0_at V c t s k b hb]
  rw [e1, iblk2_at V c t s b hb, Cert.KernelIdeal.Pay.p3_at (iblk1 V c 0 t) (iblk1 V c 3 t) s d, iblk0_at V c t s d b hb, iblk3_at V c t s b hb]

/-! ## The result array -/

/-- The result array as one function of the arrays the pass is entered with. -/
def poolArr (c : Dev nD) : S16x8000x512.Idx → EReal := fun i =>
  poolFrom (aX V c) (aW V c)
    (aM V c) (aZ V c) (i 0) (i 1) (i 2)

theorem poolArr_at (c : Dev nD) (i : S16x8000x512.Idx) (b : Fin 16) (l : Fin 8000) (d : Fin 512)
    (h0 : (i 0).val = b.val) (h1 : (i 1).val = l.val) (h2 : (i 2).val = d.val) :
    poolArr V c i = poolFrom (aX V c) (aW V c)
      (aM V c) (aZ V c) b l d := by
  have e : i = ix3 b l d := funext fun a => Fin.ext (by
    match a with
    | ⟨0, _⟩ => exact h0
    | ⟨1, _⟩ => exact h1
    | ⟨2, _⟩ => exact h2)
  subst e; rfl

/-- What point t writes back is block t of the result array. -/
theorem flushed4_eq (c : Dev nD) (t : Fin cfg1.N) :
    (dat1 V c).flushed 4 t = ((cfg1.win 4).blk t).view.read (Elt Ideal) (poolArr V c) := by
  show (cfg1.win 4).cut (grid1.coords t) ((dat1 V c).after 4 t) = _
  rw [after1_4]
  obtain ⟨-, -, -, -, -, -, -, -, -, -, -, e0, e1, e2, -⟩ := idx_facts1 t
  have hN : t.val < 128 := lt_of_lt_of_eq t.isLt (show cfg1.N = 128 from N_1)
  refine funext fun (j : S1x1000x512.Idx) => ?_
  obtain ⟨u, r, d, rfl⟩ : ∃ (u : Fin 1) (r : Fin 1000) (d : Fin 512), j = ix3 u r d := ⟨j 0, j 1, j 2, eq_ix3 j⟩
  obtain rfl : u = 0 := Subsingleton.elim _ _
  have hr : r.val < 1000 := r.isLt
  show poolOut V c t (ix3 (0 : Fin 1) r d) = poolArr V c (((cfg1.win 4).blk t).view.emb (ix3 (0 : Fin 1) r d))
  rw [poolOut_at V c t r d ⟨t.val / 8, by omega⟩ ⟨1000 * (t.val % 8) + r.val, by omega⟩ rfl rfl]
  exact (poolArr_at V c _ ⟨t.val / 8, by omega⟩ ⟨1000 * (t.val % 8) + r.val, by omega⟩ d
    (by show win1_4.index t (0 : Fin 3) * 1 + 1 * 0 = t.val / 8; rw [e0]; omega)
    (by show win1_4.index t (1 : Fin 3) * 1000 + 1 * r.val = 1000 * (t.val % 8) + r.val; rw [e1]; omega)
    (by show win1_4.index t (2 : Fin 3) * 512 + 1 * d.val = d.val; rw [e2]; omega)).symm

/-- Every entry of the result array is in the block of the point of its batch entry and label tile. -/
theorem cover4 (i : S16x8000x512.Idx) :
    ∃ t : Fin cfg1.N, (cfg1.win 4).flush t = true ∧ i ∈ ((cfg1.win 4).blk t).view.set := by
  have h0 : (i 0).val < 16 := (i 0).isLt
  have h1 : (i 1).val < 8000 := (i 1).isLt
  have h2 : (i 2).val < 512 := (i 2).isLt
  obtain ⟨t, ht⟩ : ∃ t : Fin cfg1.N, t.val = 8 * (i 0).val + (i 1).val / 1000 :=
    ⟨⟨8 * (i 0).val + (i 1).val / 1000, lt_of_lt_of_eq (by omega : 8 * (i 0).val + (i 1).val / 1000 < 128) (show cfg1.N = 128 from N_1).symm⟩, rfl⟩
  obtain ⟨-, -, -, -, -, -, -, -, -, -, -, e0, e1, e2, -⟩ := idx_facts1 t
  refine ⟨t, flush1_4 t, ?_⟩
  show i ∈ ((View.whole main_v1).slice (win1_4.rect t)).set
  rw [View.set_slice_whole, Rect.mem_set_unit]
  intro a
  match a with
  | ⟨0, _⟩ =>
    show win1_4.index t (0 : Fin 3) * 1 ≤ (i 0).val ∧ (i 0).val < win1_4.index t (0 : Fin 3) * 1 + 1
    rw [e0, ht]; omega
  | ⟨1, _⟩ =>
    show win1_4.index t (1 : Fin 3) * 1000 ≤ (i 1).val ∧ (i 1).val < win1_4.index t (1 : Fin 3) * 1000 + 1000
    rw [e1, ht]; omega
  | ⟨2, _⟩ =>
    show win1_4.index t (2 : Fin 3) * 512 ≤ (i 2).val ∧ (i 2).val < win1_4.index t (2 : Fin 3) * 512 + 512
    rw [e2]; omega

/-- THE RESULT ARRAY after the pass: every entry at the pooling sum of the arrays the pass was entered with. -/
theorem pool_final (c : Dev nD) :
    (dat1 (F := Ideal) V c).arrAt 4 cfg1.N = fun i => poolFrom (V c main_arg0) (V c main_arg1) (V c main_v0_0) (V c main_v0_1) (i 0) (i 1) (i 2) :=
  (dat1 V c).arrAt_eq_of_cover 4 (poolArr V c) (fun t _ => flushed4_eq V c t) (cover4)

end Cert.KernelIdeal.Hand

end
-- ==== Proof.Final.lean ====
/-
  The kernel's result is the pooled label attention.

  After both passes the final array is what the pooling pass computes from the arguments and the statistics the first
  pass left; those statistics are the per-position maxima and reciprocal softmax denominators; put together the final
  array is `pooledK` of the arguments, and for finite inputs that equals `pooled`, the reference's arrangement.
-/
import proofs.«106505_j49632642072960_2_alg».proof.Proof.TwoPass
import proofs.«106505_j49632642072960_2_alg».proof.Proof.SpecPass
import proofs.«106505_j49632642072960_2_alg».proof.Proof.SoftmaxLaws
import proofs.«106505_j49632642072960_2_alg».proof.Proof.StatsValue
import proofs.«106505_j49632642072960_2_alg».proof.Proof.PoolValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.LabelPool

/-- The final array after both passes, for inputs whose every entry is a real number. -/
theorem final_eq (m : (ℓ : Loc nD τ sig) → Buf (Elt Ideal) ℓ) (c : Dev nD)
    (hx : AllReal (S := SX) (m ((c : Thread nD τ).loc main_arg0))) (hw : AllReal (S := SW) (m ((c : Thread nD τ).loc main_arg1))) :
    W2 (F := Ideal) m c (Proc.devRef .tc main_v1) = G (m ((c : Thread nD τ).loc main_arg0)) (m ((c : Thread nD τ).loc main_arg1)) := by
  have hx' : AllReal (S := SX) (V0 (F := Ideal) m c main_arg0) := hx
  have hw' : AllReal (S := SW) (V0 (F := Ideal) m c main_arg1) := hw
  rw [W2_main_v1, pool_final (V1 m) c, V1_main_arg0, V1_main_arg1, V1_main_v0_0, V1_main_v0_1,
    stats_max (V0 m) c, stats_inv (V0 m) c hx' hw']
  funext i
  show poolFrom (m ((c : Thread nD τ).loc main_arg0)) (m ((c : Thread nD τ).loc main_arg1))
      (statMax (m ((c : Thread nD τ).loc main_arg0)) (m ((c : Thread nD τ).loc main_arg1)))
      (statInv (m ((c : Thread nD τ).loc main_arg0)) (m ((c : Thread nD τ).loc main_arg1))) (i 0) (i 1) (i 2) = _
  exact (poolFrom_stats _ _ (i 0) (i 1) (i 2)).trans (pooledK_eq_pooled hx hw (i 0) (i 1) (i 2))

end Cert.KernelIdeal.Hand

end
-- ==== Proof.RefIsG.lean ====
/-
  The reference program's result is the pooled label attention of the specification.

  The reference computes, in order: the scores w . x^T (a contraction over the feature axis, then a
  transposition putting the batch axis first), their maximum over the label axis taken from the bottom
  element (and once more against the bottom element), the exponentials of the shifted scores, their sum over
  the label axis from zero, the quotient, and the contraction of the quotients with the states over the
  positions. Each stage is read at explicit coordinates (b, l, s) or (b, s) and identified with the
  corresponding function of the specification: sc, mx, ex, zz, and finally pooled.
-/
import proofs.«106505_j49632642072960_2_alg».proof.Proof.Gen.ReferenceIdeal.Read
import proofs.«106505_j49632642072960_2_alg».proof.Proof.Spec
import proofs.«106505_j49632642072960_2_alg».proof.Proof.LibFiniteMax

noncomputable section

namespace Cert.ReferenceIdeal.RefValue

open Cert.ReferenceIdeal Cert.ReferenceIdeal.Gen Cert.ReferenceIdeal.Read Idealize.ShloMosaic
  Idealize.ShloMosaic.ValueIdx Idealize.ShloMosaic.TcCoe Idealize.SL.Sem Cert.LabelPool

/-- The states and the label vectors, as the reference's stages take them. -/
abbrev XT := (⟨S16x512x512, .f32⟩ : BufTy).Contents (Elt Ideal)
abbrev WT := (⟨S8000x512, .f32⟩ : BufTy).Contents (Elt Ideal)

/-- The transposed contraction at (b, l, s) is the score of label l at position s of batch entry b. -/
theorem score_at (x0 : XT) (x1 : WT) (b : Fin 16) (l : Fin 8000) (s : Fin 512) :
    val_main_v1 (F := Ideal) x0 x1 (ix3 b l s) = sc x0 x1 b l s := by
  rw [val_main_v1_apply, val_main_v0_apply]
  unfold sc
  refine Finset.sum_congr rfl fun d _ => ?_
  have e1 : lidx_main_v0 (idx_main_v1 (ix3 b l s)) d = ix2 l d :=
    funext fun a => Fin.ext (by match a with | ⟨0, _⟩ => rfl | ⟨1, _⟩ => rfl)
  have e2 : ridx_main_v0 (idx_main_v1 (ix3 b l s)) d = ix3 b s d :=
    funext fun a => Fin.ext (by match a with | ⟨0, _⟩ => rfl | ⟨1, _⟩ => rfl | ⟨2, _⟩ => rfl)
  rw [e1, e2]

/-- The relation between the array of scores and its label-axis reduction's shape. -/
theorem reduces_labels : S16x8000x512.Reduces [1] S16x512 := by decide

/-- The index (b, s) of the reduced array with the label coordinate k put back is (b, k, s). -/
theorem lift_at (b : Fin 16) (s : Fin 512) (k : Fin (S16x8000x512.size 1)) :
    reduces_labels.lift (ix2 b s) k = ix3 b (⟨k.val, k.isLt⟩ : Fin 8000) s := by
  funext c; apply Fin.ext
  match c with
  | ⟨0, _⟩ => rfl
  | ⟨1, _⟩ => rfl
  | ⟨2, _⟩ => rfl

/-- The maximum-reduce over the label axis, from the bottom element, at (b, s) is the largest score there. -/
theorem max_at (x0 : XT) (x1 : WT) (b : Fin 16) (s : Fin 512) :
    val_main_v2 (F := Ideal) x0 x1 (ix2 b s) = mx x0 x1 b s := by
  unfold val_main_v2
  rw [Host.reduce_eq_fold_single FloatOps.maximumf _ _ reducesTo_S16x8000x512_S16x512_d1 reduces_labels h_S_]
  unfold mx
  have hb : val_main_cst (F := Ideal) (Shape.Idx.first h_S_) = (⊥ : EReal) := Cert.LibFiniteMax.ofBits_neg_inf
  have hf : (val_main_v1 (F := Ideal) x0 x1 ∘ reduces_labels.lift (ix2 b s)) = fun l : Fin 8000 => sc x0 x1 b l s :=
    funext fun l => by
      show val_main_v1 (F := Ideal) x0 x1 (reduces_labels.lift (ix2 b s) l) = _
      rw [lift_at b s l]
      exact score_at x0 x1 b _ s
  rw [hb, hf]
  rfl

/-- The maximum once more against the bottom element changes nothing. -/
theorem max4_at (x0 : XT) (x1 : WT) (b : Fin 16) (s : Fin 512) :
    val_main_v4 (F := Ideal) x0 x1 (ix2 b s) = mx x0 x1 b s := by
  rw [val_main_v4_apply, val_main_v3_apply, val_main_cst_0_apply, max_at, Ideal.maximumf_def]
  have hb : (FloatOps.ofBits .f32 0xFF800000#32 : Ideal .f32) = (⊥ : EReal) := Cert.LibFiniteMax.ofBits_neg_inf
  rw [hb]
  exact max_bot_left _

/-- The maximum broadcast back over the labels. -/
theorem max6_at (x0 : XT) (x1 : WT) (b : Fin 16) (l : Fin 8000) (s : Fin 512) :
    val_main_v6 (F := Ideal) x0 x1 (ix3 b l s) = mx x0 x1 b s := by
  rw [val_main_v6_apply, val_main_v5_apply]
  have e : idx_main_v5 (idx_main_v6 (ix3 b l s)) = ix2 b s :=
    funext fun a => Fin.ext (by match a with | ⟨0, _⟩ => rfl | ⟨1, _⟩ => rfl)
  rw [e]
  exact max4_at x0 x1 b s

/-- The exponential of the shifted score. -/
theorem exp_at (x0 : XT) (x1 : WT) (b : Fin 16) (l : Fin 8000) (s : Fin 512) :
    val_main_v8 (F := Ideal) x0 x1 (ix3 b l s) = ex x0 x1 b l s := by
  rw [val_main_v8_apply, val_main_v7_apply, score_at, max6_at, Ideal.hostUnary_exp_def, Ideal.subf_def]
  rfl

/-- The sum of the exponentials over the labels, from zero. -/
theorem sum_at (x0 : XT) (x1 : WT) (b : Fin 16) (s : Fin 512) :
    val_main_v9 (F := Ideal) x0 x1 (ix2 b s) = zz x0 x1 b s := by
  rw [val_main_v9_apply, val_main_cst_1_apply]
  have hz : (FloatOps.ofBits .f32 0x00000000#32 : Ideal .f32) = (0 : EReal) := Ideal.ofBits_zero_f32
  rw [hz, zero_add]
  unfold zz
  refine Finset.sum_congr rfl fun k _ => ?_
  have e : idx_main_v9 (ix2 b s) k = ix3 b k s :=
    funext fun a => Fin.ext (by match a with | ⟨0, _⟩ => rfl | ⟨1, _⟩ => rfl | ⟨2, _⟩ => rfl)
  rw [e]
  exact exp_at x0 x1 b k s

/-- The sum broadcast back over the labels. -/
theorem sum11_at (x0 : XT) (x1 : WT) (b : Fin 16) (l : Fin 8000) (s : Fin 512) :
    val_main_v11 (F := Ideal) x0 x1 (ix3 b l s) = zz x0 x1 b s := by
  rw [val_main_v11_apply, val_main_v10_apply]
  have e : idx_main_v10 (idx_main_v11 (ix3 b l s)) = ix2 b s :=
    funext fun a => Fin.ext (by match a with | ⟨0, _⟩ => rfl | ⟨1, _⟩ => rfl)
  rw [e]
  exact sum_at x0 x1 b s

/-- The softmax weight of label l at position s. -/
theorem weight_at (x0 : XT) (x1 : WT) (b : Fin 16) (l : Fin 8000) (s : Fin 512) :
    val_main_v12 (F := Ideal) x0 x1 (ix3 b l s) = Ideal.div (ex x0 x1 b l s) (zz x0 x1 b s) := by
  rw [val_main_v12_apply, exp_at, sum11_at, Ideal.hostDivf_def]

/-- The reference's result is the specification's array. -/
theorem ref_eq_G (x0 : XT) (x1 : WT) : val_main_v13 (F := Ideal) x0 x1 = G x0 x1 := by
  funext i
  obtain ⟨b, l, d, rfl⟩ : ∃ (b : Fin 16) (l : Fin 8000) (d : Fin 512), i = ix3 b l d := ⟨i 0, i 1, i 2, eq_ix3 i⟩
  rw [val_main_v13_apply]
  show _ = pooled x0 x1 b l d
  unfold pooled
  refine Finset.sum_congr rfl fun s _ => ?_
  have e1 : lidx_main_v13 (ix3 b l d) s = ix3 b l s :=
    funext fun a => Fin.ext (by match a with | ⟨0, _⟩ => rfl | ⟨1, _⟩ => rfl | ⟨2, _⟩ => rfl)
  have e2 : ridx_main_v13 (ix3 b l d) s = ix3 b s d :=
    funext fun a => Fin.ext (by match a with | ⟨0, _⟩ => rfl | ⟨1, _⟩ => rfl | ⟨2, _⟩ => rfl)
  rw [e1, e2, weight_at]

/-- Every weakly fair execution of the reference terminates with its result the specification's array of the
    arguments' launch contents, and the arguments unchanged. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13)
          = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨by rw [(h c).1, val_main_v13_eq, ref_eq_G], (h c).2⟩)
    (Cert.ReferenceIdeal.Value.run (F := Ideal) m ρ)

end Cert.ReferenceIdeal.RefValue

end
-- ==== Proof.PreReal.lean ====
/-
  From the precondition to real entries.

  The precondition is the conjunction of two tests, one per input array: every entry's absolute value,
  max x (-x), is below the word of +inf. Each test is a reduction by "and" over the whole array from the
  constant true, so when the conjunction is true every entry of both arrays passes the comparison, and an
  extended real that passes it is a real number.
-/
import proofs.«106505_j49632642072960_2_alg».proof.Defs
import proofs.«106505_j49632642072960_2_alg».proof.Proof.Gen.Pre_finite_inputs
import proofs.«106505_j49632642072960_2_alg».proof.Proof.LibFiniteMax
import Idealize.ShloMosaic.Lib.ReduceAll
import Idealize.ShloMosaic.Lib.ValueIdx

noncomputable section

namespace Cert.PreReal

open Idealize.ShloMosaic Idealize.ShloMosaic.ValueIdx Idealize.SL.Sem

/-- The scalar shape has one index. -/
instance : Subsingleton Cert.Pre_finite_inputs.S_.Idx := ⟨fun a b => funext fun d => d.elim0⟩

/-- If the finiteness test of two arrays is true, every entry of both is a real number. -/
theorem real_of_fn [Cert.Pre_finite_inputs.Facts]
    (x : FVec Ideal Cert.Pre_finite_inputs.S16x512x512 .f32) (w : FVec Ideal Cert.Pre_finite_inputs.S8000x512 .f32)
    (h : Cert.Pre_finite_inputs.fn (F := Ideal) x w = fun _ => 1#1) :
    (∀ i, ∃ r : ℝ, x i = (r : EReal)) ∧ (∀ i, ∃ r : ℝ, w i = (r : EReal)) := by
  have h0 := congrFun h ix0
  dsimp only [Cert.Pre_finite_inputs.fn] at h0
  obtain ⟨ha, hb⟩ := IntOp.andi_eq_one.1 h0
  constructor
  · intro i
    have e := Host.reduce_andi_all _ _ _ _ _ ha i
    exact Cert.LibFiniteMax.real_of_lt_inf e
  · intro i
    have e := Host.reduce_andi_all _ _ _ _ _ hb i
    exact Cert.LibFiniteMax.real_of_lt_inf e

/-- Under the precondition every entry of both of the kernel's argument arrays is a real number. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal)) :=
  real_of_fn _ _ (h c)

end Cert.PreReal

end
-- ==== Proof.lean ====
/-
  Two evaluations of label-axis attention pooling agree on the extended reals.

  For states x[b,s,d] and label vectors w[l,d] the scores are sc[b,l,s] = sum_d w[l,d] * x[b,s,d]; the weights are a
  softmax of the scores ACROSS THE LABELS, separately at every position s; the result pools the states over the
  positions: out[b,l,d] = sum_s (exp(sc[b,l,s] - M[b,s]) / Z[b,s]) * x[b,s,d] with M the largest score at the
  position and Z the sum of the shifted exponentials.

  The reference computes exactly that. The kernel makes two passes over a grid of (batch entry, label tile). The first
  keeps a running maximum and a running sum per position across the four label tiles of a batch entry, rescaling the
  sum whenever the maximum grows; after the last tile these are M and Z, and it writes M and 1/Z. The second pass
  recomputes each score tile, exponentiates it against M, and multiplies by the states scaled by 1/Z. For inputs
  whose entries are real numbers the running values are the true maximum and sum (exp(a - m) * exp(m - m') =
  exp(a - m') on the reals), and e * (x * (1/z)) = (e / z) * x, so both programs end with the same array.

  The three frame claims: each kernel pass's body is run case by case on the pipeline's buffers, the scratch buffers'
  contents carried in the pipeline's invariant from point to point, and the two passes composed in sequence; the
  reference's frame is its run with the result dropped. Nothing was rewritten between the kernel and its idealization.
-/
import proofs.«106505_j49632642072960_2_alg».proof.Defs
import proofs.«106505_j49632642072960_2_alg».proof.Proof.Gen.Kernel
import proofs.«106505_j49632642072960_2_alg».proof.Proof.Gen.KernelIdeal
import proofs.«106505_j49632642072960_2_alg».proof.Proof.Gen.ReferenceIdeal
import proofs.«106505_j49632642072960_2_alg».proof.Proof.Gen.ReferenceIdeal.Run
import proofs.«106505_j49632642072960_2_alg».proof.Proof.Gen.ReferenceIdeal.Read
import proofs.«106505_j49632642072960_2_alg».proof.Proof.Gen.Pre_finite_inputs
import proofs.«106505_j49632642072960_2_alg».proof.Proof.WTwoPass
import proofs.«106505_j49632642072960_2_alg».proof.Proof.TwoPass
import proofs.«106505_j49632642072960_2_alg».proof.Proof.Final
import proofs.«106505_j49632642072960_2_alg».proof.Proof.RefIsG
import proofs.«106505_j49632642072960_2_alg».proof.Proof.PreReal

noncomputable section

namespace Cert.Proof

open Idealize.ShloMosaic Idealize.SL.Sem

/-- The word-level kernel runs to the end and leaves its arguments as launched. -/
theorem frame_kernel : Cert.frame_Kernel := fun m ρ _ => Cert.Kernel.Hand.frame (F := Bits) m ρ

/-- So does its reading on the extended reals. -/
theorem frame_kernelIdeal : Cert.frame_KernelIdeal := fun m ρ _ => Cert.KernelIdeal.Hand.frame (F := Ideal) m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- From memories agreeing on the arguments, finite, both programs end with the pooled label attention of the
    arguments: the kernel by its two passes, the reference by its definition. -/
theorem algebraic : Cert.algebraic_KernelIdeal_ReferenceIdeal := by
  intro m ρ m' ρ' hpre hagree
  refine ⟨fun c => Cert.LabelPool.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Hand.run_all (F := Ideal) m ρ)
    · exact (h c _ (Cert.KernelIdeal.Hand.mem_uc Cert.KernelIdeal.main_v1 (by decide))).trans
        (Cert.KernelIdeal.Hand.final_eq m c (Cert.PreReal.real_of_pre m hpre c).1 (Cert.PreReal.real_of_pre m hpre c).2)
    · exact (h c _ (Cert.KernelIdeal.Hand.mem_uc Cert.KernelIdeal.main_arg0 (by decide))).trans (Cert.KernelIdeal.Hand.W2_main_arg0 m c)
    · exact (h c _ (Cert.KernelIdeal.Hand.mem_uc Cert.KernelIdeal.main_arg1 (by decide))).trans (Cert.KernelIdeal.Hand.W2_main_arg1 m c)
  · refine (θ_run Cert.ReferenceIdeal.defs _ _).mono (fun r h c => ⟨?_, (h c).2⟩) (Cert.ReferenceIdeal.RefValue.run_G m' ρ')
    rw [(h c).1, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
